-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v129_0)) (v1 : (c : Dev Cert.KernelIdeal.nD) → Buf (Elt Ideal) ((c.tc : Thread Cert.KernelIdeal.nD Cert.KernelIdeal.τ).loc Cert.KernelIdeal.main_v129_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129_0) = v0 c
          ∧ r.2.mem ((c.tc : Thread Cert.KernelIdeal.nD Cert.KernelIdeal.τ).loc Cert.KernelIdeal.main_v129_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_arg15 : FVec F S40 .f32) (main_v63 : IVec S_ 1) (main_v67 : IVec S_ 1) : IVec S_ 1 :=
  let main_v68 : IVec S_ 1 := andi main_v63 main_v67
  let main_v69 : FVec F S40 .f32 := Host.absf main_arg15
  let main_cst_26 : FVec F S_ .f32 := constant S_ .f32 0x7F800000#32
  let main_v70 : FVec F S40 .f32 := broadcastInDim S40 ![] bcast_S_S40 main_cst_26
  let main_v71 : IVec S40 1 := cmpf .olt main_v69 main_v70
  let main_c_27 : IVec S_ 1 := constantI S_ 1 1#1
  let main_v72 : IVec S_ 1 := (fun x v => Host.reduce IntOp.andi x v reducesTo_S40_S_d0 h_S_) main_v71 main_c_27
  let main_v73 : IVec S_ 1 := andi main_v68 main_v72
  main_v73

def fn_part3 {F : FTy → Type} [FloatOps F] (main_arg12 : FVec F S128 .f32) (main_arg13 : FVec F S128 .f32) (main_arg14 : FVec F S128x40 .f32) (main_arg15 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x40 .f32 := Host.absf main_arg14
  let main_cst_24 : FVec F S_ .f32 := constant S_ .f32 0x7F800000#32
  let main_v65 : FVec F S128x40 .f32 := broadcastInDim S128x40 ![] bcast_S_S128x40 main_cst_24
  let main_v66 : IVec S128x40 1 := cmpf .olt main_v64 main_v65
  let main_c_25 : IVec S_ 1 := constantI S_ 1 1#1
  let main_v67 : IVec S_ 1 := (fun x v => Host.reduce IntOp.andi x v reducesTo_S128x40_S_d0_1 h_S_) main_v66 main_c_25
  fn_part4 (F := F) main_arg15 main_v63 main_v67

def fn_part2 {F : FTy → Type} [FloatOps F] (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128x40 .f32) (main_arg15 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128x40 .f32) (main_arg15 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128x40 .f32) (main_arg15 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S10000x128 : Shape := ⟨2, ![10000, 128]⟩
abbrev S1650000x128 : Shape := ⟨2, ![1650000, 128]⟩
abbrev S1x128 : Shape := ⟨2, ![1, 128]⟩
abbrev S1x40 : Shape := ⟨2, ![1, 40]⟩
abbrev S50000x40 : Shape := ⟨2, ![50000, 40]⟩
abbrev S10000x40 : Shape := ⟨2, ![10000, 40]⟩
abbrev S10000 : Shape := ⟨1, ![10000]⟩
abbrev S10000x1 : Shape := ⟨2, ![10000, 1]⟩

abbrev nBuf : Space → Nat
  | .hbm => 179
  | .vmem => 50
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128x40, .f32⟩
  | 15 => ⟨S40, .f32⟩
  | 16 => ⟨S50000, .i32⟩
  | 17 => ⟨S1x1600000, .i32⟩
  | 18 => ⟨S1600000, .i32⟩
  | 19 => ⟨S1650000, .i32⟩
  | 20 => ⟨S1x1600000, .i32⟩
  | 21 => ⟨S1600000, .i32⟩
  | 22 => ⟨S1650000, .i32⟩
  | 23 => ⟨S_, .f32⟩
  | 24 => ⟨S1650000, .f32⟩
  | 25 => ⟨S_, .f32⟩
  | 26 => ⟨S50000, .f32⟩
  | 27 => ⟨S1650000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S50000, .f32⟩
  | 34 => ⟨S50000, .f32⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S1650000, .i32⟩
  | 42 => ⟨S1650000, .i1⟩
  | 43 => ⟨S_, .i32⟩
  | 44 => ⟨S1650000, .i32⟩
  | 45 => ⟨S1650000, .i32⟩
  | 46 => ⟨S1650000, .i32⟩
  | 47 => ⟨S1650000x1, .i32⟩
  | 48 => ⟨S1650000, .f32⟩
  | 49 => ⟨S_, .i32⟩
  | 50 => ⟨S1650000, .i32⟩
  | 51 => ⟨S1650000, .i1⟩
  | 52 => ⟨S_, .i32⟩
  | 53 => ⟨S1650000, .i32⟩
  | 54 => ⟨S1650000, .i32⟩
  | 55 => ⟨S1650000, .i32⟩
  | 56 => ⟨S1650000x1, .i32⟩
  | 57 => ⟨S1650000, .f32⟩
  | 58 => ⟨S1650000, .f32⟩
  | 59 => ⟨S50000x128, .f32⟩
  | 60 => ⟨S_, .i32⟩
  | 61 => ⟨S1650000, .i32⟩
  | 62 => ⟨S1650000, .i1⟩
  | 63 => ⟨S_, .i32⟩
  | 64 => ⟨S1650000, .i32⟩
  | 65 => ⟨S1650000, .i32⟩
  | 66 => ⟨S1650000, .i32⟩
  | 67 => ⟨S1650000x1, .i32⟩
  | 68 => ⟨S1650000x128, .f32⟩
  | 69 => ⟨S1650000x1, .f32⟩
  | 70 => ⟨S1650000x128, .f32⟩
  | 71 => ⟨S1650000x128, .f32⟩
  | 72 => ⟨S_, .f32⟩
  | 73 => ⟨S50000x128, .f32⟩
  | 74 => ⟨S1650000x1, .i32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S50000x128, .f32⟩
  | 88 => ⟨S_, .f32⟩
  | 89 => ⟨S128, .f32⟩
  | 90 => ⟨S_, .f32⟩
  | 91 => ⟨S128, .f32⟩
  | 92 => ⟨S128, .f32⟩
  | 93 => ⟨S1x128, .f32⟩
  | 94 => ⟨S1x128, .f32⟩
  | 95 => ⟨S1x128, .f32⟩
  | 96 => ⟨S1x128, .f32⟩
  | 97 => ⟨S50000x128, .f32⟩
  | 98 => ⟨S50000x128, .f32⟩
  | 99 => ⟨S_, .i32⟩
  | 100 => ⟨S1650000, .i32⟩
  | 101 => ⟨S1650000, .i1⟩
  | 102 => ⟨S_, .i32⟩
  | 103 => ⟨S1650000, .i32⟩
  | 104 => ⟨S1650000, .i32⟩
  | 105 => ⟨S1650000, .i32⟩
  | 106 => ⟨S1650000x1, .i32⟩
  | 107 => ⟨S1650000x128, .f32⟩
  | 108 => ⟨S1650000x1, .f32⟩
  | 109 => ⟨S1650000x128, .f32⟩
  | 110 => ⟨S1650000x128, .f32⟩
  | 111 => ⟨S_, .f32⟩
  | 112 => ⟨S50000x128, .f32⟩
  | 113 => ⟨S1650000x1, .i32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S128, .f32⟩
  | 120 => ⟨S_, .f32⟩
  | 121 => ⟨S128, .f32⟩
  | 122 => ⟨S128, .f32⟩
  | 123 => ⟨S1x128, .f32⟩
  | 124 => ⟨S50000x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S1x128, .f32⟩
  | 5 => ⟨S1x128, .f32⟩
  | 6 => ⟨S1x128, .f32⟩
  | 7 => ⟨S1x128, .f32⟩
  | 8 => ⟨S50000x128, .f32⟩
  | 9 => ⟨S50000x128, .f32⟩
  | 10 => ⟨S_, .i32⟩
  | 11 => ⟨S1650000, .i32⟩
  | 12 => ⟨S1650000, .i1⟩
  | 13 => ⟨S_, .i32⟩
  | 14 => ⟨S1650000, .i32⟩
  | 15 => ⟨S1650000, .i32⟩
  | 16 => ⟨S1650000, .i32⟩
  | 17 => ⟨S1650000x1, .i32⟩
  | 18 => ⟨S1650000x128, .f32⟩
  | 19 => ⟨S1650000x1, .f32⟩
  | 20 => ⟨S1650000x128, .f32⟩
  | 21 => ⟨S1650000x128, .f32⟩
  | 22 => ⟨S_, .f32⟩
  | 23 => ⟨S50000x128, .f32⟩
  | 24 => ⟨S1650000x1, .i32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S128, .f32⟩
  | 31 => ⟨S_, .f32⟩
  | 32 => ⟨S128, .f32⟩
  | 33 => ⟨S128, .f32⟩
  | 34 => ⟨S1x128, .f32⟩
  | 35 => ⟨S50000x128, .f32⟩
  | 36 => ⟨S50000x128, .f32⟩
  | 37 => ⟨S50000x128, .f32⟩
  | 38 => ⟨S_, .f32⟩
  | 39 => ⟨S128, .f32⟩
  | 40 => ⟨S_, .f32⟩
  | 41 => ⟨S128, .f32⟩
  | 42 => ⟨S128, .f32⟩
  | 43 => ⟨S1x128, .f32⟩
  | 44 => ⟨S1x128, .f32⟩
  | 45 => ⟨S1x128, .f32⟩
  | 46 => ⟨S1x128, .f32⟩
  | 47 => ⟨S50000x128, .f32⟩
  | 48 => ⟨S1x40, .f32⟩
  | 49 => ⟨S50000x40, .f32⟩
  | 50 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S128x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S128x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S128x40, .f32⟩
  | .local _ .vmem, ⟨45, _⟩ => ⟨S1x40, .f32⟩
  | .local _ .vmem, ⟨46, _⟩ => ⟨S10000x40, .f32⟩
  | .local _ .vmem, ⟨47, _⟩ => ⟨S10000x40, .f32⟩
  | .local _ .vmem, ⟨48, _⟩ => ⟨S10000x40, .f32⟩
  | .local _ .vmem, ⟨49, _⟩ => ⟨S10000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_12 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_14 : Ref sig .tc := ⟨.hbm, 99, rfl⟩
abbrev main_v65 : Ref sig .tc := ⟨.hbm, 100, rfl⟩
abbrev main_v66 : Ref sig .tc := ⟨.hbm, 101, rfl⟩
abbrev main_c_15 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_17 : Ref sig .tc := ⟨.hbm, 118, rfl⟩
abbrev main_v81 : Ref sig .tc := ⟨.hbm, 119, rfl⟩
abbrev main_cst_18 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_cst_20 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_c_21 : Ref sig .tc := ⟨.hbm, 138, rfl⟩
abbrev main_v97 : Ref sig .tc := ⟨.hbm, 139, rfl⟩
abbrev main_v98 : Ref sig .tc := ⟨.hbm, 140, rfl⟩
abbrev main_c_22 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_23 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_24 : Ref sig .tc := ⟨.hbm, 157, rfl⟩
abbrev main_v113 : Ref sig .tc := ⟨.hbm, 158, rfl⟩
abbrev main_cst_25 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_26 : Ref sig .tc := ⟨.hbm, 166, rfl⟩
abbrev main_v120 : Ref sig .tc := ⟨.hbm, 167, rfl⟩
abbrev main_cst_27 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129_0 : Ref sig .tc := ⟨.hbm, 177, rfl⟩
abbrev main_v129_1 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc6_stg4_0 : Ref sig .tc := ⟨.vmem, 48, rfl⟩
abbrev cc6_stg4_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47
abbrev cc6_sem4_0 : DmaSem sig := 48
abbrev cc6_sem4_1 : DmaSem sig := 49

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x40 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S10000x40 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S10000x128_S128x128_S10000x128_1_0_0_1_n_n_wf : DotDims.WF S10000x128 S128x128 S10000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S10000x128_S128x40_S10000x40_1_0_0_1_n_n_wf : DotDims.WF S10000x128 S128x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S50000x128.size a
  hwx1_6 : ∀ i : grid1.Coords, EltTy.bits .f32 = 32 ∨ (Rect.block (s := S50000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x128.size a ≤ S50000x128.size a
  hwx3_6 : ∀ i : grid3.Coords, EltTy.bits .f32 = 32 ∨ (Rect.block (s := S50000x128) S10000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S50000x128.size a
  hwx4_2 : ∀ i : grid4.Coords, EltTy.bits .f32 = 32 ∨ (Rect.block (s := S50000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x128.size a ≤ S50000x128.size a
  hwx5_6 : ∀ i : grid5.Coords, EltTy.bits .f32 = 32 ∨ (Rect.block (s := S50000x128) S10000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .f32 = 32 ∨ (Rect.block (s := S50000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .f32 = 32 ∨ (Rect.block (s := S128x40) S128x40.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x40.size a ≤ S1x40.size a
  hwx6_2 : ∀ i : grid6.Coords, EltTy.bits .f32 = 32 ∨ (Rect.block (s := S1x40) S1x40.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x40.size a ≤ S50000x40.size a
  hwx6_3 : ∀ i : grid6.Coords, EltTy.bits .f32 = 32 ∨ (Rect.block (s := S50000x40) S10000x40.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x40.size a ≤ S50000x40.size a
  hwx6_4 : ∀ i : grid6.Coords, EltTy.bits .f32 = 32 ∨ (Rect.block (s := S50000x40) S10000x40.size (cc6_transform_4 i) (hinb6_4 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v62) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v63) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v63) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v77) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v92) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v94) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v91) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v95) S10000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v95) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v109) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v124) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v125) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v126) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v116) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v123) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v127) S10000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v127) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v128) S1x40.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v129_0) S10000x40.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v129_1) S10000x40.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x40 : Shape := ⟨2, ![50000, 40]⟩
abbrev S1x40 : Shape := ⟨2, ![1, 40]⟩
abbrev S50000x1 : Shape := ⟨2, ![50000, 1]⟩

abbrev nBuf : Space → Nat
  | .hbm => 240
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128x40, .f32⟩
  | 15 => ⟨S40, .f32⟩
  | 16 => ⟨S50000, .i32⟩
  | 17 => ⟨S1x1600000, .i32⟩
  | 18 => ⟨S1600000, .i32⟩
  | 19 => ⟨S1650000, .i32⟩
  | 20 => ⟨S1x1600000, .i32⟩
  | 21 => ⟨S1600000, .i32⟩
  | 22 => ⟨S1650000, .i32⟩
  | 23 => ⟨S_, .f32⟩
  | 24 => ⟨S1650000, .f32⟩
  | 25 => ⟨S_, .f32⟩
  | 26 => ⟨S50000, .f32⟩
  | 27 => ⟨S1650000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S50000, .f32⟩
  | 34 => ⟨S50000, .f32⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S1650000, .i32⟩
  | 42 => ⟨S1650000, .i1⟩
  | 43 => ⟨S_, .i32⟩
  | 44 => ⟨S1650000, .i32⟩
  | 45 => ⟨S1650000, .i32⟩
  | 46 => ⟨S1650000, .i32⟩
  | 47 => ⟨S1650000x1, .i32⟩
  | 48 => ⟨S1650000, .f32⟩
  | 49 => ⟨S_, .i32⟩
  | 50 => ⟨S1650000, .i32⟩
  | 51 => ⟨S1650000, .i1⟩
  | 52 => ⟨S_, .i32⟩
  | 53 => ⟨S1650000, .i32⟩
  | 54 => ⟨S1650000, .i32⟩
  | 55 => ⟨S1650000, .i32⟩
  | 56 => ⟨S1650000x1, .i32⟩
  | 57 => ⟨S1650000, .f32⟩
  | 58 => ⟨S1650000, .f32⟩
  | 59 => ⟨S50000x128, .f32⟩
  | 60 => ⟨S_, .i32⟩
  | 61 => ⟨S1650000, .i32⟩
  | 62 => ⟨S1650000, .i1⟩
  | 63 => ⟨S_, .i32⟩
  | 64 => ⟨S1650000, .i32⟩
  | 65 => ⟨S1650000, .i32⟩
  | 66 => ⟨S1650000, .i32⟩
  | 67 => ⟨S1650000x1, .i32⟩
  | 68 => ⟨S1650000x128, .f32⟩
  | 69 => ⟨S1650000x1, .f32⟩
  | 70 => ⟨S1650000x128, .f32⟩
  | 71 => ⟨S1650000x128, .f32⟩
  | 72 => ⟨S_, .f32⟩
  | 73 => ⟨S50000x128, .f32⟩
  | 74 => ⟨S1650000x1, .i32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S50000x128, .f32⟩
  | 88 => ⟨S_, .f32⟩
  | 89 => ⟨S128, .f32⟩
  | 90 => ⟨S_, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S128, .f32⟩
  | 101 => ⟨S128, .f32⟩
  | 102 => ⟨S128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S50000x128, .f32⟩
  | 113 => ⟨S_, .i32⟩
  | 114 => ⟨S1650000, .i32⟩
  | 115 => ⟨S1650000, .i1⟩
  | 116 => ⟨S_, .i32⟩
  | 117 => ⟨S1650000, .i32⟩
  | 118 => ⟨S1650000, .i32⟩
  | 119 => ⟨S1650000, .i32⟩
  | 120 => ⟨S1650000x1, .i32⟩
  | 121 => ⟨S1650000x128, .f32⟩
  | 122 => ⟨S1650000x1, .f32⟩
  | 123 => ⟨S1650000x128, .f32⟩
  | 124 => ⟨S1650000x128, .f32⟩
  | 125 => ⟨S_, .f32⟩
  | 126 => ⟨S50000x128, .f32⟩
  | 127 => ⟨S1650000x1, .i32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S128, .f32⟩
  | 6 => ⟨S_, .f32⟩
  | 7 => ⟨S128, .f32⟩
  | 8 => ⟨S128, .f32⟩
  | 9 => ⟨S1x128, .f32⟩
  | 10 => ⟨S50000x128, .f32⟩
  | 11 => ⟨S50000x128, .f32⟩
  | 12 => ⟨S50000x128, .f32⟩
  | 13 => ⟨S_, .f32⟩
  | 14 => ⟨S128, .f32⟩
  | 15 => ⟨S_, .f32⟩
  | 16 => ⟨S128, .f32⟩
  | 17 => ⟨S128, .f32⟩
  | 18 => ⟨S1x128, .f32⟩
  | 19 => ⟨S50000x128, .f32⟩
  | 20 => ⟨S50000x128, .f32⟩
  | 21 => ⟨S1x128, .f32⟩
  | 22 => ⟨S50000x128, .f32⟩
  | 23 => ⟨S50000x128, .f32⟩
  | 24 => ⟨S_, .f32⟩
  | 25 => ⟨S128, .f32⟩
  | 26 => ⟨S128, .f32⟩
  | 27 => ⟨S128, .f32⟩
  | 28 => ⟨S1x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S50000x128, .f32⟩
  | 38 => ⟨S_, .i32⟩
  | 39 => ⟨S1650000, .i32⟩
  | 40 => ⟨S1650000, .i1⟩
  | 41 => ⟨S_, .i32⟩
  | 42 => ⟨S1650000, .i32⟩
  | 43 => ⟨S1650000, .i32⟩
  | 44 => ⟨S1650000, .i32⟩
  | 45 => ⟨S1650000x1, .i32⟩
  | 46 => ⟨S1650000x128, .f32⟩
  | 47 => ⟨S1650000x1, .f32⟩
  | 48 => ⟨S1650000x128, .f32⟩
  | 49 => ⟨S1650000x128, .f32⟩
  | 50 => ⟨S_, .f32⟩
  | 51 => ⟨S50000x128, .f32⟩
  | 52 => ⟨S1650000x1, .i32⟩
  | 53 => ⟨S50000x128, .f32⟩
  | 54 => ⟨S1x128, .f32⟩
  | 55 => ⟨S50000x128, .f32⟩
  | 56 => ⟨S50000x128, .f32⟩
  | 57 => ⟨S_, .f32⟩
  | 58 => ⟨S128, .f32⟩
  | 59 => ⟨S_, .f32⟩
  | 60 => ⟨S128, .f32⟩
  | 61 => ⟨S128, .f32⟩
  | 62 => ⟨S1x128, .f32⟩
  | 63 => ⟨S50000x128, .f32⟩
  | 64 => ⟨S50000x128, .f32⟩
  | 65 => ⟨S50000x128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S128, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S50000x40, .f32⟩
  | 91 => ⟨S1x40, .f32⟩
  | 92 => ⟨S50000x40, .f32⟩
  | 93 => ⟨S50000x40, .f32⟩
  | 94 => ⟨S_, .f32⟩
  | 95 => ⟨S50000x40, .f32⟩
  | 96 => ⟨S50000x40, .f32⟩
  | 97 => ⟨S_, .f32⟩
  | 98 => ⟨S50000, .f32⟩
  | 99 => ⟨S_, .f32⟩
  | 100 => ⟨S50000, .f32⟩
  | 101 => ⟨S50000, .f32⟩
  | 102 => ⟨S50000x1, .f32⟩
  | 103 => ⟨S50000x40, .f32⟩
  | 104 => ⟨S50000x40, .f32⟩
  | 105 => ⟨S50000x40, .f32⟩
  | 106 => ⟨S_, .f32⟩
  | 107 => ⟨S50000, .f32⟩
  | 108 => ⟨S50000x1, .f32⟩
  | 109 => ⟨S50000x1, .f32⟩
  | 110 => ⟨S50000x40, .f32⟩
  | 111 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_12 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_call1_cst : Ref sig .tc := ⟨.hbm, 109, rfl⟩
abbrev main_call1_v0 : Ref sig .tc := ⟨.hbm, 110, rfl⟩
abbrev main_v74 : Ref sig .tc := ⟨.hbm, 111, rfl⟩
abbrev main_v75 : Ref sig .tc := ⟨.hbm, 112, rfl⟩
abbrev main_c_15 : Ref sig .tc := ⟨.hbm, 113, rfl⟩
abbrev main_v76 : Ref sig .tc := ⟨.hbm, 114, rfl⟩
abbrev main_v77 : Ref sig .tc := ⟨.hbm, 115, rfl⟩
abbrev main_c_16 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_17 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_18 : Ref sig .tc := ⟨.hbm, 132, rfl⟩
abbrev main_v92 : Ref sig .tc := ⟨.hbm, 133, rfl⟩
abbrev main_cst_19 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_20 : Ref sig .tc := ⟨.hbm, 141, rfl⟩
abbrev main_v99 : Ref sig .tc := ⟨.hbm, 142, rfl⟩
abbrev main_cst_21 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_22 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_call2_cst : Ref sig .tc := ⟨.hbm, 162, rfl⟩
abbrev main_call2_v0 : Ref sig .tc := ⟨.hbm, 163, rfl⟩
abbrev main_v117 : Ref sig .tc := ⟨.hbm, 164, rfl⟩
abbrev main_v118 : Ref sig .tc := ⟨.hbm, 165, rfl⟩
abbrev main_c_23 : Ref sig .tc := ⟨.hbm, 166, rfl⟩
abbrev main_v119 : Ref sig .tc := ⟨.hbm, 167, rfl⟩
abbrev main_v120 : Ref sig .tc := ⟨.hbm, 168, rfl⟩
abbrev main_c_24 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_25 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_cst_26 : Ref sig .tc := ⟨.hbm, 185, rfl⟩
abbrev main_v135 : Ref sig .tc := ⟨.hbm, 186, rfl⟩
abbrev main_cst_27 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_cst_28 : Ref sig .tc := ⟨.hbm, 194, rfl⟩
abbrev main_v142 : Ref sig .tc := ⟨.hbm, 195, rfl⟩
abbrev main_cst_29 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_cst_30 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_call3_cst : Ref sig .tc := ⟨.hbm, 215, rfl⟩
abbrev main_call3_v0 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_call4_cst : Ref sig .tc := ⟨.hbm, 222, rfl⟩
abbrev main_call4_v0 : Ref sig .tc := ⟨.hbm, 223, rfl⟩
abbrev main_v165 : Ref sig .tc := ⟨.hbm, 224, rfl⟩
abbrev main_call5_cst : Ref sig .tc := ⟨.hbm, 225, rfl⟩
abbrev main_call5_v0 : Ref sig .tc := ⟨.hbm, 226, rfl⟩
abbrev main_call5_cst_0 : Ref sig .tc := ⟨.hbm, 227, rfl⟩
abbrev main_call5_v1 : Ref sig .tc := ⟨.hbm, 228, rfl⟩
abbrev main_call5_v2 : Ref sig .tc := ⟨.hbm, 229, rfl⟩
abbrev main_call5_v3 : Ref sig .tc := ⟨.hbm, 230, rfl⟩
abbrev main_call5_v4 : Ref sig .tc := ⟨.hbm, 231, rfl⟩
abbrev main_call5_v5 : Ref sig .tc := ⟨.hbm, 232, rfl⟩
abbrev main_call5_v6 : Ref sig .tc := ⟨.hbm, 233, rfl⟩
abbrev main_call5_cst_1 : Ref sig .tc := ⟨.hbm, 234, rfl⟩
abbrev main_call5_v7 : Ref sig .tc := ⟨.hbm, 235, rfl⟩
abbrev main_call5_v8 : Ref sig .tc := ⟨.hbm, 236, rfl⟩
abbrev main_call5_v9 : Ref sig .tc := ⟨.hbm, 237, rfl⟩
abbrev main_call5_v10 : Ref sig .tc := ⟨.hbm, 238, rfl⟩
abbrev main_v166 : Ref sig .tc := ⟨.hbm, 239, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  bcast_S_S50000x40 : S_.BroadcastsInDim S50000x40 (![] : Fin 0 → Fin S50000x40.rank)
  reducesTo_S50000x40_S50000_d1 : S50000x40.ReducesTo [1] S50000
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x40_S50000x40_1_0_0_1_n_n_wf : DotDims.WF S50000x128 S128x40 S50000x40 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.RefValue.lean ====
/-
  What the reference's run leaves in its buffers.

  The reference is one straight line of 224 host operations, and every buffer ends at the fold of their results over the
  launch contents. The line is cut into five consecutive pieces — the edge arrays, the three layers, the final dense
  layer with its log-softmax — and the fold over the line is the fold over the pieces in turn. Each piece reads a few
  buffers and leaves, in the buffer the next piece reads, the corresponding stage of the program as a function of the
  arguments; no operation writes an argument, and a piece leaves alone every buffer it does not write. So the two result
  buffers end at the last stages, the log-softmax and the logits, of the sixteen arguments.
-/
import proofs.«149855_j47364899340880_1_alg».proof.Proof.RefRun
import proofs.«149855_j47364899340880_1_alg».proof.Proof.RefRead

set_option maxRecDepth 16384

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.ShloMosaic.StableHlo Idealize.SL.Sem

section Pieces
variable {F : FTy → Type} [FloatOps F]

/-! ## The program's operations, re-listed in five consecutive pieces -/

/-- Operations 1 … 43 of the line. -/
abbrev seg0 : List (HloOp τ sig (Elt F)) :=
  [ nullary main_v0 (iotaInDim S50000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst (constant S_ .f32 0x3F800000#32),
    unary main_cst main_v7 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S1650000x1 ![0] bcast_S1650000_S1650000x1_0 : (⟨S1650000, .i32⟩ : BufTy).Contents (Elt F) → (⟨S1650000x1, .i32⟩ : BufTy).Contents (Elt F)),
    ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v10 main_v13 main_v14 (maximumf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v15) (TRef.of (T := ⟨S50000, .f32⟩) main_call0_v1) (TRef.of (T := ⟨S50000, .f32⟩) main_v16) select,
    nullary main_c (constantI S_ 32 0#32),
    unary main_c main_v17 (broadcastInDim S1650000 ![] bcast_S_S1650000 : (⟨S_, .i32⟩ : BufTy).Contents (Elt F) → (⟨S1650000, .i32⟩ : BufTy).Contents (Elt F)),
    binary main_v3 main_v17 main_v18 (cmpi .slt : (⟨S1650000, .i32⟩ : BufTy).Contents (Elt F) → (⟨S1650000, .i32⟩ : BufTy).Contents (Elt F) → (⟨S1650000, .i1⟩ : BufTy).Contents (Elt F)),
    nullary main_c_4 (constantI S_ 32 50000#32),
    unary main_c_4 main_v19 (broadcastInDim S1650000 ![] bcast_S_S1650000 : (⟨S_, .i32⟩ : BufTy).Contents (Elt F) → (⟨S1650000, .i32⟩ : BufTy).Contents (Elt F)),
    binary main_v3 main_v19 main_v20 (addi : (⟨S1650000, .i32⟩ : BufTy).Contents (Elt F) → (⟨S1650000, .i32⟩ : BufTy).Contents (Elt F) → (⟨S1650000, .i32⟩ : BufTy).Contents (Elt F)),
    ternary main_v18 main_v20 main_v3 main_v21 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v21 main_v22 (broadcastInDim S1650000x1 ![0] bcast_S1650000_S1650000x1_0 : (⟨S1650000, .i32⟩ : BufTy).Contents (Elt F) → (⟨S1650000x1, .i32⟩ : BufTy).Contents (Elt F)),
    binary main_v16 main_v22 main_v23 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_5 (constantI S_ 32 0#32),
    unary main_c_5 main_v24 (broadcastInDim S1650000 ![] bcast_S_S1650000 : (⟨S_, .i32⟩ : BufTy).Contents (Elt F) → (⟨S1650000, .i32⟩ : BufTy).Contents (Elt F)),
    binary main_v6 main_v24 main_v25 (cmpi .slt : (⟨S1650000, .i32⟩ : BufTy).Contents (Elt F) → (⟨S1650000, .i32⟩ : BufTy).Contents (Elt F) → (⟨S1650000, .i1⟩ : BufTy).Contents (Elt F)),
    nullary main_c_6 (constantI S_ 32 50000#32),
    unary main_c_6 main_v26 (broadcastInDim S1650000 ![] bcast_S_S1650000 : (⟨S_, .i32⟩ : BufTy).Contents (Elt F) → (⟨S1650000, .i32⟩ : BufTy).Contents (Elt F)),
    binary main_v6 main_v26 main_v27 (addi : (⟨S1650000, .i32⟩ : BufTy).Contents (Elt F) → (⟨S1650000, .i32⟩ : BufTy).Contents (Elt F) → (⟨S1650000, .i32⟩ : BufTy).Contents (Elt F)),
    ternary main_v25 main_v27 main_v6 main_v28 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v28 main_v29 (broadcastInDim S1650000x1 ![0] bcast_S1650000_S1650000x1_0 : (⟨S1650000, .i32⟩ : BufTy).Contents (Elt F) → (⟨S1650000x1, .i32⟩ : BufTy).Contents (Elt F)),
    binary main_v16 main_v29 main_v30 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v23 main_v30 main_v31 (mulf : (⟨S1650000, .f32⟩ : BufTy).Contents (Elt F) → (⟨S1650000, .f32⟩ : BufTy).Contents (Elt F) → (⟨S1650000, .f32⟩ : BufTy).Contents (Elt F)) ]

/-- Operations 44 … 96 of the line. -/
abbrev seg1 : List (HloOp τ sig (Elt F)) :=
  [ binary main_arg0 main_arg2 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_7 (constantI S_ 32 0#32),
    unary main_c_7 main_v33 (broadcastInDim S1650000 ![] bcast_S_S1650000 : (⟨S_, .i32⟩ : BufTy).Contents (Elt F) → (⟨S1650000, .i32⟩ : BufTy).Contents (Elt F)),
    binary main_v3 main_v33 main_v34 (cmpi .slt : (⟨S1650000, .i32⟩ : BufTy).Contents (Elt F) → (⟨S1650000, .i32⟩ : BufTy).Contents (Elt F) → (⟨S1650000, .i1⟩ : BufTy).Contents (Elt F)),
    nullary main_c_8 (constantI S_ 32 50000#32),
    unary main_c_8 main_v35 (broadcastInDim S1650000 ![] bcast_S_S1650000 : (⟨S_, .i32⟩ : BufTy).Contents (Elt F) → (⟨S1650000, .i32⟩ : BufTy).Contents (Elt F)),
    binary main_v3 main_v35 main_v36 (addi : (⟨S1650000, .i32⟩ : BufTy).Contents (Elt F) → (⟨S1650000, .i32⟩ : BufTy).Contents (Elt F) → (⟨S1650000, .i32⟩ : BufTy).Contents (Elt F)),
    ternary main_v34 main_v36 main_v3 main_v37 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v37 main_v38 (broadcastInDim S1650000x1 ![0] bcast_S1650000_S1650000x1_0 : (⟨S1650000, .i32⟩ : BufTy).Contents (Elt F) → (⟨S1650000x1, .i32⟩ : BufTy).Contents (Elt F)),
    binary main_v32 main_v38 main_v39 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v31 main_v40 (broadcastInDim S1650000x1 ![0] bcast_S1650000_S1650000x1_0 : (⟨S1650000, .f32⟩ : BufTy).Contents (Elt F) → (⟨S1650000x1, .f32⟩ : BufTy).Contents (Elt F)),
    unary main_v40 main_v41 (broadcastInDim S1650000x128 ![0, 1] bcast_S1650000x1_S1650000x128_0_1 : (⟨S1650000x1, .f32⟩ : BufTy).Contents (Elt F) → (⟨S1650000x128, .f32⟩ : BufTy).Contents (Elt F)),
    binary main_v39 main_v41 main_v42 (mulf : (⟨S1650000x128, .f32⟩ : BufTy).Contents (Elt F) → (⟨S1650000x128, .f32⟩ : BufTy).Contents (Elt F) → (⟨S1650000x128, .f32⟩ : BufTy).Contents (Elt F)),
    nullary main_cst_9 (constant S_ .f32 0x00000000#32),
    unary main_cst_9 main_v43 (broadcastInDim S50000x128 ![] bcast_S_S50000x128 : (⟨S_, .f32⟩ : BufTy).Contents (Elt F) → (⟨S50000x128, .f32⟩ : BufTy).Contents (Elt F)),
    unary main_v6 main_v44 (broadcastInDim S1650000x1 ![0] bcast_S1650000_S1650000x1_0 : (⟨S1650000, .i32⟩ : BufTy).Contents (Elt F) → (⟨S1650000x1, .i32⟩ : BufTy).Contents (Elt F)),
    ternary main_v43 main_v44 main_v42 main_v45 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x00000000#32),
    binary main_v48 main_cst_10 main_v49 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_11 (constant S_ .f32 0x47435000#32),
    unary main_cst_11 main_v50 (broadcastInDim S128 ![] bcast_S_S128 : (⟨S_, .f32⟩ : BufTy).Contents (Elt F) → (⟨S128, .f32⟩ : BufTy).Contents (Elt F)),
    binary main_v49 main_v50 main_v51 (Host.divf : (⟨S128, .f32⟩ : BufTy).Contents (Elt F) → (⟨S128, .f32⟩ : BufTy).Contents (Elt F) → (⟨S128, .f32⟩ : BufTy).Contents (Elt F)),
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v48 main_v53 main_v54 (subf : (⟨S50000x128, .f32⟩ : BufTy).Contents (Elt F) → (⟨S50000x128, .f32⟩ : BufTy).Contents (Elt F) → (⟨S50000x128, .f32⟩ : BufTy).Contents (Elt F)),
    binary main_v54 main_v54 main_v55 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x00000000#32),
    binary main_v55 main_cst_12 main_v56 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_13 (constant S_ .f32 0x47435000#32),
    unary main_cst_13 main_v57 (broadcastInDim S128 ![] bcast_S_S128 : (⟨S_, .f32⟩ : BufTy).Contents (Elt F) → (⟨S128, .f32⟩ : BufTy).Contents (Elt F)),
    binary main_v56 main_v57 main_v58 (Host.divf : (⟨S128, .f32⟩ : BufTy).Contents (Elt F) → (⟨S128, .f32⟩ : BufTy).Contents (Elt F) → (⟨S128, .f32⟩ : BufTy).Contents (Elt F)),
    unary main_v51 main_v59 (broadcastInDim S1x128 ![1] bcast_S128_S1x128_1 : (⟨S128, .f32⟩ : BufTy).Contents (Elt F) → (⟨S1x128, .f32⟩ : BufTy).Contents (Elt F)),
    unary main_v59 main_v60 (broadcastInDim S50000x128 ![0, 1] bcast_S1x128_S50000x128_0_1 : (⟨S1x128, .f32⟩ : BufTy).Contents (Elt F) → (⟨S50000x128, .f32⟩ : BufTy).Contents (Elt F)),
    binary main_v48 main_v60 main_v61 (subf : (⟨S50000x128, .f32⟩ : BufTy).Contents (Elt F) → (⟨S50000x128, .f32⟩ : BufTy).Contents (Elt F) → (⟨S50000x128, .f32⟩ : BufTy).Contents (Elt F)),
    unary main_arg8 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v63 main_v61 main_v64 (mulf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v65 (broadcastInDim S128 ![] bcast_S_S128 : (⟨S_, .f32⟩ : BufTy).Contents (Elt F) → (⟨S128, .f32⟩ : BufTy).Contents (Elt F)),
    binary main_v58 main_v65 main_v66 (addf : (⟨S128, .f32⟩ : BufTy).Contents (Elt F) → (⟨S128, .f32⟩ : BufTy).Contents (Elt F) → (⟨S128, .f32⟩ : BufTy).Contents (Elt F)),
    unary main_v66 main_v67 (Host.rsqrt : (⟨S128, .f32⟩ : BufTy).Contents (Elt F) → (⟨S128, .f32⟩ : BufTy).Contents (Elt F)),
    unary main_v67 main_v68 (broadcastInDim S1x128 ![1] bcast_S128_S1x128_1 : (⟨S128, .f32⟩ : BufTy).Contents (Elt F) → (⟨S1x128, .f32⟩ : BufTy).Contents (Elt F)),
    unary main_v68 main_v69 (broadcastInDim S50000x128 ![0, 1] bcast_S1x128_S50000x128_0_1 : (⟨S1x128, .f32⟩ : BufTy).Contents (Elt F) → (⟨S50000x128, .f32⟩ : BufTy).Contents (Elt F)),
    binary main_v64 main_v69 main_v70 (mulf : (⟨S50000x128, .f32⟩ : BufTy).Contents (Elt F) → (⟨S50000x128, .f32⟩ : BufTy).Contents (Elt F) → (⟨S50000x128, .f32⟩ : BufTy).Contents (Elt F)),
    unary main_arg9 main_v71 (broadcastInDim S1x128 ![1] bcast_S128_S1x128_1 : (⟨S128, .f32⟩ : BufTy).Contents (Elt F) → (⟨S1x128, .f32⟩ : BufTy).Contents (Elt F)),
    unary main_v71 main_v72 (broadcastInDim S50000x128 ![0, 1] bcast_S1x128_S50000x128_0_1 : (⟨S1x128, .f32⟩ : BufTy).Contents (Elt F) → (⟨S50000x128, .f32⟩ : BufTy).Contents (Elt F)),
    binary main_v70 main_v72 main_v73 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v73) (TRef.of (T := ⟨S50000x128, .f32⟩) main_call1_v0) (TRef.of (T := ⟨S50000x128, .f32⟩) main_v74) maximumf ]

/-- Operations 97 … 149 of the line. -/
abbrev seg2 : List (HloOp τ sig (Elt F)) :=
  [ binary main_v74 main_arg4 main_v75 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_15 (constantI S_ 32 0#32),
    unary main_c_15 main_v76 (broadcastInDim S1650000 ![] bcast_S_S1650000 : (⟨S_, .i32⟩ : BufTy).Contents (Elt F) → (⟨S1650000, .i32⟩ : BufTy).Contents (Elt F)),
    binary main_v3 main_v76 main_v77 (cmpi .slt : (⟨S1650000, .i32⟩ : BufTy).Contents (Elt F) → (⟨S1650000, .i32⟩ : BufTy).Contents (Elt F) → (⟨S1650000, .i1⟩ : BufTy).Contents (Elt F)),
    nullary main_c_16 (constantI S_ 32 50000#32),
    unary main_c_16 main_v78 (broadcastInDim S1650000 ![] bcast_S_S1650000 : (⟨S_, .i32⟩ : BufTy).Contents (Elt F) → (⟨S1650000, .i32⟩ : BufTy).Contents (Elt F)),
    binary main_v3 main_v78 main_v79 (addi : (⟨S1650000, .i32⟩ : BufTy).Contents (Elt F) → (⟨S1650000, .i32⟩ : BufTy).Contents (Elt F) → (⟨S1650000, .i32⟩ : BufTy).Contents (Elt F)),
    ternary main_v77 main_v79 main_v3 main_v80 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v80 main_v81 (broadcastInDim S1650000x1 ![0] bcast_S1650000_S1650000x1_0 : (⟨S1650000, .i32⟩ : BufTy).Contents (Elt F) → (⟨S1650000x1, .i32⟩ : BufTy).Contents (Elt F)),
    binary main_v75 main_v81 main_v82 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v31 main_v83 (broadcastInDim S1650000x1 ![0] bcast_S1650000_S1650000x1_0 : (⟨S1650000, .f32⟩ : BufTy).Contents (Elt F) → (⟨S1650000x1, .f32⟩ : BufTy).Contents (Elt F)),
    unary main_v83 main_v84 (broadcastInDim S1650000x128 ![0, 1] bcast_S1650000x1_S1650000x128_0_1 : (⟨S1650000x1, .f32⟩ : BufTy).Contents (Elt F) → (⟨S1650000x128, .f32⟩ : BufTy).Contents (Elt F)),
    binary main_v82 main_v84 main_v85 (mulf : (⟨S1650000x128, .f32⟩ : BufTy).Contents (Elt F) → (⟨S1650000x128, .f32⟩ : BufTy).Contents (Elt F) → (⟨S1650000x128, .f32⟩ : BufTy).Contents (Elt F)),
    nullary main_cst_17 (constant S_ .f32 0x00000000#32),
    unary main_cst_17 main_v86 (broadcastInDim S50000x128 ![] bcast_S_S50000x128 : (⟨S_, .f32⟩ : BufTy).Contents (Elt F) → (⟨S50000x128, .f32⟩ : BufTy).Contents (Elt F)),
    unary main_v6 main_v87 (broadcastInDim S1650000x1 ![0] bcast_S1650000_S1650000x1_0 : (⟨S1650000, .i32⟩ : BufTy).Contents (Elt F) → (⟨S1650000x1, .i32⟩ : BufTy).Contents (Elt F)),
    ternary main_v86 main_v87 main_v85 main_v88 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg5 main_v89 (broadcastInDim S1x128 ![1] bcast_S128_S1x128_1 : (⟨S128, .f32⟩ : BufTy).Contents (Elt F) → (⟨S1x128, .f32⟩ : BufTy).Contents (Elt F)),
    unary main_v89 main_v90 (broadcastInDim S50000x128 ![0, 1] bcast_S1x128_S50000x128_0_1 : (⟨S1x128, .f32⟩ : BufTy).Contents (Elt F) → (⟨S50000x128, .f32⟩ : BufTy).Contents (Elt F)),
    binary main_v88 main_v90 main_v91 (addf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x00000000#32),
    binary main_v91 main_cst_18 main_v92 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_19 (constant S_ .f32 0x47435000#32),
    unary main_cst_19 main_v93 (broadcastInDim S128 ![] bcast_S_S128 : (⟨S_, .f32⟩ : BufTy).Contents (Elt F) → (⟨S128, .f32⟩ : BufTy).Contents (Elt F)),
    binary main_v92 main_v93 main_v94 (Host.divf : (⟨S128, .f32⟩ : BufTy).Contents (Elt F) → (⟨S128, .f32⟩ : BufTy).Contents (Elt F) → (⟨S128, .f32⟩ : BufTy).Contents (Elt F)),
    unary main_v94 main_v95 (broadcastInDim S1x128 ![1] bcast_S128_S1x128_1 : (⟨S128, .f32⟩ : BufTy).Contents (Elt F) → (⟨S1x128, .f32⟩ : BufTy).Contents (Elt F)),
    unary main_v95 main_v96 (broadcastInDim S50000x128 ![0, 1] bcast_S1x128_S50000x128_0_1 : (⟨S1x128, .f32⟩ : BufTy).Contents (Elt F) → (⟨S50000x128, .f32⟩ : BufTy).Contents (Elt F)),
    binary main_v91 main_v96 main_v97 (subf : (⟨S50000x128, .f32⟩ : BufTy).Contents (Elt F) → (⟨S50000x128, .f32⟩ : BufTy).Contents (Elt F) → (⟨S50000x128, .f32⟩ : BufTy).Contents (Elt F)),
    binary main_v97 main_v97 main_v98 (mulf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x00000000#32),
    binary main_v98 main_cst_20 main_v99 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_21 (constant S_ .f32 0x47435000#32),
    unary main_cst_21 main_v100 (broadcastInDim S128 ![] bcast_S_S128 : (⟨S_, .f32⟩ : BufTy).Contents (Elt F) → (⟨S128, .f32⟩ : BufTy).Contents (Elt F)),
    binary main_v99 main_v100 main_v101 (Host.divf : (⟨S128, .f32⟩ : BufTy).Contents (Elt F) → (⟨S128, .f32⟩ : BufTy).Contents (Elt F) → (⟨S128, .f32⟩ : BufTy).Contents (Elt F)),
    unary main_v94 main_v102 (broadcastInDim S1x128 ![1] bcast_S128_S1x128_1 : (⟨S128, .f32⟩ : BufTy).Contents (Elt F) → (⟨S1x128, .f32⟩ : BufTy).Contents (Elt F)),
    unary main_v102 main_v103 (broadcastInDim S50000x128 ![0, 1] bcast_S1x128_S50000x128_0_1 : (⟨S1x128, .f32⟩ : BufTy).Contents (Elt F) → (⟨S50000x128, .f32⟩ : BufTy).Contents (Elt F)),
    binary main_v91 main_v103 main_v104 (subf : (⟨S50000x128, .f32⟩ : BufTy).Contents (Elt F) → (⟨S50000x128, .f32⟩ : BufTy).Contents (Elt F) → (⟨S50000x128, .f32⟩ : BufTy).Contents (Elt F)),
    unary main_arg10 main_v105 (broadcastInDim S1x128 ![1] bcast_S128_S1x128_1 : (⟨S128, .f32⟩ : BufTy).Contents (Elt F) → (⟨S1x128, .f32⟩ : BufTy).Contents (Elt F)),
    unary main_v105 main_v106 (broadcastInDim S50000x128 ![0, 1] bcast_S1x128_S50000x128_0_1 : (⟨S1x128, .f32⟩ : BufTy).Contents (Elt F) → (⟨S50000x128, .f32⟩ : BufTy).Contents (Elt F)),
    binary main_v106 main_v104 main_v107 (mulf : (⟨S50000x128, .f32⟩ : BufTy).Contents (Elt F) → (⟨S50000x128, .f32⟩ : BufTy).Contents (Elt F) → (⟨S50000x128, .f32⟩ : BufTy).Contents (Elt F)),
    nullary main_cst_22 (constant S_ .f32 0x3727C5AC#32),
    unary main_cst_22 main_v108 (broadcastInDim S128 ![] bcast_S_S128 : (⟨S_, .f32⟩ : BufTy).Contents (Elt F) → (⟨S128, .f32⟩ : BufTy).Contents (Elt F)),
    binary main_v101 main_v108 main_v109 (addf : (⟨S128, .f32⟩ : BufTy).Contents (Elt F) → (⟨S128, .f32⟩ : BufTy).Contents (Elt F) → (⟨S128, .f32⟩ : BufTy).Contents (Elt F)),
    unary main_v109 main_v110 (Host.rsqrt : (⟨S128, .f32⟩ : BufTy).Contents (Elt F) → (⟨S128, .f32⟩ : BufTy).Contents (Elt F)),
    unary main_v110 main_v111 (broadcastInDim S1x128 ![1] bcast_S128_S1x128_1 : (⟨S128, .f32⟩ : BufTy).Contents (Elt F) → (⟨S1x128, .f32⟩ : BufTy).Contents (Elt F)),
    unary main_v111 main_v112 (broadcastInDim S50000x128 ![0, 1] bcast_S1x128_S50000x128_0_1 : (⟨S1x128, .f32⟩ : BufTy).Contents (Elt F) → (⟨S50000x128, .f32⟩ : BufTy).Contents (Elt F)),
    binary main_v107 main_v112 main_v113 (mulf : (⟨S50000x128, .f32⟩ : BufTy).Contents (Elt F) → (⟨S50000x128, .f32⟩ : BufTy).Contents (Elt F) → (⟨S50000x128, .f32⟩ : BufTy).Contents (Elt F)),
    unary main_arg11 main_v114 (broadcastInDim S1x128 ![1] bcast_S128_S1x128_1 : (⟨S128, .f32⟩ : BufTy).Contents (Elt F) → (⟨S1x128, .f32⟩ : BufTy).Contents (Elt F)),
    unary main_v114 main_v115 (broadcastInDim S50000x128 ![0, 1] bcast_S1x128_S50000x128_0_1 : (⟨S1x128, .f32⟩ : BufTy).Contents (Elt F) → (⟨S50000x128, .f32⟩ : BufTy).Contents (Elt F)),
    binary main_v113 main_v115 main_v116 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v116) (TRef.of (T := ⟨S50000x128, .f32⟩) main_call2_v0) (TRef.of (T := ⟨S50000x128, .f32⟩) main_v117) maximumf ]

/-- Operations 150 … 202 of the line. -/
abbrev seg3 : List (HloOp τ sig (Elt F)) :=
  [ binary main_v117 main_arg6 main_v118 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_23 (constantI S_ 32 0#32),
    unary main_c_23 main_v119 (broadcastInDim S1650000 ![] bcast_S_S1650000 : (⟨S_, .i32⟩ : BufTy).Contents (Elt F) → (⟨S1650000, .i32⟩ : BufTy).Contents (Elt F)),
    binary main_v3 main_v119 main_v120 (cmpi .slt : (⟨S1650000, .i32⟩ : BufTy).Contents (Elt F) → (⟨S1650000, .i32⟩ : BufTy).Contents (Elt F) → (⟨S1650000, .i1⟩ : BufTy).Contents (Elt F)),
    nullary main_c_24 (constantI S_ 32 50000#32),
    unary main_c_24 main_v121 (broadcastInDim S1650000 ![] bcast_S_S1650000 : (⟨S_, .i32⟩ : BufTy).Contents (Elt F) → (⟨S1650000, .i32⟩ : BufTy).Contents (Elt F)),
    binary main_v3 main_v121 main_v122 (addi : (⟨S1650000, .i32⟩ : BufTy).Contents (Elt F) → (⟨S1650000, .i32⟩ : BufTy).Contents (Elt F) → (⟨S1650000, .i32⟩ : BufTy).Contents (Elt F)),
    ternary main_v120 main_v122 main_v3 main_v123 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v123 main_v124 (broadcastInDim S1650000x1 ![0] bcast_S1650000_S1650000x1_0 : (⟨S1650000, .i32⟩ : BufTy).Contents (Elt F) → (⟨S1650000x1, .i32⟩ : BufTy).Contents (Elt F)),
    binary main_v118 main_v124 main_v125 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v31 main_v126 (broadcastInDim S1650000x1 ![0] bcast_S1650000_S1650000x1_0 : (⟨S1650000, .f32⟩ : BufTy).Contents (Elt F) → (⟨S1650000x1, .f32⟩ : BufTy).Contents (Elt F)),
    unary main_v126 main_v127 (broadcastInDim S1650000x128 ![0, 1] bcast_S1650000x1_S1650000x128_0_1 : (⟨S1650000x1, .f32⟩ : BufTy).Contents (Elt F) → (⟨S1650000x128, .f32⟩ : BufTy).Contents (Elt F)),
    binary main_v125 main_v127 main_v128 (mulf : (⟨S1650000x128, .f32⟩ : BufTy).Contents (Elt F) → (⟨S1650000x128, .f32⟩ : BufTy).Contents (Elt F) → (⟨S1650000x128, .f32⟩ : BufTy).Contents (Elt F)),
    nullary main_cst_25 (constant S_ .f32 0x00000000#32),
    unary main_cst_25 main_v129 (broadcastInDim S50000x128 ![] bcast_S_S50000x128 : (⟨S_, .f32⟩ : BufTy).Contents (Elt F) → (⟨S50000x128, .f32⟩ : BufTy).Contents (Elt F)),
    unary main_v6 main_v130 (broadcastInDim S1650000x1 ![0] bcast_S1650000_S1650000x1_0 : (⟨S1650000, .i32⟩ : BufTy).Contents (Elt F) → (⟨S1650000x1, .i32⟩ : BufTy).Contents (Elt F)),
    ternary main_v129 main_v130 main_v128 main_v131 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg7 main_v132 (broadcastInDim S1x128 ![1] bcast_S128_S1x128_1 : (⟨S128, .f32⟩ : BufTy).Contents (Elt F) → (⟨S1x128, .f32⟩ : BufTy).Contents (Elt F)),
    unary main_v132 main_v133 (broadcastInDim S50000x128 ![0, 1] bcast_S1x128_S50000x128_0_1 : (⟨S1x128, .f32⟩ : BufTy).Contents (Elt F) → (⟨S50000x128, .f32⟩ : BufTy).Contents (Elt F)),
    binary main_v131 main_v133 main_v134 (addf : (⟨S50000x128, .f32⟩ : BufTy).Contents (Elt F) → (⟨S50000x128, .f32⟩ : BufTy).Contents (Elt F) → (⟨S50000x128, .f32⟩ : BufTy).Contents (Elt F)),
    nullary main_cst_26 (constant S_ .f32 0x00000000#32),
    binary main_v134 main_cst_26 main_v135 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_27 (constant S_ .f32 0x47435000#32),
    unary main_cst_27 main_v136 (broadcastInDim S128 ![] bcast_S_S128 : (⟨S_, .f32⟩ : BufTy).Contents (Elt F) → (⟨S128, .f32⟩ : BufTy).Contents (Elt F)),
    binary main_v135 main_v136 main_v137 (Host.divf : (⟨S128, .f32⟩ : BufTy).Contents (Elt F) → (⟨S128, .f32⟩ : BufTy).Contents (Elt F) → (⟨S128, .f32⟩ : BufTy).Contents (Elt F)),
    unary main_v137 main_v138 (broadcastInDim S1x128 ![1] bcast_S128_S1x128_1 : (⟨S128, .f32⟩ : BufTy).Contents (Elt F) → (⟨S1x128, .f32⟩ : BufTy).Contents (Elt F)),
    unary main_v138 main_v139 (broadcastInDim S50000x128 ![0, 1] bcast_S1x128_S50000x128_0_1 : (⟨S1x128, .f32⟩ : BufTy).Contents (Elt F) → (⟨S50000x128, .f32⟩ : BufTy).Contents (Elt F)),
    binary main_v134 main_v139 main_v140 (subf : (⟨S50000x128, .f32⟩ : BufTy).Contents (Elt F) → (⟨S50000x128, .f32⟩ : BufTy).Contents (Elt F) → (⟨S50000x128, .f32⟩ : BufTy).Contents (Elt F)),
    binary main_v140 main_v140 main_v141 (mulf : (⟨S50000x128, .f32⟩ : BufTy).Contents (Elt F) → (⟨S50000x128, .f32⟩ : BufTy).Contents (Elt F) → (⟨S50000x128, .f32⟩ : BufTy).Contents (Elt F)),
    nullary main_cst_28 (constant S_ .f32 0x00000000#32),
    binary main_v141 main_cst_28 main_v142 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_29 (constant S_ .f32 0x47435000#32),
    unary main_cst_29 main_v143 (broadcastInDim S128 ![] bcast_S_S128 : (⟨S_, .f32⟩ : BufTy).Contents (Elt F) → (⟨S128, .f32⟩ : BufTy).Contents (Elt F)),
    binary main_v142 main_v143 main_v144 (Host.divf : (⟨S128, .f32⟩ : BufTy).Contents (Elt F) → (⟨S128, .f32⟩ : BufTy).Contents (Elt F) → (⟨S128, .f32⟩ : BufTy).Contents (Elt F)),
    unary main_v137 main_v145 (broadcastInDim S1x128 ![1] bcast_S128_S1x128_1 : (⟨S128, .f32⟩ : BufTy).Contents (Elt F) → (⟨S1x128, .f32⟩ : BufTy).Contents (Elt F)),
    unary main_v145 main_v146 (broadcastInDim S50000x128 ![0, 1] bcast_S1x128_S50000x128_0_1 : (⟨S1x128, .f32⟩ : BufTy).Contents (Elt F) → (⟨S50000x128, .f32⟩ : BufTy).Contents (Elt F)),
    binary main_v134 main_v146 main_v147 (subf : (⟨S50000x128, .f32⟩ : BufTy).Contents (Elt F) → (⟨S50000x128, .f32⟩ : BufTy).Contents (Elt F) → (⟨S50000x128, .f32⟩ : BufTy).Contents (Elt F)),
    unary main_arg12 main_v148 (broadcastInDim S1x128 ![1] bcast_S128_S1x128_1 : (⟨S128, .f32⟩ : BufTy).Contents (Elt F) → (⟨S1x128, .f32⟩ : BufTy).Contents (Elt F)),
    unary main_v148 main_v149 (broadcastInDim S50000x128 ![0, 1] bcast_S1x128_S50000x128_0_1 : (⟨S1x128, .f32⟩ : BufTy).Contents (Elt F) → (⟨S50000x128, .f32⟩ : BufTy).Contents (Elt F)),
    binary main_v149 main_v147 main_v150 (mulf : (⟨S50000x128, .f32⟩ : BufTy).Contents (Elt F) → (⟨S50000x128, .f32⟩ : BufTy).Contents (Elt F) → (⟨S50000x128, .f32⟩ : BufTy).Contents (Elt F)),
    nullary main_cst_30 (constant S_ .f32 0x3727C5AC#32),
    unary main_cst_30 main_v151 (broadcastInDim S128 ![] bcast_S_S128 : (⟨S_, .f32⟩ : BufTy).Contents (Elt F) → (⟨S128, .f32⟩ : BufTy).Contents (Elt F)),
    binary main_v144 main_v151 main_v152 (addf : (⟨S128, .f32⟩ : BufTy).Contents (Elt F) → (⟨S128, .f32⟩ : BufTy).Contents (Elt F) → (⟨S128, .f32⟩ : BufTy).Contents (Elt F)),
    unary main_v152 main_v153 (Host.rsqrt : (⟨S128, .f32⟩ : BufTy).Contents (Elt F) → (⟨S128, .f32⟩ : BufTy).Contents (Elt F)),
    unary main_v153 main_v154 (broadcastInDim S1x128 ![1] bcast_S128_S1x128_1 : (⟨S128, .f32⟩ : BufTy).Contents (Elt F) → (⟨S1x128, .f32⟩ : BufTy).Contents (Elt F)),
    unary main_v154 main_v155 (broadcastInDim S50000x128 ![0, 1] bcast_S1x128_S50000x128_0_1 : (⟨S1x128, .f32⟩ : BufTy).Contents (Elt F) → (⟨S50000x128, .f32⟩ : BufTy).Contents (Elt F)),
    binary main_v150 main_v155 main_v156 (mulf : (⟨S50000x128, .f32⟩ : BufTy).Contents (Elt F) → (⟨S50000x128, .f32⟩ : BufTy).Contents (Elt F) → (⟨S50000x128, .f32⟩ : BufTy).Contents (Elt F)),
    unary main_arg13 main_v157 (broadcastInDim S1x128 ![1] bcast_S128_S1x128_1 : (⟨S128, .f32⟩ : BufTy).Contents (Elt F) → (⟨S1x128, .f32⟩ : BufTy).Contents (Elt F)),
    unary main_v157 main_v158 (broadcastInDim S50000x128 ![0, 1] bcast_S1x128_S50000x128_0_1 : (⟨S1x128, .f32⟩ : BufTy).Contents (Elt F) → (⟨S50000x128, .f32⟩ : BufTy).Contents (Elt F)),
    binary main_v156 main_v158 main_v159 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v159) (TRef.of (T := ⟨S50000x128, .f32⟩) main_call3_v0) (TRef.of (T := ⟨S50000x128, .f32⟩) main_v160) maximumf ]

/-- Operations 203 … 224 of the line. -/
abbrev seg4 : List (HloOp τ sig (Elt F)) :=
  [ binary main_v160 main_arg14 main_v161 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg15 main_v162 (broadcastInDim S1x40 ![1] bcast_S40_S1x40_1 : (⟨S40, .f32⟩ : BufTy).Contents (Elt F) → (⟨S1x40, .f32⟩ : BufTy).Contents (Elt F)),
    unary main_v162 main_v163 (broadcastInDim S50000x40 ![0, 1] bcast_S1x40_S50000x40_0_1 : (⟨S1x40, .f32⟩ : BufTy).Contents (Elt F) → (⟨S50000x40, .f32⟩ : BufTy).Contents (Elt F)),
    binary main_v161 main_v163 main_v164 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x40, .f32⟩) main_call4_v0) (broadcastInDim S50000x40 ![] bcast_S_S50000x40),
    TRef.binary (TRef.of (T := ⟨S50000x40, .f32⟩) main_v164) (TRef.of (T := ⟨S50000x40, .f32⟩) main_call4_v0) (TRef.of (T := ⟨S50000x40, .f32⟩) main_v165) maximumf,
    TRef.nullary (TRef.of (T := ⟨S_, .f32⟩) main_call5_cst) (constant S_ .f32 0xFF800000#32),
    TRef.binary (TRef.of (T := ⟨S50000x40, .f32⟩) main_v165) (TRef.of (T := ⟨S_, .f32⟩) main_call5_cst) (TRef.of (T := ⟨S50000, .f32⟩) main_call5_v0) (fun x v => Host.reduce FloatOps.maximumf x v reducesTo_S50000x40_S50000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S50000, .f32⟩) main_call5_v1) (broadcastInDim S50000 ![] bcast_S_S50000),
    TRef.binary (TRef.of (T := ⟨S50000, .f32⟩) main_call5_v1) (TRef.of (T := ⟨S50000, .f32⟩) main_call5_v0) (TRef.of (T := ⟨S50000, .f32⟩) main_call5_v2) maximumf,
    TRef.unary (TRef.of (T := ⟨S50000, .f32⟩) main_call5_v2) (TRef.of (T := ⟨S50000x1, .f32⟩) main_call5_v3) (broadcastInDim S50000x1 ![0] bcast_S50000_S50000x1_0),
    TRef.unary (TRef.of (T := ⟨S50000x1, .f32⟩) main_call5_v3) (TRef.of (T := ⟨S50000x40, .f32⟩) main_call5_v4) (broadcastInDim S50000x40 ![0, 1] bcast_S50000x1_S50000x40_0_1),
    TRef.binary (TRef.of (T := ⟨S50000x40, .f32⟩) main_v165) (TRef.of (T := ⟨S50000x40, .f32⟩) main_call5_v4) (TRef.of (T := ⟨S50000x40, .f32⟩) main_call5_v5) subf,
    TRef.unary (TRef.of (T := ⟨S50000x40, .f32⟩) main_call5_v5) (TRef.of (T := ⟨S50000x40, .f32⟩) main_call5_v6) Host.exp,
    TRef.nullary (TRef.of (T := ⟨S_, .f32⟩) main_call5_cst_1) (constant S_ .f32 0x00000000#32),
    TRef.binary (TRef.of (T := ⟨S50000x40, .f32⟩) main_call5_v6) (TRef.of (T := ⟨S_, .f32⟩) main_call5_cst_1) (TRef.of (T := ⟨S50000, .f32⟩) main_call5_v7) (fun x v => Host.reduceAdd x v reducesTo_S50000x40_S50000_d1 h_S_),
    TRef.unary (TRef.of (T := ⟨S50000, .f32⟩) main_call5_v7) (TRef.of (T := ⟨S50000x1, .f32⟩) main_call5_v8) (broadcastInDim S50000x1 ![0] bcast_S50000_S50000x1_0),
    TRef.unary (TRef.of (T := ⟨S50000x1, .f32⟩) main_call5_v8) (TRef.of (T := ⟨S50000x1, .f32⟩) main_call5_v9) Host.log,
    TRef.unary (TRef.of (T := ⟨S50000x1, .f32⟩) main_call5_v9) (TRef.of (T := ⟨S50000x40, .f32⟩) main_call5_v10) (broadcastInDim S50000x40 ![0, 1] bcast_S50000x1_S50000x40_0_1),
    TRef.binary (TRef.of (T := ⟨S50000x40, .f32⟩) main_call5_v5) (TRef.of (T := ⟨S50000x40, .f32⟩) main_call5_v10) (TRef.of (T := ⟨S50000x40, .f32⟩) main_v166) subf ]

set_option maxRecDepth 1000000 in
/-- The line is the five pieces in order. -/
theorem ops_split : (ops : List (HloOp τ sig (Elt F))) = seg0 ++ (seg1 ++ (seg2 ++ (seg3 ++ seg4))) := rfl

/-- The fold over two lines in turn. -/
theorem after_append (l₁ l₂ : List (HloOp τ sig (Elt F))) (W : Valuation τ sig (Elt F)) :
    after (l₁ ++ l₂) W = after l₂ (after l₁ W) := by
  induction l₁ generalizing W with
  | nil => rfl
  | cons op l ih => rw [List.cons_append, after_cons, after_cons, ih]

/-- The fold over the line is the fold over the five pieces in turn. -/
theorem after_ops (W : Valuation τ sig (Elt F)) :
    after ops W = after seg4 (after seg3 (after seg2 (after seg1 (after seg0 W)))) := by
  rw [ops_split, after_append, after_append, after_append, after_append]

/-- The buffers piece 0 writes. -/
def written0 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3, main_call0_v0, main_call0_v1, main_v16, main_c, main_v17, main_v18, main_c_4, main_v19, main_v20, main_v21, main_v22, main_v23, main_c_5, main_v24, main_v25, main_c_6, main_v26, main_v27, main_v28, main_v29, main_v30, main_v31]
theorem writes_seg0 : (seg0 : List (HloOp τ sig (Elt F))).Forall fun op => op.writes ⊆ (written0.map (Proc.devRef (τ := τ) .tc)).toFinset := by
  simp only [seg0, written0, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset, List.mem_map]
  repeat' apply And.intro
  all_goals exact ⟨_, by decide, rfl⟩
/-- A buffer piece 0 does not write keeps its contents. -/
theorem keep0 (W : Valuation τ sig (Elt F)) (r : Ref sig .tc) (hr : r ∉ written0) :
    after seg0 W (Proc.devRef .tc r) = W (Proc.devRef .tc r) :=
  StableHlo.after_of_writes_sub seg0 W writes_seg0 hr

/-- The buffers piece 1 writes. -/
def written1 : List (Ref sig .tc) := [main_v32, main_c_7, main_v33, main_v34, main_c_8, main_v35, main_v36, main_v37, main_v38, main_v39, main_v40, main_v41, main_v42, main_cst_9, main_v43, main_v44, main_v45, main_v46, main_v47, main_v48, main_cst_10, main_v49, main_cst_11, main_v50, main_v51, main_v52, main_v53, main_v54, main_v55, main_cst_12, main_v56, main_cst_13, main_v57, main_v58, main_v59, main_v60, main_v61, main_v62, main_v63, main_v64, main_cst_14, main_v65, main_v66, main_v67, main_v68, main_v69, main_v70, main_v71, main_v72, main_v73, main_call1_cst, main_call1_v0, main_v74]
theorem writes_seg1 : (seg1 : List (HloOp τ sig (Elt F))).Forall fun op => op.writes ⊆ (written1.map (Proc.devRef (τ := τ) .tc)).toFinset := by
  simp only [seg1, written1, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset, List.mem_map]
  repeat' apply And.intro
  all_goals exact ⟨_, by decide, rfl⟩
/-- A buffer piece 1 does not write keeps its contents. -/
theorem keep1 (W : Valuation τ sig (Elt F)) (r : Ref sig .tc) (hr : r ∉ written1) :
    after seg1 W (Proc.devRef .tc r) = W (Proc.devRef .tc r) :=
  StableHlo.after_of_writes_sub seg1 W writes_seg1 hr

/-- The buffers piece 2 writes. -/
def written2 : List (Ref sig .tc) := [main_v75, main_c_15, main_v76, main_v77, main_c_16, main_v78, main_v79, main_v80, main_v81, main_v82, main_v83, main_v84, main_v85, main_cst_17, main_v86, main_v87, main_v88, main_v89, main_v90, main_v91, main_cst_18, main_v92, main_cst_19, main_v93, main_v94, main_v95, main_v96, main_v97, main_v98, main_cst_20, main_v99, main_cst_21, main_v100, main_v101, main_v102, main_v103, main_v104, main_v105, main_v106, main_v107, main_cst_22, main_v108, main_v109, main_v110, main_v111, main_v112, main_v113, main_v114, main_v115, main_v116, main_call2_cst, main_call2_v0, main_v117]
theorem writes_seg2 : (seg2 : List (HloOp τ sig (Elt F))).Forall fun op => op.writes ⊆ (written2.map (Proc.devRef (τ := τ) .tc)).toFinset := by
  simp only [seg2, written2, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset, List.mem_map]
  repeat' apply And.intro
  all_goals exact ⟨_, by decide, rfl⟩
/-- A buffer piece 2 does not write keeps its contents. -/
theorem keep2 (W : Valuation τ sig (Elt F)) (r : Ref sig .tc) (hr : r ∉ written2) :
    after seg2 W (Proc.devRef .tc r) = W (Proc.devRef .tc r) :=
  StableHlo.after_of_writes_sub seg2 W writes_seg2 hr

/-- The buffers piece 3 writes. -/
def written3 : List (Ref sig .tc) := [main_v118, main_c_23, main_v119, main_v120, main_c_24, main_v121, main_v122, main_v123, main_v124, main_v125, main_v126, main_v127, main_v128, main_cst_25, main_v129, main_v130, main_v131, main_v132, main_v133, main_v134, main_cst_26, main_v135, main_cst_27, main_v136, main_v137, main_v138, main_v139, main_v140, main_v141, main_cst_28, main_v142, main_cst_29, main_v143, main_v144, main_v145, main_v146, main_v147, main_v148, main_v149, main_v150, main_cst_30, main_v151, main_v152, main_v153, main_v154, main_v155, main_v156, main_v157, main_v158, main_v159, main_call3_cst, main_call3_v0, main_v160]
theorem writes_seg3 : (seg3 : List (HloOp τ sig (Elt F))).Forall fun op => op.writes ⊆ (written3.map (Proc.devRef (τ := τ) .tc)).toFinset := by
  simp only [seg3, written3, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset, List.mem_map]
  repeat' apply And.intro
  all_goals exact ⟨_, by decide, rfl⟩
/-- A buffer piece 3 does not write keeps its contents. -/
theorem keep3 (W : Valuation τ sig (Elt F)) (r : Ref sig .tc) (hr : r ∉ written3) :
    after seg3 W (Proc.devRef .tc r) = W (Proc.devRef .tc r) :=
  StableHlo.after_of_writes_sub seg3 W writes_seg3 hr

/-- The buffers piece 4 writes. -/
def written4 : List (Ref sig .tc) := [main_v161, main_v162, main_v163, main_v164, main_call4_cst, main_call4_v0, main_v165, main_call5_cst, main_call5_v0, main_call5_cst_0, main_call5_v1, main_call5_v2, main_call5_v3, main_call5_v4, main_call5_v5, main_call5_v6, main_call5_cst_1, main_call5_v7, main_call5_v8, main_call5_v9, main_call5_v10, main_v166]
theorem writes_seg4 : (seg4 : List (HloOp τ sig (Elt F))).Forall fun op => op.writes ⊆ (written4.map (Proc.devRef (τ := τ) .tc)).toFinset := by
  simp only [seg4, written4, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset, List.mem_map]
  repeat' apply And.intro
  all_goals exact ⟨_, by decide, rfl⟩
/-- A buffer piece 4 does not write keeps its contents. -/
theorem keep4 (W : Valuation τ sig (Elt F)) (r : Ref sig .tc) (hr : r ∉ written4) :
    after seg4 W (Proc.devRef .tc r) = W (Proc.devRef .tc r) :=
  StableHlo.after_of_writes_sub seg4 W writes_seg4 hr

end Pieces

/-! ## What each piece leaves -/

section Stages
variable (W : Valuation τ sig (Elt Ideal))
variable (x0 : (⟨S50000x128, .f32⟩ : BufTy).Contents (Elt Ideal))
  (x1 : (⟨S2x1600000, .i32⟩ : BufTy).Contents (Elt Ideal))
  (x2 : (⟨S128x128, .f32⟩ : BufTy).Contents (Elt Ideal))
  (x3 : (⟨S128, .f32⟩ : BufTy).Contents (Elt Ideal))
  (x4 : (⟨S128x128, .f32⟩ : BufTy).Contents (Elt Ideal))
  (x5 : (⟨S128, .f32⟩ : BufTy).Contents (Elt Ideal))
  (x6 : (⟨S128x128, .f32⟩ : BufTy).Contents (Elt Ideal))
  (x7 : (⟨S128, .f32⟩ : BufTy).Contents (Elt Ideal))
  (x8 : (⟨S128, .f32⟩ : BufTy).Contents (Elt Ideal))
  (x9 : (⟨S128, .f32⟩ : BufTy).Contents (Elt Ideal))
  (x10 : (⟨S128, .f32⟩ : BufTy).Contents (Elt Ideal))
  (x11 : (⟨S128, .f32⟩ : BufTy).Contents (Elt Ideal))
  (x12 : (⟨S128, .f32⟩ : BufTy).Contents (Elt Ideal))
  (x13 : (⟨S128, .f32⟩ : BufTy).Contents (Elt Ideal))
  (x14 : (⟨S128x40, .f32⟩ : BufTy).Contents (Elt Ideal))
  (x15 : (⟨S40, .f32⟩ : BufTy).Contents (Elt Ideal))

set_option maxRecDepth 1000000 in
set_option maxHeartbeats 8000000 in
/-- The edge sources. -/
theorem src (h1 : W (Proc.devRef .tc main_arg1) = x1) : after (seg0 (F := Ideal)) W (Proc.devRef .tc main_v3) = val_main_v3 (F := Ideal) x1 := by
  after_results_simp
  subst h1
  rfl

set_option maxRecDepth 1000000 in
set_option maxHeartbeats 8000000 in
/-- The edge destinations. -/
theorem dst (h1 : W (Proc.devRef .tc main_arg1) = x1) : after (seg0 (F := Ideal)) W (Proc.devRef .tc main_v6) = val_main_v6 (F := Ideal) x1 := by
  after_results_simp
  subst h1
  rfl

set_option maxRecDepth 1000000 in
set_option maxHeartbeats 4000000 in
/-- The edge weights. The sources and destinations enter them several times; each occurrence is replaced by its value
    (the two lemmas above, read in the same normal form), and the identity transports around the inlined `where` are removed,
    before the two sides are compared. -/
theorem weight (h1 : W (Proc.devRef .tc main_arg1) = x1) : after (seg0 (F := Ideal)) W (Proc.devRef .tc main_v31) = val_main_v31 (F := Ideal) x1 := by
  have e3 := src W x1 h1
  have e6 := dst W x1 h1
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne'] at e3 e6 ⊢
  rw [e3, e6]
  have cast0 : ∀ v : (⟨S50000, .f32⟩ : BufTy).Contents (Elt Ideal), (TRef.of main_v16 : TRef sig ⟨S50000, .f32⟩).toBuf (Val := Elt Ideal) v = v := fun v => cast_eq _ _
  have cast1 : ∀ v : (⟨S50000, .i1⟩ : BufTy).Contents (Elt Ideal), (TRef.of main_v12 : TRef sig ⟨S50000, .i1⟩).ofBuf (Val := Elt Ideal) v = v := fun v => cast_eq _ _
  have cast2 : ∀ v : (⟨S50000, .f32⟩ : BufTy).Contents (Elt Ideal), (TRef.of main_v15 : TRef sig ⟨S50000, .f32⟩).ofBuf (Val := Elt Ideal) v = v := fun v => cast_eq _ _
  have cast3 : ∀ v : (⟨S50000, .f32⟩ : BufTy).Contents (Elt Ideal), (TRef.of main_call0_v1 : TRef sig ⟨S50000, .f32⟩).toBuf (Val := Elt Ideal) v = v := fun v => cast_eq _ _
  have cast4 : ∀ v : (⟨S50000, .f32⟩ : BufTy).Contents (Elt Ideal), (TRef.of main_call0_v1 : TRef sig ⟨S50000, .f32⟩).ofBuf (Val := Elt Ideal) v = v := fun v => cast_eq _ _
  have cast5 : ∀ v : (⟨S_, .f32⟩ : BufTy).Contents (Elt Ideal), (TRef.of main_call0_v0 : TRef sig ⟨S_, .f32⟩).toBuf (Val := Elt Ideal) v = v := fun v => cast_eq _ _
  have cast6 : ∀ v : (⟨S_, .f32⟩ : BufTy).Contents (Elt Ideal), (TRef.of main_call0_v0 : TRef sig ⟨S_, .f32⟩).ofBuf (Val := Elt Ideal) v = v := fun v => cast_eq _ _
  have cast7 : ∀ v : (⟨S_, .f32⟩ : BufTy).Contents (Elt Ideal), (TRef.of main_cst_3 : TRef sig ⟨S_, .f32⟩).ofBuf (Val := Elt Ideal) v = v := fun v => cast_eq _ _
  simp only [cast0, cast1, cast2, cast3, cast4, cast5, cast6, cast7]
  rfl

set_option maxHeartbeats 4000000 in
/-- Layer 1: the hidden array it leaves. -/
theorem layer1 (hin : W (Proc.devRef .tc main_arg0) = x0) (hw : W (Proc.devRef .tc main_arg2) = x2)
    (hb : W (Proc.devRef .tc main_arg3) = x3) (hg : W (Proc.devRef .tc main_arg8) = x8) (hbe : W (Proc.devRef .tc main_arg9) = x9)
    (h3 : W (Proc.devRef .tc main_v3) = val_main_v3 (F := Ideal) x1) (h6 : W (Proc.devRef .tc main_v6) = val_main_v6 (F := Ideal) x1)
    (h31 : W (Proc.devRef .tc main_v31) = val_main_v31 (F := Ideal) x1) :
    after (seg1 (F := Ideal)) W (Proc.devRef .tc main_v74) = val_main_v74 (F := Ideal) x0 x1 x2 x3 x8 x9 := by
  after_results_simp
  rw [hin, hw, hb, hg, hbe, h3, h6, h31]
  rfl

set_option maxHeartbeats 4000000 in
/-- Layer 2: the hidden array it leaves. -/
theorem layer2 (hin : W (Proc.devRef .tc main_v74) = val_main_v74 (F := Ideal) x0 x1 x2 x3 x8 x9) (hw : W (Proc.devRef .tc main_arg4) = x4)
    (hb : W (Proc.devRef .tc main_arg5) = x5) (hg : W (Proc.devRef .tc main_arg10) = x10) (hbe : W (Proc.devRef .tc main_arg11) = x11)
    (h3 : W (Proc.devRef .tc main_v3) = val_main_v3 (F := Ideal) x1) (h6 : W (Proc.devRef .tc main_v6) = val_main_v6 (F := Ideal) x1)
    (h31 : W (Proc.devRef .tc main_v31) = val_main_v31 (F := Ideal) x1) :
    after (seg2 (F := Ideal)) W (Proc.devRef .tc main_v117) = val_main_v117 (F := Ideal) x0 x1 x2 x3 x4 x5 x8 x9 x10 x11 := by
  after_results_simp
  rw [hin, hw, hb, hg, hbe, h3, h6, h31]
  rfl

set_option maxHeartbeats 4000000 in
/-- Layer 3: the hidden array it leaves. -/
theorem layer3 (hin : W (Proc.devRef .tc main_v117) = val_main_v117 (F := Ideal) x0 x1 x2 x3 x4 x5 x8 x9 x10 x11) (hw : W (Proc.devRef .tc main_arg6) = x6)
    (hb : W (Proc.devRef .tc main_arg7) = x7) (hg : W (Proc.devRef .tc main_arg12) = x12) (hbe : W (Proc.devRef .tc main_arg13) = x13)
    (h3 : W (Proc.devRef .tc main_v3) = val_main_v3 (F := Ideal) x1) (h6 : W (Proc.devRef .tc main_v6) = val_main_v6 (F := Ideal) x1)
    (h31 : W (Proc.devRef .tc main_v31) = val_main_v31 (F := Ideal) x1) :
    after (seg3 (F := Ideal)) W (Proc.devRef .tc main_v160) = val_main_v160 (F := Ideal) x0 x1 x2 x3 x4 x5 x6 x7 x8 x9 x10 x11 x12 x13 := by
  after_results_simp
  rw [hin, hw, hb, hg, hbe, h3, h6, h31]
  rfl

set_option maxHeartbeats 4000000 in
/-- The final layer: the logits. -/
theorem fcLogits (hin : W (Proc.devRef .tc main_v160) = val_main_v160 (F := Ideal) x0 x1 x2 x3 x4 x5 x6 x7 x8 x9 x10 x11 x12 x13) (hw : W (Proc.devRef .tc main_arg14) = x14)
    (hb : W (Proc.devRef .tc main_arg15) = x15) :
    after (seg4 (F := Ideal)) W (Proc.devRef .tc main_v165) = val_main_v165 (F := Ideal) x0 x1 x2 x3 x4 x5 x6 x7 x8 x9 x10 x11 x12 x13 x14 x15 := by
  after_results_simp
  rw [hin, hw, hb]
  rfl

set_option maxHeartbeats 4000000 in
/-- The final layer: the log-softmax of the logits (an inlined call: its identity transports are removed before the two
    sides are compared). -/
theorem fcLogProbs (hin : W (Proc.devRef .tc main_v160) = val_main_v160 (F := Ideal) x0 x1 x2 x3 x4 x5 x6 x7 x8 x9 x10 x11 x12 x13) (hw : W (Proc.devRef .tc main_arg14) = x14)
    (hb : W (Proc.devRef .tc main_arg15) = x15) :
    after (seg4 (F := Ideal)) W (Proc.devRef .tc main_v166) = val_main_v166 (F := Ideal) x0 x1 x2 x3 x4 x5 x6 x7 x8 x9 x10 x11 x12 x13 x14 x15 := by
  after_results_simp
  rw [hin, hw, hb]
  have cst0 : ∀ v : (⟨S_, .f32⟩ : BufTy).Contents (Elt Ideal), (TRef.of main_call4_cst : TRef sig ⟨S_, .f32⟩).toBuf (Val := Elt Ideal) v = v := fun v => cast_eq _ _
  have cst1 : ∀ v : (⟨S_, .f32⟩ : BufTy).Contents (Elt Ideal), (TRef.of main_call4_cst : TRef sig ⟨S_, .f32⟩).ofBuf (Val := Elt Ideal) v = v := fun v => cast_eq _ _
  have cst2 : ∀ v : (⟨S50000x40, .f32⟩ : BufTy).Contents (Elt Ideal), (TRef.of main_call4_v0 : TRef sig ⟨S50000x40, .f32⟩).toBuf (Val := Elt Ideal) v = v := fun v => cast_eq _ _
  have cst3 : ∀ v : (⟨S50000x40, .f32⟩ : BufTy).Contents (Elt Ideal), (TRef.of main_call4_v0 : TRef sig ⟨S50000x40, .f32⟩).ofBuf (Val := Elt Ideal) v = v := fun v => cast_eq _ _
  have cst4 : ∀ v : (⟨S50000x40, .f32⟩ : BufTy).Contents (Elt Ideal), (TRef.of main_v164 : TRef sig ⟨S50000x40, .f32⟩).toBuf (Val := Elt Ideal) v = v := fun v => cast_eq _ _
  have cst5 : ∀ v : (⟨S50000x40, .f32⟩ : BufTy).Contents (Elt Ideal), (TRef.of main_v164 : TRef sig ⟨S50000x40, .f32⟩).ofBuf (Val := Elt Ideal) v = v := fun v => cast_eq _ _
  have cst6 : ∀ v : (⟨S50000x40, .f32⟩ : BufTy).Contents (Elt Ideal), (TRef.of main_v165 : TRef sig ⟨S50000x40, .f32⟩).toBuf (Val := Elt Ideal) v = v := fun v => cast_eq _ _
  have cst7 : ∀ v : (⟨S50000x40, .f32⟩ : BufTy).Contents (Elt Ideal), (TRef.of main_v165 : TRef sig ⟨S50000x40, .f32⟩).ofBuf (Val := Elt Ideal) v = v := fun v => cast_eq _ _
  have cst8 : ∀ v : (⟨S_, .f32⟩ : BufTy).Contents (Elt Ideal), (TRef.of main_call5_cst : TRef sig ⟨S_, .f32⟩).toBuf (Val := Elt Ideal) v = v := fun v => cast_eq _ _
  have cst9 : ∀ v : (⟨S_, .f32⟩ : BufTy).Contents (Elt Ideal), (TRef.of main_call5_cst : TRef sig ⟨S_, .f32⟩).ofBuf (Val := Elt Ideal) v = v := fun v => cast_eq _ _
  have cst10 : ∀ v : (⟨S50000, .f32⟩ : BufTy).Contents (Elt Ideal), (TRef.of main_call5_v0 : TRef sig ⟨S50000, .f32⟩).toBuf (Val := Elt Ideal) v = v := fun v => cast_eq _ _
  have cst11 : ∀ v : (⟨S50000, .f32⟩ : BufTy).Contents (Elt Ideal), (TRef.of main_call5_v0 : TRef sig ⟨S50000, .f32⟩).ofBuf (Val := Elt Ideal) v = v := fun v => cast_eq _ _
  have cst12 : ∀ v : (⟨S_, .f32⟩ : BufTy).Contents (Elt Ideal), (TRef.of main_call5_cst_0 : TRef sig ⟨S_, .f32⟩).toBuf (Val := Elt Ideal) v = v := fun v => cast_eq _ _
  have cst13 : ∀ v : (⟨S_, .f32⟩ : BufTy).Contents (Elt Ideal), (TRef.of main_call5_cst_0 : TRef sig ⟨S_, .f32⟩).ofBuf (Val := Elt Ideal) v = v := fun v => cast_eq _ _
  have cst14 : ∀ v : (⟨S50000, .f32⟩ : BufTy).Contents (Elt Ideal), (TRef.of main_call5_v1 : TRef sig ⟨S50000, .f32⟩).toBuf (Val := Elt Ideal) v = v := fun v => cast_eq _ _
  have cst15 : ∀ v : (⟨S50000, .f32⟩ : BufTy).Contents (Elt Ideal), (TRef.of main_call5_v1 : TRef sig ⟨S50000, .f32⟩).ofBuf (Val := Elt Ideal) v = v := fun v => cast_eq _ _
  have cst16 : ∀ v : (⟨S50000, .f32⟩ : BufTy).Contents (Elt Ideal), (TRef.of main_call5_v2 : TRef sig ⟨S50000, .f32⟩).toBuf (Val := Elt Ideal) v = v := fun v => cast_eq _ _
  have cst17 : ∀ v : (⟨S50000, .f32⟩ : BufTy).Contents (Elt Ideal), (TRef.of main_call5_v2 : TRef sig ⟨S50000, .f32⟩).ofBuf (Val := Elt Ideal) v = v := fun v => cast_eq _ _
  have cst18 : ∀ v : (⟨S50000x1, .f32⟩ : BufTy).Contents (Elt Ideal), (TRef.of main_call5_v3 : TRef sig ⟨S50000x1, .f32⟩).toBuf (Val := Elt Ideal) v = v := fun v => cast_eq _ _
  have cst19 : ∀ v : (⟨S50000x1, .f32⟩ : BufTy).Contents (Elt Ideal), (TRef.of main_call5_v3 : TRef sig ⟨S50000x1, .f32⟩).ofBuf (Val := Elt Ideal) v = v := fun v => cast_eq _ _
  have cst20 : ∀ v : (⟨S50000x40, .f32⟩ : BufTy).Contents (Elt Ideal), (TRef.of main_call5_v4 : TRef sig ⟨S50000x40, .f32⟩).toBuf (Val := Elt Ideal) v = v := fun v => cast_eq _ _
  have cst21 : ∀ v : (⟨S50000x40, .f32⟩ : BufTy).Contents (Elt Ideal), (TRef.of main_call5_v4 : TRef sig ⟨S50000x40, .f32⟩).ofBuf (Val := Elt Ideal) v = v := fun v => cast_eq _ _
  have cst22 : ∀ v : (⟨S50000x40, .f32⟩ : BufTy).Contents (Elt Ideal), (TRef.of main_call5_v5 : TRef sig ⟨S50000x40, .f32⟩).toBuf (Val := Elt Ideal) v = v := fun v => cast_eq _ _
  have cst23 : ∀ v : (⟨S50000x40, .f32⟩ : BufTy).Contents (Elt Ideal), (TRef.of main_call5_v5 : TRef sig ⟨S50000x40, .f32⟩).ofBuf (Val := Elt Ideal) v = v := fun v => cast_eq _ _
  have cst24 : ∀ v : (⟨S50000x40, .f32⟩ : BufTy).Contents (Elt Ideal), (TRef.of main_call5_v6 : TRef sig ⟨S50000x40, .f32⟩).toBuf (Val := Elt Ideal) v = v := fun v => cast_eq _ _
  have cst25 : ∀ v : (⟨S50000x40, .f32⟩ : BufTy).Contents (Elt Ideal), (TRef.of main_call5_v6 : TRef sig ⟨S50000x40, .f32⟩).ofBuf (Val := Elt Ideal) v = v := fun v => cast_eq _ _
  have cst26 : ∀ v : (⟨S_, .f32⟩ : BufTy).Contents (Elt Ideal), (TRef.of main_call5_cst_1 : TRef sig ⟨S_, .f32⟩).toBuf (Val := Elt Ideal) v = v := fun v => cast_eq _ _
  have cst27 : ∀ v : (⟨S_, .f32⟩ : BufTy).Contents (Elt Ideal), (TRef.of main_call5_cst_1 : TRef sig ⟨S_, .f32⟩).ofBuf (Val := Elt Ideal) v = v := fun v => cast_eq _ _
  have cst28 : ∀ v : (⟨S50000, .f32⟩ : BufTy).Contents (Elt Ideal), (TRef.of main_call5_v7 : TRef sig ⟨S50000, .f32⟩).toBuf (Val := Elt Ideal) v = v := fun v => cast_eq _ _
  have cst29 : ∀ v : (⟨S50000, .f32⟩ : BufTy).Contents (Elt Ideal), (TRef.of main_call5_v7 : TRef sig ⟨S50000, .f32⟩).ofBuf (Val := Elt Ideal) v = v := fun v => cast_eq _ _
  have cst30 : ∀ v : (⟨S50000x1, .f32⟩ : BufTy).Contents (Elt Ideal), (TRef.of main_call5_v8 : TRef sig ⟨S50000x1, .f32⟩).toBuf (Val := Elt Ideal) v = v := fun v => cast_eq _ _
  have cst31 : ∀ v : (⟨S50000x1, .f32⟩ : BufTy).Contents (Elt Ideal), (TRef.of main_call5_v8 : TRef sig ⟨S50000x1, .f32⟩).ofBuf (Val := Elt Ideal) v = v := fun v => cast_eq _ _
  have cst32 : ∀ v : (⟨S50000x1, .f32⟩ : BufTy).Contents (Elt Ideal), (TRef.of main_call5_v9 : TRef sig ⟨S50000x1, .f32⟩).toBuf (Val := Elt Ideal) v = v := fun v => cast_eq _ _
  have cst33 : ∀ v : (⟨S50000x1, .f32⟩ : BufTy).Contents (Elt Ideal), (TRef.of main_call5_v9 : TRef sig ⟨S50000x1, .f32⟩).ofBuf (Val := Elt Ideal) v = v := fun v => cast_eq _ _
  have cst34 : ∀ v : (⟨S50000x40, .f32⟩ : BufTy).Contents (Elt Ideal), (TRef.of main_call5_v10 : TRef sig ⟨S50000x40, .f32⟩).toBuf (Val := Elt Ideal) v = v := fun v => cast_eq _ _
  have cst35 : ∀ v : (⟨S50000x40, .f32⟩ : BufTy).Contents (Elt Ideal), (TRef.of main_call5_v10 : TRef sig ⟨S50000x40, .f32⟩).ofBuf (Val := Elt Ideal) v = v := fun v => cast_eq _ _
  have cst36 : ∀ v : (⟨S50000x40, .f32⟩ : BufTy).Contents (Elt Ideal), (TRef.of main_v166 : TRef sig ⟨S50000x40, .f32⟩).toBuf (Val := Elt Ideal) v = v := fun v => cast_eq _ _
  have cst37 : ∀ v : (⟨S50000x40, .f32⟩ : BufTy).Contents (Elt Ideal), (TRef.of main_v166 : TRef sig ⟨S50000x40, .f32⟩).ofBuf (Val := Elt Ideal) v = v := fun v => cast_eq _ _
  simp only [cst0, cst1, cst2, cst3, cst4, cst5, cst6, cst7, cst8, cst9, cst10, cst11, cst12, cst13, cst14, cst15, cst16, cst17, cst18, cst19, cst20, cst21, cst22, cst23, cst24, cst25, cst26, cst27, cst28, cst29, cst30, cst31, cst32, cst33, cst34, cst35, cst36, cst37]
  rfl

end Stages

/-! ## The chain -/

section Chain
variable (W : Valuation τ sig (Elt Ideal))

local notation "W1" => after (seg0 (F := Ideal)) W
local notation "W2" => after (seg1 (F := Ideal)) (after (seg0 (F := Ideal)) W)
local notation "W3" => after (seg2 (F := Ideal)) (after (seg1 (F := Ideal)) (after (seg0 (F := Ideal)) W))
local notation "W4" => after (seg3 (F := Ideal)) (after (seg2 (F := Ideal)) (after (seg1 (F := Ideal)) (after (seg0 (F := Ideal)) W)))

theorem arg_at1 (r : Ref sig .tc) (h0 : r ∉ written0) : W1 (Proc.devRef .tc r) = W (Proc.devRef .tc r) := keep0 W r h0
theorem arg_at2 (r : Ref sig .tc) (h0 : r ∉ written0) (h1 : r ∉ written1) : W2 (Proc.devRef .tc r) = W (Proc.devRef .tc r) :=
  (keep1 _ r h1).trans (arg_at1 W r h0)
theorem arg_at3 (r : Ref sig .tc) (h0 : r ∉ written0) (h1 : r ∉ written1) (h2 : r ∉ written2) : W3 (Proc.devRef .tc r) = W (Proc.devRef .tc r) :=
  (keep2 _ r h2).trans (arg_at2 W r h0 h1)
theorem arg_at4 (r : Ref sig .tc) (h0 : r ∉ written0) (h1 : r ∉ written1) (h2 : r ∉ written2) (h3 : r ∉ written3) : W4 (Proc.devRef .tc r) = W (Proc.devRef .tc r) :=
  (keep3 _ r h3).trans (arg_at3 W r h0 h1 h2)

theorem src1 : W1 (Proc.devRef .tc main_v3) = val_main_v3 (F := Ideal) (W (Proc.devRef .tc main_arg1)) := src W _ rfl
theorem dst1 : W1 (Proc.devRef .tc main_v6) = val_main_v6 (F := Ideal) (W (Proc.devRef .tc main_arg1)) := dst W _ rfl
theorem wgt1 : W1 (Proc.devRef .tc main_v31) = val_main_v31 (F := Ideal) (W (Proc.devRef .tc main_arg1)) := weight W _ rfl
theorem src2 : W2 (Proc.devRef .tc main_v3) = val_main_v3 (F := Ideal) (W (Proc.devRef .tc main_arg1)) := (keep1 _ main_v3 (by decide)).trans (src1 W)
theorem dst2 : W2 (Proc.devRef .tc main_v6) = val_main_v6 (F := Ideal) (W (Proc.devRef .tc main_arg1)) := (keep1 _ main_v6 (by decide)).trans (dst1 W)
theorem wgt2 : W2 (Proc.devRef .tc main_v31) = val_main_v31 (F := Ideal) (W (Proc.devRef .tc main_arg1)) := (keep1 _ main_v31 (by decide)).trans (wgt1 W)
theorem src3 : W3 (Proc.devRef .tc main_v3) = val_main_v3 (F := Ideal) (W (Proc.devRef .tc main_arg1)) := (keep2 _ main_v3 (by decide)).trans (src2 W)
theorem dst3 : W3 (Proc.devRef .tc main_v6) = val_main_v6 (F := Ideal) (W (Proc.devRef .tc main_arg1)) := (keep2 _ main_v6 (by decide)).trans (dst2 W)
theorem wgt3 : W3 (Proc.devRef .tc main_v31) = val_main_v31 (F := Ideal) (W (Proc.devRef .tc main_arg1)) := (keep2 _ main_v31 (by decide)).trans (wgt2 W)

theorem hidden1 : W2 (Proc.devRef .tc main_v74) = val_main_v74 (F := Ideal) (W (Proc.devRef .tc main_arg0)) (W (Proc.devRef .tc main_arg1)) (W (Proc.devRef .tc main_arg2)) (W (Proc.devRef .tc main_arg3)) (W (Proc.devRef .tc main_arg8)) (W (Proc.devRef .tc main_arg9)) :=
  layer1 _ _ _ _ _ _ _ (arg_at1 W main_arg0 (by decide)) (arg_at1 W main_arg2 (by decide)) (arg_at1 W main_arg3 (by decide))
    (arg_at1 W main_arg8 (by decide)) (arg_at1 W main_arg9 (by decide)) (src1 W) (dst1 W) (wgt1 W)
theorem hidden2 : W3 (Proc.devRef .tc main_v117) = val_main_v117 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) (W (Proc.devRef .tc main_arg10)) (W (Proc.devRef .tc main_arg11)) :=
  layer2 _ _ _ _ _ _ _ _ _ _ _ (hidden1 W) (arg_at2 W main_arg4 (by decide) (by decide)) (arg_at2 W main_arg5 (by decide) (by decide))
    (arg_at2 W main_arg10 (by decide) (by decide)) (arg_at2 W main_arg11 (by decide) (by decide)) (src2 W) (dst2 W) (wgt2 W)
theorem hidden3 : W4 (Proc.devRef .tc main_v160) = val_main_v160 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  layer3 _ _ _ _ _ _ _ _ _ _ _ _ _ _ _ (hidden2 W) (arg_at3 W main_arg6 (by decide) (by decide) (by decide)) (arg_at3 W main_arg7 (by decide) (by decide) (by decide))
    (arg_at3 W main_arg12 (by decide) (by decide) (by decide)) (arg_at3 W main_arg13 (by decide) (by decide) (by decide)) (src3 W) (dst3 W) (wgt3 W)

/-- The logits. -/
theorem logits : after (ops (F := Ideal)) W (Proc.devRef .tc main_v165) = val_main_v165 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [after_ops]
  exact fcLogits _ _ _ _ _ _ _ _ _ _ _ _ _ _ _ _ _ (hidden3 W) (arg_at4 W main_arg14 (by decide) (by decide) (by decide) (by decide))
    (arg_at4 W main_arg15 (by decide) (by decide) (by decide) (by decide))

/-- The log-probabilities. -/
theorem logProbs : after (ops (F := Ideal)) W (Proc.devRef .tc main_v166) = val_main_v166 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [after_ops]
  exact fcLogProbs _ _ _ _ _ _ _ _ _ _ _ _ _ _ _ _ _ (hidden3 W) (arg_at4 W main_arg14 (by decide) (by decide) (by decide) (by decide))
    (arg_at4 W main_arg15 (by decide) (by decide) (by decide) (by decide))

/-- An argument ends as launched. -/
theorem arg_kept {F : FTy → Type} [FloatOps F] (V : Valuation τ sig (Elt F)) (r : Ref sig .tc)
    (h0 : r ∉ written0) (h1 : r ∉ written1) (h2 : r ∉ written2) (h3 : r ∉ written3) (h4 : r ∉ written4) :
    after ops V (Proc.devRef .tc r) = V (Proc.devRef .tc r) := by
  rw [after_ops]
  exact (keep4 _ r h4).trans ((keep3 _ r h3).trans ((keep2 _ r h2).trans ((keep1 _ r h1).trans (keep0 V r h0))))

end Chain

end Cert.ReferenceIdeal.RefValue

end
-- ==== Proof.KernelRun.lean ====
/-
  The idealized kernel's run with its two result arrays named.

  The program is seven row-tiled stages among stretches of host operations. Every weakly fair execution ends with
  each buffer that outlives the stages at the last boundary's contents: the fold of the host stretches and of the
  stages' write-backs from the launch memory. Read at the two result buffers this gives the log-probabilities and
  the logits as that fold's values; read at the arguments it gives them unchanged.
-/
import proofs.«149855_j47364899340880_1_alg».proof.Proof.Gen.KernelIdeal.Frame

set_option maxRecDepth 16384

noncomputable section

namespace Cert.KernelIdeal.RunVals

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two results hold the last boundary's contents and
    the sixteen arguments are as launched. -/
theorem run : θ_run defs (onTc (τ := τ) (main (F := F))) ⟨m, fun _ => 0, ρ⟩ (fun r => ∀ c : Dev nD,
      r.2.mem ((c.tc : Thread nD τ).loc main_v129_0) = W14 m ρ c (Proc.devRef .tc main_v129_0)
      ∧ r.2.mem ((c.tc : Thread nD τ).loc main_v129_1) = W14 m ρ c (Proc.devRef .tc main_v129_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v129_0 (by decide)),
       h c _ (mem_uc main_v129_1 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c)⟩)

end Cert.KernelIdeal.RunVals

end
-- ==== Proof.Walk.lean ====
/-
  Buffers that a stretch of the program leaves alone.

  The program alternates stretches of host operations with row-tiled stages. A host stretch changes only the buffers
  its operations write, and a stage changes only its output arrays; every other buffer holds after the stretch or
  stage what it held before. Walking a buffer back this way, each argument array is found at every boundary as it was
  launched, and the three arrays the first stretches compute from the edge list (sources, destinations and edge
  weights) are found at every later boundary as the first stage found them.
-/
import proofs.«149855_j47364899340880_1_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe Idealize.SL.Sem
open Idealize.ShloMosaic.Pipeline (Dat)

variable {F : FTy → Type} [FloatOps F]

/-- The buffers `hostOps0` writes. -/
def written_hostOps0 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem writes_hostOps0 : (hostOps0 : List (HloOp τ sig (Elt F))).Forall fun op => op.writes ⊆ ((written_hostOps0).map (Proc.devRef (τ := τ) .tc)).toFinset := by
  simp only [hostOps0, written_hostOps0, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset, List.mem_map]
  repeat' apply And.intro
  all_goals exact ⟨_, by decide, rfl⟩

/-- The buffers `hostOps0_1` writes. -/
def written_hostOps0_1 : List (Ref sig .tc) := [main_call0_v0, main_call0_v1, main_v16]
theorem writes_hostOps0_1 : (hostOps0_1 : List (HloOp τ sig (Elt F))).Forall fun op => op.writes ⊆ ((written_hostOps0_1).map (Proc.devRef (τ := τ) .tc)).toFinset := by
  simp only [hostOps0_1, written_hostOps0_1, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset, List.mem_map]
  repeat' apply And.intro
  all_goals exact ⟨_, by decide, rfl⟩

/-- The buffers `hostOps0_2` writes. -/
def written_hostOps0_2 : List (Ref sig .tc) := [main_c, main_v17, main_v18, main_c_4, main_v19, main_v20, main_v21, main_v22, main_v23, main_c_5, main_v24, main_v25, main_c_6, main_v26, main_v27, main_v28, main_v29, main_v30, main_v31]
theorem writes_hostOps0_2 : (hostOps0_2 : List (HloOp τ sig (Elt F))).Forall fun op => op.writes ⊆ ((written_hostOps0_2).map (Proc.devRef (τ := τ) .tc)).toFinset := by
  simp only [hostOps0_2, written_hostOps0_2, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset, List.mem_map]
  repeat' apply And.intro
  all_goals exact ⟨_, by decide, rfl⟩

/-- The buffers `hostOps1` writes. -/
def written_hostOps1 : List (Ref sig .tc) := [main_c_7, main_v33, main_v34, main_c_8, main_v35, main_v36, main_v37, main_v38, main_v39, main_v40, main_v41, main_v42, main_cst_9, main_v43, main_v44, main_v45, main_v46, main_v47, main_v48, main_cst_10, main_v49, main_cst_11, main_v50, main_v51, main_v52, main_v53, main_v54, main_v55, main_cst_12, main_v56, main_cst_13, main_v57, main_v58, main_v59, main_v60, main_v61, main_v62]
theorem writes_hostOps1 : (hostOps1 : List (HloOp τ sig (Elt F))).Forall fun op => op.writes ⊆ ((written_hostOps1).map (Proc.devRef (τ := τ) .tc)).toFinset := by
  simp only [hostOps1, written_hostOps1, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset, List.mem_map]
  repeat' apply And.intro
  all_goals exact ⟨_, by decide, rfl⟩

/-- The buffers `hostOps3` writes. -/
def written_hostOps3 : List (Ref sig .tc) := [main_c_14, main_v65, main_v66, main_c_15, main_v67, main_v68, main_v69, main_v70, main_v71, main_v72, main_v73, main_v74, main_cst_16, main_v75, main_v76, main_v77, main_v78, main_v79, main_v80, main_cst_17, main_v81, main_cst_18, main_v82, main_v83, main_v84, main_v85, main_v86, main_v87, main_cst_19, main_v88, main_cst_20, main_v89, main_v90, main_v91, main_v92, main_v93, main_v94]
theorem writes_hostOps3 : (hostOps3 : List (HloOp τ sig (Elt F))).Forall fun op => op.writes ⊆ ((written_hostOps3).map (Proc.devRef (τ := τ) .tc)).toFinset := by
  simp only [hostOps3, written_hostOps3, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset, List.mem_map]
  repeat' apply And.intro
  all_goals exact ⟨_, by decide, rfl⟩

/-- The buffers `hostOps5` writes. -/
def written_hostOps5 : List (Ref sig .tc) := [main_c_21, main_v97, main_v98, main_c_22, main_v99, main_v100, main_v101, main_v102, main_v103, main_v104, main_v105, main_v106, main_cst_23, main_v107, main_v108, main_v109, main_v110, main_v111, main_v112, main_cst_24, main_v113, main_cst_25, main_v114, main_v115, main_v116, main_v117, main_v118, main_v119, main_cst_26, main_v120, main_cst_27, main_v121, main_v122, main_v123, main_v124, main_v125, main_v126]
theorem writes_hostOps5 : (hostOps5 : List (HloOp τ sig (Elt F))).Forall fun op => op.writes ⊆ ((written_hostOps5).map (Proc.devRef (τ := τ) .tc)).toFinset := by
  simp only [hostOps5, written_hostOps5, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset, List.mem_map]
  repeat' apply And.intro
  all_goals exact ⟨_, by decide, rfl⟩

/-- The buffers `hostOps6` writes. -/
def written_hostOps6 : List (Ref sig .tc) := [main_v128]
theorem writes_hostOps6 : (hostOps6 : List (HloOp τ sig (Elt F))).Forall fun op => op.writes ⊆ ((written_hostOps6).map (Proc.devRef (τ := τ) .tc)).toFinset := by
  simp only [hostOps6, written_hostOps6, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset, List.mem_map]
  repeat' apply And.intro
  all_goals exact ⟨_, by decide, rfl⟩

variable (m : (ℓ : Loc nD τ sig) → Buf (Elt F) ℓ) (ρ : Dev nD → PrngReg)

/-! ## The arguments, at the boundaries where a stage or a stretch reads them -/

theorem arg0_at3 (c : Dev nD) : W3 m ρ c (Proc.devRef .tc main_arg0) = m ((c : Thread nD τ).loc main_arg0) :=
  (StableHlo.after_of_writes_sub hostOps0_2 (W2 m ρ c) writes_hostOps0_2 (by decide))
    |>.trans (StableHlo.after_of_writes_sub hostOps0_1 (W1 m ρ c) writes_hostOps0_1 (by decide))
    |>.trans (StableHlo.after_of_writes_sub hostOps0 (W0 m ρ c) writes_hostOps0 (by decide))
    |>.trans rfl

theorem arg2_at3 (c : Dev nD) : W3 m ρ c (Proc.devRef .tc main_arg2) = m ((c : Thread nD τ).loc main_arg2) :=
  (StableHlo.after_of_writes_sub hostOps0_2 (W2 m ρ c) writes_hostOps0_2 (by decide))
    |>.trans (StableHlo.after_of_writes_sub hostOps0_1 (W1 m ρ c) writes_hostOps0_1 (by decide))
    |>.trans (StableHlo.after_of_writes_sub hostOps0 (W0 m ρ c) writes_hostOps0 (by decide))
    |>.trans rfl

theorem arg3_at4 (c : Dev nD) : W4 m ρ c (Proc.devRef .tc main_arg3) = m ((c : Thread nD τ).loc main_arg3) :=
  (W4_of_ne m ρ c main_arg3 (by decide))
    |>.trans (StableHlo.after_of_writes_sub hostOps0_2 (W2 m ρ c) writes_hostOps0_2 (by decide))
    |>.trans (StableHlo.after_of_writes_sub hostOps0_1 (W1 m ρ c) writes_hostOps0_1 (by decide))
    |>.trans (StableHlo.after_of_writes_sub hostOps0 (W0 m ρ c) writes_hostOps0 (by decide))
    |>.trans rfl

theorem arg8_at4 (c : Dev nD) : W4 m ρ c (Proc.devRef .tc main_arg8) = m ((c : Thread nD τ).loc main_arg8) :=
  (W4_of_ne m ρ c main_arg8 (by decide))
    |>.trans (StableHlo.after_of_writes_sub hostOps0_2 (W2 m ρ c) writes_hostOps0_2 (by decide))
    |>.trans (StableHlo.after_of_writes_sub hostOps0_1 (W1 m ρ c) writes_hostOps0_1 (by decide))
    |>.trans (StableHlo.after_of_writes_sub hostOps0 (W0 m ρ c) writes_hostOps0 (by decide))
    |>.trans rfl

theorem arg9_at4 (c : Dev nD) : W4 m ρ c (Proc.devRef .tc main_arg9) = m ((c : Thread nD τ).loc main_arg9) :=
  (W4_of_ne m ρ c main_arg9 (by decide))
    |>.trans (StableHlo.after_of_writes_sub hostOps0_2 (W2 m ρ c) writes_hostOps0_2 (by decide))
    |>.trans (StableHlo.after_of_writes_sub hostOps0_1 (W1 m ρ c) writes_hostOps0_1 (by decide))
    |>.trans (StableHlo.after_of_writes_sub hostOps0 (W0 m ρ c) writes_hostOps0 (by decide))
    |>.trans rfl

theorem arg4_at6 (c : Dev nD) : W6 m ρ c (Proc.devRef .tc main_arg4) = m ((c : Thread nD τ).loc main_arg4) :=
  (W6_of_ne m ρ c main_arg4 (by decide))
    |>.trans (StableHlo.after_of_writes_sub hostOps1 (W4 m ρ c) writes_hostOps1 (by decide))
    |>.trans (W4_of_ne m ρ c main_arg4 (by decide))
    |>.trans (StableHlo.after_of_writes_sub hostOps0_2 (W2 m ρ c) writes_hostOps0_2 (by decide))
    |>.trans (StableHlo.after_of_writes_sub hostOps0_1 (W1 m ρ c) writes_hostOps0_1 (by decide))
    |>.trans (StableHlo.after_of_writes_sub hostOps0 (W0 m ρ c) writes_hostOps0 (by decide))
    |>.trans rfl

theorem arg5_at7 (c : Dev nD) : W7 m ρ c (Proc.devRef .tc main_arg5) = m ((c : Thread nD τ).loc main_arg5) :=
  (W7_of_ne m ρ c main_arg5 (by decide))
    |>.trans (W6_of_ne m ρ c main_arg5 (by decide))
    |>.trans (StableHlo.after_of_writes_sub hostOps1 (W4 m ρ c) writes_hostOps1 (by decide))
    |>.trans (W4_of_ne m ρ c main_arg5 (by decide))
    |>.trans (StableHlo.after_of_writes_sub hostOps0_2 (W2 m ρ c) writes_hostOps0_2 (by decide))
    |>.trans (StableHlo.after_of_writes_sub hostOps0_1 (W1 m ρ c) writes_hostOps0_1 (by decide))
    |>.trans (StableHlo.after_of_writes_sub hostOps0 (W0 m ρ c) writes_hostOps0 (by decide))
    |>.trans rfl

theorem arg10_at7 (c : Dev nD) : W7 m ρ c (Proc.devRef .tc main_arg10) = m ((c : Thread nD τ).loc main_arg10) :=
  (W7_of_ne m ρ c main_arg10 (by decide))
    |>.trans (W6_of_ne m ρ c main_arg10 (by decide))
    |>.trans (StableHlo.after_of_writes_sub hostOps1 (W4 m ρ c) writes_hostOps1 (by decide))
    |>.trans (W4_of_ne m ρ c main_arg10 (by decide))
    |>.trans (StableHlo.after_of_writes_sub hostOps0_2 (W2 m ρ c) writes_hostOps0_2 (by decide))
    |>.trans (StableHlo.after_of_writes_sub hostOps0_1 (W1 m ρ c) writes_hostOps0_1 (by decide))
    |>.trans (StableHlo.after_of_writes_sub hostOps0 (W0 m ρ c) writes_hostOps0 (by decide))
    |>.trans rfl

theorem arg11_at7 (c : Dev nD) : W7 m ρ c (Proc.devRef .tc main_arg11) = m ((c : Thread nD τ).loc main_arg11) :=
  (W7_of_ne m ρ c main_arg11 (by decide))
    |>.trans (W6_of_ne m ρ c main_arg11 (by decide))
    |>.trans (StableHlo.after_of_writes_sub hostOps1 (W4 m ρ c) writes_hostOps1 (by decide))
    |>.trans (W4_of_ne m ρ c main_arg11 (by decide))
    |>.trans (StableHlo.after_of_writes_sub hostOps0_2 (W2 m ρ c) writes_hostOps0_2 (by decide))
    |>.trans (StableHlo.after_of_writes_sub hostOps0_1 (W1 m ρ c) writes_hostOps0_1 (by decide))
    |>.trans (StableHlo.after_of_writes_sub hostOps0 (W0 m ρ c) writes_hostOps0 (by decide))
    |>.trans rfl

theorem arg6_at9 (c : Dev nD) : W9 m ρ c (Proc.devRef .tc main_arg6) = m ((c : Thread nD τ).loc main_arg6) :=
  (W9_of_ne m ρ c main_arg6 (by decide))
    |>.trans (StableHlo.after_of_writes_sub hostOps3 (W7 m ρ c) writes_hostOps3 (by decide))
    |>.trans (W7_of_ne m ρ c main_arg6 (by decide))
    |>.trans (W6_of_ne m ρ c main_arg6 (by decide))
    |>.trans (StableHlo.after_of_writes_sub hostOps1 (W4 m ρ c) writes_hostOps1 (by decide))
    |>.trans (W4_of_ne m ρ c main_arg6 (by decide))
    |>.trans (StableHlo.after_of_writes_sub hostOps0_2 (W2 m ρ c) writes_hostOps0_2 (by decide))
    |>.trans (StableHlo.after_of_writes_sub hostOps0_1 (W1 m ρ c) writes_hostOps0_1 (by decide))
    |>.trans (StableHlo.after_of_writes_sub hostOps0 (W0 m ρ c) writes_hostOps0 (by decide))
    |>.trans rfl

theorem arg7_at10 (c : Dev nD) : W10 m ρ c (Proc.devRef .tc main_arg7) = m ((c : Thread nD τ).loc main_arg7) :=
  (W10_of_ne m ρ c main_arg7 (by decide))
    |>.trans (W9_of_ne m ρ c main_arg7 (by decide))
    |>.trans (StableHlo.after_of_writes_sub hostOps3 (W7 m ρ c) writes_hostOps3 (by decide))
    |>.trans (W7_of_ne m ρ c main_arg7 (by decide))
    |>.trans (W6_of_ne m ρ c main_arg7 (by decide))
    |>.trans (StableHlo.after_of_writes_sub hostOps1 (W4 m ρ c) writes_hostOps1 (by decide))
    |>.trans (W4_of_ne m ρ c main_arg7 (by decide))
    |>.trans (StableHlo.after_of_writes_sub hostOps0_2 (W2 m ρ c) writes_hostOps0_2 (by decide))
    |>.trans (StableHlo.after_of_writes_sub hostOps0_1 (W1 m ρ c) writes_hostOps0_1 (by decide))
    |>.trans (StableHlo.after_of_writes_sub hostOps0 (W0 m ρ c) writes_hostOps0 (by decide))
    |>.trans rfl

theorem arg12_at10 (c : Dev nD) : W10 m ρ c (Proc.devRef .tc main_arg12) = m ((c : Thread nD τ).loc main_arg12) :=
  (W10_of_ne m ρ c main_arg12 (by decide))
    |>.trans (W9_of_ne m ρ c main_arg12 (by decide))
    |>.trans (StableHlo.after_of_writes_sub hostOps3 (W7 m ρ c) writes_hostOps3 (by decide))
    |>.trans (W7_of_ne m ρ c main_arg12 (by decide))
    |>.trans (W6_of_ne m ρ c main_arg12 (by decide))
    |>.trans (StableHlo.after_of_writes_sub hostOps1 (W4 m ρ c) writes_hostOps1 (by decide))
    |>.trans (W4_of_ne m ρ c main_arg12 (by decide))
    |>.trans (StableHlo.after_of_writes_sub hostOps0_2 (W2 m ρ c) writes_hostOps0_2 (by decide))
    |>.trans (StableHlo.after_of_writes_sub hostOps0_1 (W1 m ρ c) writes_hostOps0_1 (by decide))
    |>.trans (StableHlo.after_of_writes_sub hostOps0 (W0 m ρ c) writes_hostOps0 (by decide))
    |>.trans rfl

theorem arg13_at10 (c : Dev nD) : W10 m ρ c (Proc.devRef .tc main_arg13) = m ((c : Thread nD τ).loc main_arg13) :=
  (W10_of_ne m ρ c main_arg13 (by decide))
    |>.trans (W9_of_ne m ρ c main_arg13 (by decide))
    |>.trans (StableHlo.after_of_writes_sub hostOps3 (W7 m ρ c) writes_hostOps3 (by decide))
    |>.trans (W7_of_ne m ρ c main_arg13 (by decide))
    |>.trans (W6_of_ne m ρ c main_arg13 (by decide))
    |>.trans (StableHlo.after_of_writes_sub hostOps1 (W4 m ρ c) writes_hostOps1 (by decide))
    |>.trans (W4_of_ne m ρ c main_arg13 (by decide))
    |>.trans (StableHlo.after_of_writes_sub hostOps0_2 (W2 m ρ c) writes_hostOps0_2 (by decide))
    |>.trans (StableHlo.after_of_writes_sub hostOps0_1 (W1 m ρ c) writes_hostOps0_1 (by decide))
    |>.trans (StableHlo.after_of_writes_sub hostOps0 (W0 m ρ c) writes_hostOps0 (by decide))
    |>.trans rfl

theorem arg15_at12 (c : Dev nD) : W12 m ρ c (Proc.devRef .tc main_arg15) = m ((c : Thread nD τ).loc main_arg15) :=
  (W12_of_ne m ρ c main_arg15 (by decide))
    |>.trans (StableHlo.after_of_writes_sub hostOps5 (W10 m ρ c) writes_hostOps5 (by decide))
    |>.trans (W10_of_ne m ρ c main_arg15 (by decide))
    |>.trans (W9_of_ne m ρ c main_arg15 (by decide))
    |>.trans (StableHlo.after_of_writes_sub hostOps3 (W7 m ρ c) writes_hostOps3 (by decide))
    |>.trans (W7_of_ne m ρ c main_arg15 (by decide))
    |>.trans (W6_of_ne m ρ c main_arg15 (by decide))
    |>.trans (StableHlo.after_of_writes_sub hostOps1 (W4 m ρ c) writes_hostOps1 (by decide))
    |>.trans (W4_of_ne m ρ c main_arg15 (by decide))
    |>.trans (StableHlo.after_of_writes_sub hostOps0_2 (W2 m ρ c) writes_hostOps0_2 (by decide))
    |>.trans (StableHlo.after_of_writes_sub hostOps0_1 (W1 m ρ c) writes_hostOps0_1 (by decide))
    |>.trans (StableHlo.after_of_writes_sub hostOps0 (W0 m ρ c) writes_hostOps0 (by decide))
    |>.trans rfl

theorem arg14_at13 (c : Dev nD) : W13 m ρ c (Proc.devRef .tc main_arg14) = m ((c : Thread nD τ).loc main_arg14) :=
  (StableHlo.after_of_writes_sub hostOps6 (W12 m ρ c) writes_hostOps6 (by decide))
    |>.trans (W12_of_ne m ρ c main_arg14 (by decide))
    |>.trans (StableHlo.after_of_writes_sub hostOps5 (W10 m ρ c) writes_hostOps5 (by decide))
    |>.trans (W10_of_ne m ρ c main_arg14 (by decide))
    |>.trans (W9_of_ne m ρ c main_arg14 (by decide))
    |>.trans (StableHlo.after_of_writes_sub hostOps3 (W7 m ρ c) writes_hostOps3 (by decide))
    |>.trans (W7_of_ne m ρ c main_arg14 (by decide))
    |>.trans (W6_of_ne m ρ c main_arg14 (by decide))
    |>.trans (StableHlo.after_of_writes_sub hostOps1 (W4 m ρ c) writes_hostOps1 (by decide))
    |>.trans (W4_of_ne m ρ c main_arg14 (by decide))
    |>.trans (StableHlo.after_of_writes_sub hostOps0_2 (W2 m ρ c) writes_hostOps0_2 (by decide))
    |>.trans (StableHlo.after_of_writes_sub hostOps0_1 (W1 m ρ c) writes_hostOps0_1 (by decide))
    |>.trans (StableHlo.after_of_writes_sub hostOps0 (W0 m ρ c) writes_hostOps0 (by decide))
    |>.trans rfl

/-! ## The edge arrays and the last hidden array -/

theorem v3_at4 (c : Dev nD) : W4 m ρ c (Proc.devRef .tc main_v3) = W3 m ρ c (Proc.devRef .tc main_v3) :=
  (W4_of_ne m ρ c main_v3 (by decide))

theorem v3_at7 (c : Dev nD) : W7 m ρ c (Proc.devRef .tc main_v3) = W3 m ρ c (Proc.devRef .tc main_v3) :=
  (W7_of_ne m ρ c main_v3 (by decide))
    |>.trans (W6_of_ne m ρ c main_v3 (by decide))
    |>.trans (StableHlo.after_of_writes_sub hostOps1 (W4 m ρ c) writes_hostOps1 (by decide))
    |>.trans (W4_of_ne m ρ c main_v3 (by decide))

theorem v3_at10 (c : Dev nD) : W10 m ρ c (Proc.devRef .tc main_v3) = W3 m ρ c (Proc.devRef .tc main_v3) :=
  (W10_of_ne m ρ c main_v3 (by decide))
    |>.trans (W9_of_ne m ρ c main_v3 (by decide))
    |>.trans (StableHlo.after_of_writes_sub hostOps3 (W7 m ρ c) writes_hostOps3 (by decide))
    |>.trans (W7_of_ne m ρ c main_v3 (by decide))
    |>.trans (W6_of_ne m ρ c main_v3 (by decide))
    |>.trans (StableHlo.after_of_writes_sub hostOps1 (W4 m ρ c) writes_hostOps1 (by decide))
    |>.trans (W4_of_ne m ρ c main_v3 (by decide))

theorem v6_at4 (c : Dev nD) : W4 m ρ c (Proc.devRef .tc main_v6) = W3 m ρ c (Proc.devRef .tc main_v6) :=
  (W4_of_ne m ρ c main_v6 (by decide))

theorem v6_at7 (c : Dev nD) : W7 m ρ c (Proc.devRef .tc main_v6) = W3 m ρ c (Proc.devRef .tc main_v6) :=
  (W7_of_ne m ρ c main_v6 (by decide))
    |>.trans (W6_of_ne m ρ c main_v6 (by decide))
    |>.trans (StableHlo.after_of_writes_sub hostOps1 (W4 m ρ c) writes_hostOps1 (by decide))
    |>.trans (W4_of_ne m ρ c main_v6 (by decide))

theorem v6_at10 (c : Dev nD) : W10 m ρ c (Proc.devRef .tc main_v6) = W3 m ρ c (Proc.devRef .tc main_v6) :=
  (W10_of_ne m ρ c main_v6 (by decide))
    |>.trans (W9_of_ne m ρ c main_v6 (by decide))
    |>.trans (StableHlo.after_of_writes_sub hostOps3 (W7 m ρ c) writes_hostOps3 (by decide))
    |>.trans (W7_of_ne m ρ c main_v6 (by decide))
    |>.trans (W6_of_ne m ρ c main_v6 (by decide))
    |>.trans (StableHlo.after_of_writes_sub hostOps1 (W4 m ρ c) writes_hostOps1 (by decide))
    |>.trans (W4_of_ne m ρ c main_v6 (by decide))

theorem v31_at4 (c : Dev nD) : W4 m ρ c (Proc.devRef .tc main_v31) = W3 m ρ c (Proc.devRef .tc main_v31) :=
  (W4_of_ne m ρ c main_v31 (by decide))

theorem v31_at7 (c : Dev nD) : W7 m ρ c (Proc.devRef .tc main_v31) = W3 m ρ c (Proc.devRef .tc main_v31) :=
  (W7_of_ne m ρ c main_v31 (by decide))
    |>.trans (W6_of_ne m ρ c main_v31 (by decide))
    |>.trans (StableHlo.after_of_writes_sub hostOps1 (W4 m ρ c) writes_hostOps1 (by decide))
    |>.trans (W4_of_ne m ρ c main_v31 (by decide))

theorem v31_at10 (c : Dev nD) : W10 m ρ c (Proc.devRef .tc main_v31) = W3 m ρ c (Proc.devRef .tc main_v31) :=
  (W10_of_ne m ρ c main_v31 (by decide))
    |>.trans (W9_of_ne m ρ c main_v31 (by decide))
    |>.trans (StableHlo.after_of_writes_sub hostOps3 (W7 m ρ c) writes_hostOps3 (by decide))
    |>.trans (W7_of_ne m ρ c main_v31 (by decide))
    |>.trans (W6_of_ne m ρ c main_v31 (by decide))
    |>.trans (StableHlo.after_of_writes_sub hostOps1 (W4 m ρ c) writes_hostOps1 (by decide))
    |>.trans (W4_of_ne m ρ c main_v31 (by decide))

theorem v127_at13 (c : Dev nD) : W13 m ρ c (Proc.devRef .tc main_v127) = W12 m ρ c (Proc.devRef .tc main_v127) :=
  (StableHlo.after_of_writes_sub hostOps6 (W12 m ρ c) writes_hostOps6 (by decide))

end Cert.KernelIdeal.Walk

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.LibRows.lean ====
/-
  A vector laid out as a one-row matrix, two ways, and entrywise operations on it.

  A vector of length n becomes the row [1, n] either by a reshape (both sit at row-major position q) or by a broadcast
  that places it along axis 1; the two rows are the same function. An operation applied entry by entry commutes with
  forming the row: in particular 1/sqrt(v + ε) taken on the row with ε splat over the row is the row of
  1/sqrt(v + ε) taken on the vector with ε broadcast over the vector (the kernel's rsqrt and the host's are one
  function on the extended reals). Generic in n.
-/
import proofs.«149855_j47364899340880_1_alg».proof.Proof.LibHostBroadcast
import proofs.«149855_j47364899340880_1_alg».proof.Proof.LibColumns
import Idealize.ShloMosaic.PureOps.Ideal.Laws

noncomputable section

namespace Cert.LibRows

open Idealize.ShloMosaic Idealize.ShloMosaic.ValueIdx

variable {α : Type} {n : ℕ}

/-- The reshape of a vector to a row is the broadcast of the vector along axis 1 of the row. -/
theorem reshape_row_eq_bcast (y : (⟨1, ![n]⟩ : Shape).Idx → α) (hc : (⟨1, ![n]⟩ : Shape).ShapeCasts ⟨2, ![1, n]⟩)
    (dims : Fin (⟨1, ![n]⟩ : Shape).rank → Fin (⟨2, ![1, n]⟩ : Shape).rank) (hd : dims ⟨0, Nat.one_pos⟩ = ⟨1, Nat.lt_succ_self 1⟩)
    (hB : (⟨1, ![n]⟩ : Shape).BroadcastsInDim ⟨2, ![1, n]⟩ dims) :
    shapeCast ⟨2, ![1, n]⟩ y hc = broadcastInDim ⟨2, ![1, n]⟩ dims hB y := by
  funext j
  obtain ⟨u, q, rfl⟩ : ∃ (u : Fin 1) (q : Fin n), j = ix2 u q := ⟨j 0, j 1, eq_ix2 j⟩
  rw [Cert.LibHostBroadcast.bcast_b_1b_apply dims hd hB]
  exact shapeCast_apply y hc _ _ (by
    have hu : u.val = 0 := by omega
    rw [Shape.rowMajor_val_two, Shape.rowMajor_val_one]
    show q.val = u.val * n + q.val
    rw [hu, Nat.zero_mul, Nat.zero_add])

/-- 1/sqrt(v + ε) on the row of a vector is the row of 1/sqrt(v + ε) on the vector. -/
theorem rsqrt_add_row (e : BitVec 32) (y : FVec Ideal ⟨1, ![n]⟩ .f32)
    (dims : Fin (⟨1, ![n]⟩ : Shape).rank → Fin (⟨2, ![1, n]⟩ : Shape).rank) (hd : dims ⟨0, Nat.one_pos⟩ = ⟨1, Nat.lt_succ_self 1⟩)
    (hB : (⟨1, ![n]⟩ : Shape).BroadcastsInDim ⟨2, ![1, n]⟩ dims)
    (d0 : Fin (⟨0, ![]⟩ : Shape).rank → Fin (⟨1, ![n]⟩ : Shape).rank) (h0 : (⟨0, ![]⟩ : Shape).BroadcastsInDim ⟨1, ![n]⟩ d0) :
    rsqrt (addf (broadcastInDim ⟨2, ![1, n]⟩ dims hB y) (broadcast ⟨2, ![1, n]⟩ (Scalar.ofBits (F := Ideal) .f32 e)))
      = broadcastInDim ⟨2, ![1, n]⟩ dims hB
          (Host.rsqrt (addf y (broadcastInDim ⟨1, ![n]⟩ d0 h0 (constant (F := Ideal) ⟨0, ![]⟩ .f32 e)))) := by
  funext j
  obtain ⟨u, q, rfl⟩ : ∃ (u : Fin 1) (q : Fin n), j = ix2 u q := ⟨j 0, j 1, eq_ix2 j⟩
  rw [Cert.LibHostBroadcast.bcast_b_1b_apply dims hd hB]
  show FloatOps.rsqrt (FloatOps.addf (broadcastInDim ⟨2, ![1, n]⟩ dims hB y (ix2 u q)) (Ideal.ofBits .f32 e))
    = Ideal.rsqrt (FloatOps.addf (y (ix1 q)) (Ideal.ofBits .f32 e))
  rw [Cert.LibHostBroadcast.bcast_b_1b_apply dims hd hB]
  rfl

end Cert.LibRows

end
-- ==== Proof.Host0.lean ====
/-
  The first host stretches: the edge list with self-loops, and the symmetric edge weights.

  From the [2, 1600000] edge list the program forms the source and destination arrays with the 50000 self-loops
  appended, counts the in-degree of every node by adding ones at the destinations, takes 1/sqrt(max(degree, 1)) where the
  degree is positive and zero elsewhere, and multiplies that quantity at each edge's source and destination. These are
  the reference's own operations on the same edge list; and the fc bias is laid out as a [1,40] row.
-/
import proofs.«149855_j47364899340880_1_alg».proof.Proof.Gen.KernelIdeal.Frame
import proofs.«149855_j47364899340880_1_alg».proof.Proof.RefRead
import proofs.«149855_j47364899340880_1_alg».proof.Proof.LibRows

set_option maxRecDepth 16384

noncomputable section

namespace Cert.KernelIdeal.Host0

open Cert.KernelIdeal Cert.KernelIdeal.Gen
open Idealize.ShloMosaic Idealize.ShloMosaic.TcCoe Idealize.ShloMosaic.StableHlo Idealize.SL.Sem

variable (W : Valuation τ sig (Elt Ideal))
variable (x0 : (⟨Cert.ReferenceIdeal.S50000x128, .f32⟩ : BufTy).Contents (Elt Ideal))
  (x1 : (⟨Cert.ReferenceIdeal.S2x1600000, .i32⟩ : BufTy).Contents (Elt Ideal))
  (x2 : (⟨Cert.ReferenceIdeal.S128x128, .f32⟩ : BufTy).Contents (Elt Ideal))
  (x3 : (⟨Cert.ReferenceIdeal.S128, .f32⟩ : BufTy).Contents (Elt Ideal))
  (x4 : (⟨Cert.ReferenceIdeal.S128x128, .f32⟩ : BufTy).Contents (Elt Ideal))
  (x5 : (⟨Cert.ReferenceIdeal.S128, .f32⟩ : BufTy).Contents (Elt Ideal))
  (x6 : (⟨Cert.ReferenceIdeal.S128x128, .f32⟩ : BufTy).Contents (Elt Ideal))
  (x7 : (⟨Cert.ReferenceIdeal.S128, .f32⟩ : BufTy).Contents (Elt Ideal))
  (x8 : (⟨Cert.ReferenceIdeal.S128, .f32⟩ : BufTy).Contents (Elt Ideal))
  (x9 : (⟨Cert.ReferenceIdeal.S128, .f32⟩ : BufTy).Contents (Elt Ideal))
  (x10 : (⟨Cert.ReferenceIdeal.S128, .f32⟩ : BufTy).Contents (Elt Ideal))
  (x11 : (⟨Cert.ReferenceIdeal.S128, .f32⟩ : BufTy).Contents (Elt Ideal))
  (x12 : (⟨Cert.ReferenceIdeal.S128, .f32⟩ : BufTy).Contents (Elt Ideal))
  (x13 : (⟨Cert.ReferenceIdeal.S128, .f32⟩ : BufTy).Contents (Elt Ideal))
  (x14 : (⟨Cert.ReferenceIdeal.S128x40, .f32⟩ : BufTy).Contents (Elt Ideal))
  (x15 : (⟨Cert.ReferenceIdeal.S40, .f32⟩ : BufTy).Contents (Elt Ideal))

/-- A vector of length 128 as a [1,128] row, in the reference's spelling. -/
abbrev row (y : FVec Ideal Cert.ReferenceIdeal.S128 .f32) : FVec Ideal Cert.ReferenceIdeal.S1x128 .f32 :=
  broadcastInDim Cert.ReferenceIdeal.S1x128 ![1] Cert.ReferenceIdeal.Facts₀.bcast_S128_S1x128_1 y

/-- The edge sources. -/
theorem src (h1 : W (Proc.devRef .tc main_arg1) = x1) :
    StableHlo.after hostOps0_2 (StableHlo.after hostOps0_1 (StableHlo.after hostOps0 W)) (Proc.devRef .tc main_v3) = Cert.ReferenceIdeal.Read.val_main_v3 x1 := by
  simp only [hostOps0_2, hostOps0_1, hostOps0]
  after_results_simp
  subst h1
  rfl

/-- The edge destinations. -/
theorem dst (h1 : W (Proc.devRef .tc main_arg1) = x1) :
    StableHlo.after hostOps0_2 (StableHlo.after hostOps0_1 (StableHlo.after hostOps0 W)) (Proc.devRef .tc main_v6) = Cert.ReferenceIdeal.Read.val_main_v6 x1 := by
  simp only [hostOps0_2, hostOps0_1, hostOps0]
  after_results_simp
  subst h1
  rfl

set_option maxRecDepth 1000000 in
set_option maxHeartbeats 4000000 in
/-- The edge weights. The sources and destinations enter them several times; each occurrence is replaced by its value
    (the two lemmas above, read in the same normal form), and the identity transports around the inlined `where` are removed,
    before the two sides are compared. -/
theorem weight (h1 : W (Proc.devRef .tc main_arg1) = x1) :
    StableHlo.after hostOps0_2 (StableHlo.after hostOps0_1 (StableHlo.after hostOps0 W)) (Proc.devRef .tc main_v31) = Cert.ReferenceIdeal.Read.val_main_v31 x1 := by
  have e3 := src W x1 h1
  have e6 := dst W x1 h1
  simp only [hostOps0_2, hostOps0_1, hostOps0] at e3 e6 ⊢
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne'] at e3 e6 ⊢
  rw [e3, e6]
  have cast0 : ∀ v : (⟨S50000, .f32⟩ : BufTy).Contents (Elt Ideal), (TRef.of main_v16 : TRef sig ⟨S50000, .f32⟩).toBuf (Val := Elt Ideal) v = v := fun v => cast_eq _ _
  have cast1 : ∀ v : (⟨S50000, .i1⟩ : BufTy).Contents (Elt Ideal), (TRef.of main_v12 : TRef sig ⟨S50000, .i1⟩).ofBuf (Val := Elt Ideal) v = v := fun v => cast_eq _ _
  have cast2 : ∀ v : (⟨S50000, .f32⟩ : BufTy).Contents (Elt Ideal), (TRef.of main_v15 : TRef sig ⟨S50000, .f32⟩).ofBuf (Val := Elt Ideal) v = v := fun v => cast_eq _ _
  have cast3 : ∀ v : (⟨S50000, .f32⟩ : BufTy).Contents (Elt Ideal), (TRef.of main_call0_v1 : TRef sig ⟨S50000, .f32⟩).toBuf (Val := Elt Ideal) v = v := fun v => cast_eq _ _
  have cast4 : ∀ v : (⟨S50000, .f32⟩ : BufTy).Contents (Elt Ideal), (TRef.of main_call0_v1 : TRef sig ⟨S50000, .f32⟩).ofBuf (Val := Elt Ideal) v = v := fun v => cast_eq _ _
  have cast5 : ∀ v : (⟨S_, .f32⟩ : BufTy).Contents (Elt Ideal), (TRef.of main_call0_v0 : TRef sig ⟨S_, .f32⟩).toBuf (Val := Elt Ideal) v = v := fun v => cast_eq _ _
  have cast6 : ∀ v : (⟨S_, .f32⟩ : BufTy).Contents (Elt Ideal), (TRef.of main_call0_v0 : TRef sig ⟨S_, .f32⟩).ofBuf (Val := Elt Ideal) v = v := fun v => cast_eq _ _
  have cast7 : ∀ v : (⟨S_, .f32⟩ : BufTy).Contents (Elt Ideal), (TRef.of main_cst_3 : TRef sig ⟨S_, .f32⟩).ofBuf (Val := Elt Ideal) v = v := fun v => cast_eq _ _
  simp only [cast0, cast1, cast2, cast3, cast4, cast5, cast6, cast7]
  rfl

/-- The fc bias, as a [1,40] row in the reference's spelling. -/
theorem fcBiasRow (h15 : W (Proc.devRef .tc main_arg15) = x15) :
    StableHlo.after hostOps6 W (Proc.devRef .tc main_v128) = broadcastInDim Cert.ReferenceIdeal.S1x40 ![1] Cert.ReferenceIdeal.Facts₀.bcast_S40_S1x40_1 x15 := by
  simp only [hostOps6]
  after_results_simp
  rw [h15]
  exact Cert.LibRows.reshape_row_eq_bcast _ _ ![1] rfl Cert.ReferenceIdeal.Facts₀.bcast_S40_S1x40_1

end Cert.KernelIdeal.Host0

end
-- ==== Proof.Host1.lean ====
/-
  The host stretch between a product stage and its batch-norm stage.

  From the product it gathers the rows at the edge sources, scales them by the edge weights and adds them up at the edge
  destinations (the aggregate); it adds the bias, takes the column means and the column variances of the result, and
  lays the bias, the scale, the shift, the means and the variances out as [1,128] rows. These are the reference's own
  operations on the same values, except that a vector becomes a row by a reshape where the reference broadcasts it;
  the two rows are the same function.
-/
import proofs.«149855_j47364899340880_1_alg».proof.Proof.Gen.KernelIdeal.Frame
import proofs.«149855_j47364899340880_1_alg».proof.Proof.RefRead
import proofs.«149855_j47364899340880_1_alg».proof.Proof.LibRows

set_option maxRecDepth 16384

noncomputable section

namespace Cert.KernelIdeal.Host1

open Cert.KernelIdeal Cert.KernelIdeal.Gen
open Idealize.ShloMosaic Idealize.ShloMosaic.TcCoe Idealize.ShloMosaic.StableHlo Idealize.SL.Sem

variable (W : Valuation τ sig (Elt Ideal))
variable (x0 : (⟨Cert.ReferenceIdeal.S50000x128, .f32⟩ : BufTy).Contents (Elt Ideal))
  (x1 : (⟨Cert.ReferenceIdeal.S2x1600000, .i32⟩ : BufTy).Contents (Elt Ideal))
  (x2 : (⟨Cert.ReferenceIdeal.S128x128, .f32⟩ : BufTy).Contents (Elt Ideal))
  (x3 : (⟨Cert.ReferenceIdeal.S128, .f32⟩ : BufTy).Contents (Elt Ideal))
  (x4 : (⟨Cert.ReferenceIdeal.S128x128, .f32⟩ : BufTy).Contents (Elt Ideal))
  (x5 : (⟨Cert.ReferenceIdeal.S128, .f32⟩ : BufTy).Contents (Elt Ideal))
  (x6 : (⟨Cert.ReferenceIdeal.S128x128, .f32⟩ : BufTy).Contents (Elt Ideal))
  (x7 : (⟨Cert.ReferenceIdeal.S128, .f32⟩ : BufTy).Contents (Elt Ideal))
  (x8 : (⟨Cert.ReferenceIdeal.S128, .f32⟩ : BufTy).Contents (Elt Ideal))
  (x9 : (⟨Cert.ReferenceIdeal.S128, .f32⟩ : BufTy).Contents (Elt Ideal))
  (x10 : (⟨Cert.ReferenceIdeal.S128, .f32⟩ : BufTy).Contents (Elt Ideal))
  (x11 : (⟨Cert.ReferenceIdeal.S128, .f32⟩ : BufTy).Contents (Elt Ideal))
  (x12 : (⟨Cert.ReferenceIdeal.S128, .f32⟩ : BufTy).Contents (Elt Ideal))
  (x13 : (⟨Cert.ReferenceIdeal.S128, .f32⟩ : BufTy).Contents (Elt Ideal))
  (x14 : (⟨Cert.ReferenceIdeal.S128x40, .f32⟩ : BufTy).Contents (Elt Ideal))
  (x15 : (⟨Cert.ReferenceIdeal.S40, .f32⟩ : BufTy).Contents (Elt Ideal))

/-- A vector of length 128 as a [1,128] row, in the reference's spelling. -/
abbrev row (y : FVec Ideal Cert.ReferenceIdeal.S128 .f32) : FVec Ideal Cert.ReferenceIdeal.S1x128 .f32 :=
  broadcastInDim Cert.ReferenceIdeal.S1x128 ![1] Cert.ReferenceIdeal.Facts₀.bcast_S128_S1x128_1 y

/-- The aggregate. -/
theorem agg (hhw : W (Proc.devRef .tc main_v32) = Cert.ReferenceIdeal.Read.val_main_v32 x0 x2)
    (h3 : W (Proc.devRef .tc main_v3) = Cert.ReferenceIdeal.Read.val_main_v3 x1) (h6 : W (Proc.devRef .tc main_v6) = Cert.ReferenceIdeal.Read.val_main_v6 x1)
    (h31 : W (Proc.devRef .tc main_v31) = Cert.ReferenceIdeal.Read.val_main_v31 x1) :
    StableHlo.after hostOps1 W (Proc.devRef .tc main_v45) = Cert.ReferenceIdeal.Read.val_main_v45 x0 x1 x2 := by
  simp only [hostOps1]
  after_results_simp
  rw [hhw, h3, h6, h31]
  rfl

/-- The column means, as a row. -/
theorem meanRow (hhw : W (Proc.devRef .tc main_v32) = Cert.ReferenceIdeal.Read.val_main_v32 x0 x2)
    (h3 : W (Proc.devRef .tc main_v3) = Cert.ReferenceIdeal.Read.val_main_v3 x1) (h6 : W (Proc.devRef .tc main_v6) = Cert.ReferenceIdeal.Read.val_main_v6 x1)
    (h31 : W (Proc.devRef .tc main_v31) = Cert.ReferenceIdeal.Read.val_main_v31 x1) (hb : W (Proc.devRef .tc main_arg3) = x3) :
    StableHlo.after hostOps1 W (Proc.devRef .tc main_v52) = row (Cert.ReferenceIdeal.Read.val_main_v51 x0 x1 x2 x3) := by
  simp only [hostOps1]
  after_results_simp
  rw [hhw, h3, h6, h31, hb]
  refine (Cert.LibRows.reshape_row_eq_bcast _ _ ![1] rfl Cert.ReferenceIdeal.Facts₀.bcast_S128_S1x128_1).trans ?_
  rfl

/-- The column variances, as a row; the means enter them as a row spread over the rows. -/
theorem varRow (hhw : W (Proc.devRef .tc main_v32) = Cert.ReferenceIdeal.Read.val_main_v32 x0 x2)
    (h3 : W (Proc.devRef .tc main_v3) = Cert.ReferenceIdeal.Read.val_main_v3 x1) (h6 : W (Proc.devRef .tc main_v6) = Cert.ReferenceIdeal.Read.val_main_v6 x1)
    (h31 : W (Proc.devRef .tc main_v31) = Cert.ReferenceIdeal.Read.val_main_v31 x1) (hb : W (Proc.devRef .tc main_arg3) = x3) :
    StableHlo.after hostOps1 W (Proc.devRef .tc main_v59) = row (Cert.ReferenceIdeal.Read.val_main_v58 x0 x1 x2 x3) := by
  simp only [hostOps1]
  after_results_simp
  rw [hhw, h3, h6, h31, hb]
  have meanAsRow : ∀ Y : FVec Ideal Cert.ReferenceIdeal.S128 .f32, shapeCast main_v52.ty.shape Y shapeCasts_S128_S1x128 = row Y :=
    fun Y => Cert.LibRows.reshape_row_eq_bcast _ _ ![1] rfl Cert.ReferenceIdeal.Facts₀.bcast_S128_S1x128_1
  simp only [meanAsRow]
  refine (Cert.LibRows.reshape_row_eq_bcast _ _ ![1] rfl Cert.ReferenceIdeal.Facts₀.bcast_S128_S1x128_1).trans ?_
  rfl

/-- The bias, as a row. -/
theorem biasRow (hb : W (Proc.devRef .tc main_arg3) = x3) : StableHlo.after hostOps1 W (Proc.devRef .tc main_v60) = row x3 := by
  simp only [hostOps1]
  after_results_simp
  rw [hb]
  exact Cert.LibRows.reshape_row_eq_bcast _ _ ![1] rfl Cert.ReferenceIdeal.Facts₀.bcast_S128_S1x128_1

/-- The scale, as a row. -/
theorem scaleRow (hg : W (Proc.devRef .tc main_arg8) = x8) : StableHlo.after hostOps1 W (Proc.devRef .tc main_v61) = row x8 := by
  simp only [hostOps1]
  after_results_simp
  rw [hg]
  exact Cert.LibRows.reshape_row_eq_bcast _ _ ![1] rfl Cert.ReferenceIdeal.Facts₀.bcast_S128_S1x128_1

/-- The shift, as a row. -/
theorem shiftRow (hbe : W (Proc.devRef .tc main_arg9) = x9) : StableHlo.after hostOps1 W (Proc.devRef .tc main_v62) = row x9 := by
  simp only [hostOps1]
  after_results_simp
  rw [hbe]
  exact Cert.LibRows.reshape_row_eq_bcast _ _ ![1] rfl Cert.ReferenceIdeal.Facts₀.bcast_S128_S1x128_1

end Cert.KernelIdeal.Host1

end
-- ==== Proof.Host3.lean ====
/-
  The host stretch between a product stage and its batch-norm stage.

  From the product it gathers the rows at the edge sources, scales them by the edge weights and adds them up at the edge
  destinations (the aggregate); it adds the bias, takes the column means and the column variances of the result, and
  lays the bias, the scale, the shift, the means and the variances out as [1,128] rows. These are the reference's own
  operations on the same values, except that a vector becomes a row by a reshape where the reference broadcasts it;
  the two rows are the same function.
-/
import proofs.«149855_j47364899340880_1_alg».proof.Proof.Gen.KernelIdeal.Frame
import proofs.«149855_j47364899340880_1_alg».proof.Proof.RefRead
import proofs.«149855_j47364899340880_1_alg».proof.Proof.LibRows

set_option maxRecDepth 16384

noncomputable section

namespace Cert.KernelIdeal.Host3

open Cert.KernelIdeal Cert.KernelIdeal.Gen
open Idealize.ShloMosaic Idealize.ShloMosaic.TcCoe Idealize.ShloMosaic.StableHlo Idealize.SL.Sem

variable (W : Valuation τ sig (Elt Ideal))
variable (x0 : (⟨Cert.ReferenceIdeal.S50000x128, .f32⟩ : BufTy).Contents (Elt Ideal))
  (x1 : (⟨Cert.ReferenceIdeal.S2x1600000, .i32⟩ : BufTy).Contents (Elt Ideal))
  (x2 : (⟨Cert.ReferenceIdeal.S128x128, .f32⟩ : BufTy).Contents (Elt Ideal))
  (x3 : (⟨Cert.ReferenceIdeal.S128, .f32⟩ : BufTy).Contents (Elt Ideal))
  (x4 : (⟨Cert.ReferenceIdeal.S128x128, .f32⟩ : BufTy).Contents (Elt Ideal))
  (x5 : (⟨Cert.ReferenceIdeal.S128, .f32⟩ : BufTy).Contents (Elt Ideal))
  (x6 : (⟨Cert.ReferenceIdeal.S128x128, .f32⟩ : BufTy).Contents (Elt Ideal))
  (x7 : (⟨Cert.ReferenceIdeal.S128, .f32⟩ : BufTy).Contents (Elt Ideal))
  (x8 : (⟨Cert.ReferenceIdeal.S128, .f32⟩ : BufTy).Contents (Elt Ideal))
  (x9 : (⟨Cert.ReferenceIdeal.S128, .f32⟩ : BufTy).Contents (Elt Ideal))
  (x10 : (⟨Cert.ReferenceIdeal.S128, .f32⟩ : BufTy).Contents (Elt Ideal))
  (x11 : (⟨Cert.ReferenceIdeal.S128, .f32⟩ : BufTy).Contents (Elt Ideal))
  (x12 : (⟨Cert.ReferenceIdeal.S128, .f32⟩ : BufTy).Contents (Elt Ideal))
  (x13 : (⟨Cert.ReferenceIdeal.S128, .f32⟩ : BufTy).Contents (Elt Ideal))
  (x14 : (⟨Cert.ReferenceIdeal.S128x40, .f32⟩ : BufTy).Contents (Elt Ideal))
  (x15 : (⟨Cert.ReferenceIdeal.S40, .f32⟩ : BufTy).Contents (Elt Ideal))

/-- A vector of length 128 as a [1,128] row, in the reference's spelling. -/
abbrev row (y : FVec Ideal Cert.ReferenceIdeal.S128 .f32) : FVec Ideal Cert.ReferenceIdeal.S1x128 .f32 :=
  broadcastInDim Cert.ReferenceIdeal.S1x128 ![1] Cert.ReferenceIdeal.Facts₀.bcast_S128_S1x128_1 y

/-- The aggregate. -/
theorem agg (hhw : W (Proc.devRef .tc main_v64) = Cert.ReferenceIdeal.Read.val_main_v75 x0 x1 x2 x3 x4 x8 x9)
    (h3 : W (Proc.devRef .tc main_v3) = Cert.ReferenceIdeal.Read.val_main_v3 x1) (h6 : W (Proc.devRef .tc main_v6) = Cert.ReferenceIdeal.Read.val_main_v6 x1)
    (h31 : W (Proc.devRef .tc main_v31) = Cert.ReferenceIdeal.Read.val_main_v31 x1) :
    StableHlo.after hostOps3 W (Proc.devRef .tc main_v77) = Cert.ReferenceIdeal.Read.val_main_v88 x0 x1 x2 x3 x4 x8 x9 := by
  simp only [hostOps3]
  after_results_simp
  rw [hhw, h3, h6, h31]
  rfl

/-- The column means, as a row. -/
theorem meanRow (hhw : W (Proc.devRef .tc main_v64) = Cert.ReferenceIdeal.Read.val_main_v75 x0 x1 x2 x3 x4 x8 x9)
    (h3 : W (Proc.devRef .tc main_v3) = Cert.ReferenceIdeal.Read.val_main_v3 x1) (h6 : W (Proc.devRef .tc main_v6) = Cert.ReferenceIdeal.Read.val_main_v6 x1)
    (h31 : W (Proc.devRef .tc main_v31) = Cert.ReferenceIdeal.Read.val_main_v31 x1) (hb : W (Proc.devRef .tc main_arg5) = x5) :
    StableHlo.after hostOps3 W (Proc.devRef .tc main_v84) = row (Cert.ReferenceIdeal.Read.val_main_v94 x0 x1 x2 x3 x4 x5 x8 x9) := by
  simp only [hostOps3]
  after_results_simp
  rw [hhw, h3, h6, h31, hb]
  refine (Cert.LibRows.reshape_row_eq_bcast _ _ ![1] rfl Cert.ReferenceIdeal.Facts₀.bcast_S128_S1x128_1).trans ?_
  rfl

/-- The column variances, as a row; the means enter them as a row spread over the rows. -/
theorem varRow (hhw : W (Proc.devRef .tc main_v64) = Cert.ReferenceIdeal.Read.val_main_v75 x0 x1 x2 x3 x4 x8 x9)
    (h3 : W (Proc.devRef .tc main_v3) = Cert.ReferenceIdeal.Read.val_main_v3 x1) (h6 : W (Proc.devRef .tc main_v6) = Cert.ReferenceIdeal.Read.val_main_v6 x1)
    (h31 : W (Proc.devRef .tc main_v31) = Cert.ReferenceIdeal.Read.val_main_v31 x1) (hb : W (Proc.devRef .tc main_arg5) = x5) :
    StableHlo.after hostOps3 W (Proc.devRef .tc main_v91) = row (Cert.ReferenceIdeal.Read.val_main_v101 x0 x1 x2 x3 x4 x5 x8 x9) := by
  simp only [hostOps3]
  after_results_simp
  rw [hhw, h3, h6, h31, hb]
  have meanAsRow : ∀ Y : FVec Ideal Cert.ReferenceIdeal.S128 .f32, shapeCast main_v84.ty.shape Y shapeCasts_S128_S1x128 = row Y :=
    fun Y => Cert.LibRows.reshape_row_eq_bcast _ _ ![1] rfl Cert.ReferenceIdeal.Facts₀.bcast_S128_S1x128_1
  simp only [meanAsRow]
  refine (Cert.LibRows.reshape_row_eq_bcast _ _ ![1] rfl Cert.ReferenceIdeal.Facts₀.bcast_S128_S1x128_1).trans ?_
  rfl

/-- The bias, as a row. -/
theorem biasRow (hb : W (Proc.devRef .tc main_arg5) = x5) : StableHlo.after hostOps3 W (Proc.devRef .tc main_v92) = row x5 := by
  simp only [hostOps3]
  after_results_simp
  rw [hb]
  exact Cert.LibRows.reshape_row_eq_bcast _ _ ![1] rfl Cert.ReferenceIdeal.Facts₀.bcast_S128_S1x128_1

/-- The scale, as a row. -/
theorem scaleRow (hg : W (Proc.devRef .tc main_arg10) = x10) : StableHlo.after hostOps3 W (Proc.devRef .tc main_v93) = row x10 := by
  simp only [hostOps3]
  after_results_simp
  rw [hg]
  exact Cert.LibRows.reshape_row_eq_bcast _ _ ![1] rfl Cert.ReferenceIdeal.Facts₀.bcast_S128_S1x128_1

/-- The shift, as a row. -/
theorem shiftRow (hbe : W (Proc.devRef .tc main_arg11) = x11) : StableHlo.after hostOps3 W (Proc.devRef .tc main_v94) = row x11 := by
  simp only [hostOps3]
  after_results_simp
  rw [hbe]
  exact Cert.LibRows.reshape_row_eq_bcast _ _ ![1] rfl Cert.ReferenceIdeal.Facts₀.bcast_S128_S1x128_1

end Cert.KernelIdeal.Host3

end
-- ==== Proof.Host5.lean ====
/-
  The host stretch between a product stage and its batch-norm stage.

  From the product it gathers the rows at the edge sources, scales them by the edge weights and adds them up at the edge
  destinations (the aggregate); it adds the bias, takes the column means and the column variances of the result, and
  lays the bias, the scale, the shift, the means and the variances out as [1,128] rows. These are the reference's own
  operations on the same values, except that a vector becomes a row by a reshape where the reference broadcasts it;
  the two rows are the same function.
-/
import proofs.«149855_j47364899340880_1_alg».proof.Proof.Gen.KernelIdeal.Frame
import proofs.«149855_j47364899340880_1_alg».proof.Proof.RefRead
import proofs.«149855_j47364899340880_1_alg».proof.Proof.LibRows

set_option maxRecDepth 16384

noncomputable section

namespace Cert.KernelIdeal.Host5

open Cert.KernelIdeal Cert.KernelIdeal.Gen
open Idealize.ShloMosaic Idealize.ShloMosaic.TcCoe Idealize.ShloMosaic.StableHlo Idealize.SL.Sem

variable (W : Valuation τ sig (Elt Ideal))
variable (x0 : (⟨Cert.ReferenceIdeal.S50000x128, .f32⟩ : BufTy).Contents (Elt Ideal))
  (x1 : (⟨Cert.ReferenceIdeal.S2x1600000, .i32⟩ : BufTy).Contents (Elt Ideal))
  (x2 : (⟨Cert.ReferenceIdeal.S128x128, .f32⟩ : BufTy).Contents (Elt Ideal))
  (x3 : (⟨Cert.ReferenceIdeal.S128, .f32⟩ : BufTy).Contents (Elt Ideal))
  (x4 : (⟨Cert.ReferenceIdeal.S128x128, .f32⟩ : BufTy).Contents (Elt Ideal))
  (x5 : (⟨Cert.ReferenceIdeal.S128, .f32⟩ : BufTy).Contents (Elt Ideal))
  (x6 : (⟨Cert.ReferenceIdeal.S128x128, .f32⟩ : BufTy).Contents (Elt Ideal))
  (x7 : (⟨Cert.ReferenceIdeal.S128, .f32⟩ : BufTy).Contents (Elt Ideal))
  (x8 : (⟨Cert.ReferenceIdeal.S128, .f32⟩ : BufTy).Contents (Elt Ideal))
  (x9 : (⟨Cert.ReferenceIdeal.S128, .f32⟩ : BufTy).Contents (Elt Ideal))
  (x10 : (⟨Cert.ReferenceIdeal.S128, .f32⟩ : BufTy).Contents (Elt Ideal))
  (x11 : (⟨Cert.ReferenceIdeal.S128, .f32⟩ : BufTy).Contents (Elt Ideal))
  (x12 : (⟨Cert.ReferenceIdeal.S128, .f32⟩ : BufTy).Contents (Elt Ideal))
  (x13 : (⟨Cert.ReferenceIdeal.S128, .f32⟩ : BufTy).Contents (Elt Ideal))
  (x14 : (⟨Cert.ReferenceIdeal.S128x40, .f32⟩ : BufTy).Contents (Elt Ideal))
  (x15 : (⟨Cert.ReferenceIdeal.S40, .f32⟩ : BufTy).Contents (Elt Ideal))

/-- A vector of length 128 as a [1,128] row, in the reference's spelling. -/
abbrev row (y : FVec Ideal Cert.ReferenceIdeal.S128 .f32) : FVec Ideal Cert.ReferenceIdeal.S1x128 .f32 :=
  broadcastInDim Cert.ReferenceIdeal.S1x128 ![1] Cert.ReferenceIdeal.Facts₀.bcast_S128_S1x128_1 y

/-- The aggregate. -/
theorem agg (hhw : W (Proc.devRef .tc main_v96) = Cert.ReferenceIdeal.Read.val_main_v118 x0 x1 x2 x3 x4 x5 x6 x8 x9 x10 x11)
    (h3 : W (Proc.devRef .tc main_v3) = Cert.ReferenceIdeal.Read.val_main_v3 x1) (h6 : W (Proc.devRef .tc main_v6) = Cert.ReferenceIdeal.Read.val_main_v6 x1)
    (h31 : W (Proc.devRef .tc main_v31) = Cert.ReferenceIdeal.Read.val_main_v31 x1) :
    StableHlo.after hostOps5 W (Proc.devRef .tc main_v109) = Cert.ReferenceIdeal.Read.val_main_v131 x0 x1 x2 x3 x4 x5 x6 x8 x9 x10 x11 := by
  simp only [hostOps5]
  after_results_simp
  rw [hhw, h3, h6, h31]
  rfl

/-- The column means, as a row. -/
theorem meanRow (hhw : W (Proc.devRef .tc main_v96) = Cert.ReferenceIdeal.Read.val_main_v118 x0 x1 x2 x3 x4 x5 x6 x8 x9 x10 x11)
    (h3 : W (Proc.devRef .tc main_v3) = Cert.ReferenceIdeal.Read.val_main_v3 x1) (h6 : W (Proc.devRef .tc main_v6) = Cert.ReferenceIdeal.Read.val_main_v6 x1)
    (h31 : W (Proc.devRef .tc main_v31) = Cert.ReferenceIdeal.Read.val_main_v31 x1) (hb : W (Proc.devRef .tc main_arg7) = x7) :
    StableHlo.after hostOps5 W (Proc.devRef .tc main_v116) = row (Cert.ReferenceIdeal.Read.val_main_v137 x0 x1 x2 x3 x4 x5 x6 x7 x8 x9 x10 x11) := by
  simp only [hostOps5]
  after_results_simp
  rw [hhw, h3, h6, h31, hb]
  refine (Cert.LibRows.reshape_row_eq_bcast _ _ ![1] rfl Cert.ReferenceIdeal.Facts₀.bcast_S128_S1x128_1).trans ?_
  rfl

/-- The column variances, as a row; the means enter them as a row spread over the rows. -/
theorem varRow (hhw : W (Proc.devRef .tc main_v96) = Cert.ReferenceIdeal.Read.val_main_v118 x0 x1 x2 x3 x4 x5 x6 x8 x9 x10 x11)
    (h3 : W (Proc.devRef .tc main_v3) = Cert.ReferenceIdeal.Read.val_main_v3 x1) (h6 : W (Proc.devRef .tc main_v6) = Cert.ReferenceIdeal.Read.val_main_v6 x1)
    (h31 : W (Proc.devRef .tc main_v31) = Cert.ReferenceIdeal.Read.val_main_v31 x1) (hb : W (Proc.devRef .tc main_arg7) = x7) :
    StableHlo.after hostOps5 W (Proc.devRef .tc main_v123) = row (Cert.ReferenceIdeal.Read.val_main_v144 x0 x1 x2 x3 x4 x5 x6 x7 x8 x9 x10 x11) := by
  simp only [hostOps5]
  after_results_simp
  rw [hhw, h3, h6, h31, hb]
  have meanAsRow : ∀ Y : FVec Ideal Cert.ReferenceIdeal.S128 .f32, shapeCast main_v116.ty.shape Y shapeCasts_S128_S1x128 = row Y :=
    fun Y => Cert.LibRows.reshape_row_eq_bcast _ _ ![1] rfl Cert.ReferenceIdeal.Facts₀.bcast_S128_S1x128_1
  simp only [meanAsRow]
  refine (Cert.LibRows.reshape_row_eq_bcast _ _ ![1] rfl Cert.ReferenceIdeal.Facts₀.bcast_S128_S1x128_1).trans ?_
  rfl

/-- The bias, as a row. -/
theorem biasRow (hb : W (Proc.devRef .tc main_arg7) = x7) : StableHlo.after hostOps5 W (Proc.devRef .tc main_v124) = row x7 := by
  simp only [hostOps5]
  after_results_simp
  rw [hb]
  exact Cert.LibRows.reshape_row_eq_bcast _ _ ![1] rfl Cert.ReferenceIdeal.Facts₀.bcast_S128_S1x128_1

/-- The scale, as a row. -/
theorem scaleRow (hg : W (Proc.devRef .tc main_arg12) = x12) : StableHlo.after hostOps5 W (Proc.devRef .tc main_v125) = row x12 := by
  simp only [hostOps5]
  after_results_simp
  rw [hg]
  exact Cert.LibRows.reshape_row_eq_bcast _ _ ![1] rfl Cert.ReferenceIdeal.Facts₀.bcast_S128_S1x128_1

/-- The shift, as a row. -/
theorem shiftRow (hbe : W (Proc.devRef .tc main_arg13) = x13) : StableHlo.after hostOps5 W (Proc.devRef .tc main_v126) = row x13 := by
  simp only [hostOps5]
  after_results_simp
  rw [hbe]
  exact Cert.LibRows.reshape_row_eq_bcast _ _ ![1] rfl Cert.ReferenceIdeal.Facts₀.bcast_S128_S1x128_1

end Cert.KernelIdeal.Host5

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«149855_j47364899340880_1_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibRowBlock.lean ====
/-
  Row blocks of a matrix, and what the operations of a dense layer do to them.

  `RowBlk r x X` says that the M×N matrix `x` is rows r, r+1, …, r+M-1 of the M'×N matrix `X`. Every operation that
  acts entry by entry takes row blocks to row blocks (`map₁`, `map₂`, `map₃`), and so do the operations of a dense
  layer whose other operand is shared by all rows: the product of a row block with a K×N matrix, accumulated from
  zero, is the same row block of the host's product of the whole matrix (every entry of either is the sum over k of
  row entries times the shared column); a bias row [1,N] spread over the block's rows is the row block of the bias
  spread over all rows; a column block [M,1] spread over N columns is the row block of the whole column spread.
  Over the extended reals where a sum is read; generic in the extents.
-/
import proofs.«149855_j47364899340880_1_alg».proof.Proof.LibMatmulPlain
import proofs.«149855_j47364899340880_1_alg».proof.Proof.LibDotGeneralPlain
import proofs.«149855_j47364899340880_1_alg».proof.Proof.LibHostBroadcast
import proofs.«149855_j47364899340880_1_alg».proof.Proof.LibColumns
import Idealize.ShloMosaic.Lib.ValueLayout

noncomputable section

open scoped BigOperators

namespace Cert.LibRowBlock

open Idealize.ShloMosaic Idealize.ShloMosaic.ValueIdx

variable {α β γ δ : Type} {M M' N K : ℕ}

/-- `x` is rows r … r+M-1 of `X`. -/
def RowBlk (r : ℕ) (x : (⟨2, ![M, N]⟩ : Shape).Idx → α) (X : (⟨2, ![M', N]⟩ : Shape).Idx → α) : Prop :=
  ∀ (p : Fin M) (q : Fin N) (h : r + p.val < M'), x (ix2 p q) = X (ix2 ⟨r + p.val, h⟩ q)

namespace RowBlk

variable {r : ℕ}

/-- The same entry everywhere. -/
theorem const (a : α) : RowBlk (M := M) (M' := M') (N := N) r (fun _ => a) (fun _ => a) := fun _ _ _ => rfl

/-- An operation applied entry by entry. -/
theorem map₁ (f : α → β) {x : (⟨2, ![M, N]⟩ : Shape).Idx → α} {X : (⟨2, ![M', N]⟩ : Shape).Idx → α} (hx : RowBlk r x X) :
    RowBlk r (fun i => f (x i)) (fun i => f (X i)) := fun p q h => congrArg f (hx p q h)

theorem map₂ (f : α → β → γ) {x : (⟨2, ![M, N]⟩ : Shape).Idx → α} {X : (⟨2, ![M', N]⟩ : Shape).Idx → α}
    {y : (⟨2, ![M, N]⟩ : Shape).Idx → β} {Y : (⟨2, ![M', N]⟩ : Shape).Idx → β} (hx : RowBlk r x X) (hy : RowBlk r y Y) :
    RowBlk r (fun i => f (x i) (y i)) (fun i => f (X i) (Y i)) := fun p q h => by
  show f (x (ix2 p q)) (y (ix2 p q)) = f (X _) (Y _)
  rw [hx p q h, hy p q h]

theorem map₃ (f : α → β → γ → δ) {x : (⟨2, ![M, N]⟩ : Shape).Idx → α} {X : (⟨2, ![M', N]⟩ : Shape).Idx → α}
    {y : (⟨2, ![M, N]⟩ : Shape).Idx → β} {Y : (⟨2, ![M', N]⟩ : Shape).Idx → β}
    {z : (⟨2, ![M, N]⟩ : Shape).Idx → γ} {Z : (⟨2, ![M', N]⟩ : Shape).Idx → γ}
    (hx : RowBlk r x X) (hy : RowBlk r y Y) (hz : RowBlk r z Z) :
    RowBlk r (fun i => f (x i) (y i) (z i)) (fun i => f (X i) (Y i) (Z i)) := fun p q h => by
  show f (x (ix2 p q)) (y (ix2 p q)) (z (ix2 p q)) = f (X _) (Y _) (Z _)
  rw [hx p q h, hy p q h, hz p q h]

/-- The product of a row block with a shared matrix, from the zero accumulator, is the row block of the host's
    product of the whole matrix. -/
theorem matmul_dot {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision) (sched : HostSchedule)
    {x : FVec Ideal ⟨2, ![M, K]⟩ φ₁} {X : FVec Ideal ⟨2, ![M', K]⟩ φ₁} (w : FVec Ideal ⟨2, ![K, N]⟩ φ₂) (hx : RowBlk r x X) :
    RowBlk r (FloatOps.matmul D prec x w (constant (F := Ideal) ⟨2, ![M, N]⟩ .f32 0x00000000#32))
      (FloatOps.dotGeneral D' prec' sched X w) := fun p q h => by
  rw [Cert.LibMatmulPlain.matmul_plain_zero_apply D hD, Cert.LibDotGeneralPlain.dotGeneral_plain_apply D' hD']
  exact Finset.sum_congr rfl fun k _ => by rw [hx p k h]

/-- A bias row spread over the rows of a block and over the rows of the whole matrix. -/
theorem rowBias (b : (⟨2, ![1, N]⟩ : Shape).Idx → α) (hb : (⟨2, ![1, N]⟩ : Shape).Broadcasts ⟨2, ![M, N]⟩)
    (dims : Fin (⟨2, ![1, N]⟩ : Shape).rank → Fin (⟨2, ![M', N]⟩ : Shape).rank)
    (hd1 : dims ⟨1, Nat.lt_succ_self 1⟩ = ⟨1, Nat.lt_succ_self 1⟩)
    (hB : (⟨2, ![1, N]⟩ : Shape).BroadcastsInDim ⟨2, ![M', N]⟩ dims) :
    RowBlk r (broadcastTo ⟨2, ![M, N]⟩ b hb) (broadcastInDim ⟨2, ![M', N]⟩ dims hB b) := fun p q h => by
  rw [broadcastTo_1b_ab_apply, Cert.LibHostBroadcast.bcast_1b_ab_apply dims hd1 hB]

/-- A [1,N] row spread over the rows by a host broadcast, both as the block and as the whole. -/
theorem rowSpread (b : (⟨2, ![1, N]⟩ : Shape).Idx → α)
    (dims : Fin (⟨2, ![1, N]⟩ : Shape).rank → Fin (⟨2, ![M, N]⟩ : Shape).rank)
    (hd : dims ⟨1, Nat.lt_succ_self 1⟩ = ⟨1, Nat.lt_succ_self 1⟩)
    (hb : (⟨2, ![1, N]⟩ : Shape).BroadcastsInDim ⟨2, ![M, N]⟩ dims)
    (dims' : Fin (⟨2, ![1, N]⟩ : Shape).rank → Fin (⟨2, ![M', N]⟩ : Shape).rank)
    (hd' : dims' ⟨1, Nat.lt_succ_self 1⟩ = ⟨1, Nat.lt_succ_self 1⟩)
    (hB : (⟨2, ![1, N]⟩ : Shape).BroadcastsInDim ⟨2, ![M', N]⟩ dims') :
    RowBlk r (broadcastInDim ⟨2, ![M, N]⟩ dims hb b) (broadcastInDim ⟨2, ![M', N]⟩ dims' hB b) := fun p q h => by
  rw [Cert.LibHostBroadcast.bcast_1b_ab_apply dims hd hb, Cert.LibHostBroadcast.bcast_1b_ab_apply dims' hd' hB]

/-- A column block spread over N columns is the row block of the whole column spread over N columns. -/
theorem colSpread {x : (⟨2, ![M, 1]⟩ : Shape).Idx → α} {X : (⟨2, ![M', 1]⟩ : Shape).Idx → α} (hx : RowBlk r x X)
    (hb : (⟨2, ![M, 1]⟩ : Shape).Broadcasts ⟨2, ![M, N]⟩)
    (dims : Fin (⟨2, ![M', 1]⟩ : Shape).rank → Fin (⟨2, ![M', N]⟩ : Shape).rank)
    (hd0 : dims ⟨0, Nat.succ_pos 1⟩ = ⟨0, Nat.succ_pos 1⟩)
    (hB : (⟨2, ![M', 1]⟩ : Shape).BroadcastsInDim ⟨2, ![M', N]⟩ dims) :
    RowBlk r (broadcastTo ⟨2, ![M, N]⟩ x hb) (broadcastInDim ⟨2, ![M', N]⟩ dims hB X) := fun p q h => by
  rw [Cert.Columns.broadcastTo_a1_ab_apply, Cert.LibHostBroadcast.bcast_a1_ab_apply dims hd0 hB]
  exact hx p 0 h

/-- Reading a row block at an entry of the block. -/
theorem apply {x : (⟨2, ![M, N]⟩ : Shape).Idx → α} {X : (⟨2, ![M', N]⟩ : Shape).Idx → α} (hx : RowBlk r x X)
    (j : (⟨2, ![M, N]⟩ : Shape).Idx) (i : (⟨2, ![M', N]⟩ : Shape).Idx) (h0 : (i 0).val = r + (j 0).val) (h1 : (i 1).val = (j 1).val) :
    x j = X i := by
  obtain ⟨p, q, rfl⟩ : ∃ (p : Fin M) (q : Fin N), j = ix2 p q := ⟨j 0, j 1, eq_ix2 j⟩
  have h0' : (i 0).val = r + p.val := h0
  have h1' : (i 1).val = q.val := h1
  have hi0 : (i 0).val < M' := (i 0).isLt
  have hlt : r + p.val < M' := by omega
  have hi : i = ix2 ⟨r + p.val, hlt⟩ q := by
    rw [eq_ix2 i]
    congr 1
    · exact Fin.ext h0'
    · exact Fin.ext h1'
  rw [hi]
  exact hx p q _

/-- A matrix read through an index map that shifts the rows by r and keeps the columns is a row block. -/
theorem of_read (X : (⟨2, ![M', N]⟩ : Shape).Idx → α) (e : (⟨2, ![M, N]⟩ : Shape).Idx → (⟨2, ![M', N]⟩ : Shape).Idx)
    (h0 : ∀ j, (e j 0).val = r + (j 0).val) (h1 : ∀ j, (e j 1).val = (j 1).val) :
    RowBlk r (fun j => X (e j)) X := fun p q h => by
  refine congrArg X ?_
  rw [eq_ix2 (e (ix2 p q))]
  congr 1
  · exact Fin.ext (h0 _)
  · exact Fin.ext (h1 _)

end RowBlk

end Cert.LibRowBlock

end
-- ==== Proof.LibSoftplusForms.lean ====
/-
  jnp's softplus, log(1 + exp u) computed as max(u, 0) + log1p(exp(-|u - 0|)) with the case u - 0 ≠ u - 0 guarded, at
  one extended real, in the two spellings the programs use: the host's (an unordered "not equal" test, a negation)
  and the kernel's (the ordered test, a subtraction from zero). On the extended reals an entry never differs from
  itself, so both tests fail and both spellings are the unguarded branch; and 0 - a = -a. Hence one function.
-/
import Idealize.ShloMosaic.PureOps.Ideal.Laws

noncomputable section

namespace Cert.LibSoftplusForms

open Idealize.ShloMosaic

/-- The host's spelling at one entry. -/
def spHost (u : Ideal .f32) : Ideal .f32 :=
  Scalar.select
    (FloatOps.cmpf .une (FloatOps.subf u (FloatOps.ofBits .f32 0x00000000#32)) (FloatOps.subf u (FloatOps.ofBits .f32 0x00000000#32)))
    (FloatOps.addf u (FloatOps.ofBits .f32 0x00000000#32))
    (FloatOps.addf (FloatOps.maximumf u (FloatOps.ofBits .f32 0x00000000#32))
      (FloatOps.hostUnary .log1p (FloatOps.hostUnary .exp (FloatOps.hostNegf (FloatOps.hostAbsf
        (FloatOps.subf u (FloatOps.ofBits .f32 0x00000000#32)))))))

/-- The kernel's spelling at one entry. -/
def spKernel (u : Ideal .f32) : Ideal .f32 :=
  Scalar.select
    (FloatOps.cmpf .one (FloatOps.subf u (Scalar.ofBits .f32 0x00000000#32)) (FloatOps.subf u (Scalar.ofBits .f32 0x00000000#32)))
    (FloatOps.addf u (Scalar.ofBits .f32 0x00000000#32))
    (FloatOps.addf (FloatOps.maximumf u (Scalar.ofBits .f32 0x00000000#32))
      (FloatOps.log1p (FloatOps.exp (FloatOps.subf (Scalar.ofBits .f32 0x00000000#32)
        (FloatOps.absf (FloatOps.subf u (Scalar.ofBits .f32 0x00000000#32)))))))

/-- The two spellings are one function of the entry. -/
theorem spKernel_eq (u : Ideal .f32) : spKernel u = spHost u := by
  unfold spKernel spHost
  have e : ∀ a : EReal, (Ideal.ofBits .f32 0x00000000#32 : EReal) - a = -a := fun a => by
    rw [Ideal.ofBits_zero_f32, zero_sub]
  show Scalar.select _ _ (_ + Ideal.log1p (Ideal.exp (Ideal.ofBits .f32 0x00000000#32 - _)))
    = Scalar.select _ _ (_ + Ideal.log1p (Ideal.exp (- _)))
  rw [e]
  rfl

end Cert.LibSoftplusForms

end
-- ==== Proof.LibRowBlockOps.lean ====
/-
  Row blocks through the operations the dense stages are spelled with, one lemma per operation so that a stage is read
  from its outermost operation inwards: sums, differences and products entry by entry; the exponential (the kernel's and
  the host's are one function on the extended reals); a scalar constant spread over a block and over the whole matrix;
  a dense layer (a product with a shared matrix from the zero accumulator plus a shared bias row); and jnp's softplus in
  the kernel's and in the host's spelling, which are one function of an entry.
-/
import proofs.«149855_j47364899340880_1_alg».proof.Proof.LibRowBlock
import proofs.«149855_j47364899340880_1_alg».proof.Proof.LibSoftplusForms

noncomputable section

namespace Cert.LibRowBlock

open Idealize.ShloMosaic Idealize.ShloMosaic.ValueIdx Cert.LibSoftplusForms

variable {M M' N K : ℕ} {r : ℕ}

/-- jnp's softplus on an array, in the kernel's spelling. -/
def kSoftplus {S : Shape} (v : FVec Ideal S .f32) : FVec Ideal S .f32 :=
  select (cmpf .one (subf v (broadcast S (Scalar.ofBits .f32 0x00000000#32))) (subf v (broadcast S (Scalar.ofBits .f32 0x00000000#32))))
    (addf v (broadcast S (Scalar.ofBits .f32 0x00000000#32)))
    (addf (maximumf v (broadcast S (Scalar.ofBits .f32 0x00000000#32)))
      (log1p (exp (subf (broadcast S (Scalar.ofBits .f32 0x00000000#32))
        (absf (subf v (broadcast S (Scalar.ofBits .f32 0x00000000#32))))))))

/-- jnp's softplus on an array, in the host's spelling. -/
def hSoftplus {S : Shape} (dims : Fin (⟨0, ![]⟩ : Shape).rank → Fin S.rank) (h : (⟨0, ![]⟩ : Shape).BroadcastsInDim S dims)
    (X : FVec Ideal S .f32) : FVec Ideal S .f32 :=
  select (cmpf .une (subf X (broadcastInDim S dims h (constant ⟨0, ![]⟩ .f32 0x00000000#32)))
      (subf X (broadcastInDim S dims h (constant ⟨0, ![]⟩ .f32 0x00000000#32))))
    (addf X (broadcastInDim S dims h (constant ⟨0, ![]⟩ .f32 0x00000000#32)))
    (addf (maximumf X (broadcastInDim S dims h (constant ⟨0, ![]⟩ .f32 0x00000000#32)))
      (Host.log1p (Host.exp (Host.negf (Host.absf
        (subf X (broadcastInDim S dims h (constant ⟨0, ![]⟩ .f32 0x00000000#32))))))))

theorem kSoftplus_eq {S : Shape} (v : FVec Ideal S .f32) : kSoftplus v = fun i => spHost (v i) :=
  funext fun i => spKernel_eq (v i)

theorem hSoftplus_eq {S : Shape} (dims : Fin (⟨0, ![]⟩ : Shape).rank → Fin S.rank) (h : (⟨0, ![]⟩ : Shape).BroadcastsInDim S dims)
    (X : FVec Ideal S .f32) : hSoftplus dims h X = fun i => spHost (X i) := rfl

namespace RowBlk

theorem addf {φ : FTy} {x y : FVec Ideal ⟨2, ![M, N]⟩ φ} {X Y : FVec Ideal ⟨2, ![M', N]⟩ φ} (hx : RowBlk r x X) (hy : RowBlk r y Y) :
    RowBlk r (Idealize.ShloMosaic.addf x y) (Idealize.ShloMosaic.addf X Y) := RowBlk.map₂ FloatOps.addf hx hy

theorem subf {φ : FTy} {x y : FVec Ideal ⟨2, ![M, N]⟩ φ} {X Y : FVec Ideal ⟨2, ![M', N]⟩ φ} (hx : RowBlk r x X) (hy : RowBlk r y Y) :
    RowBlk r (Idealize.ShloMosaic.subf x y) (Idealize.ShloMosaic.subf X Y) := RowBlk.map₂ FloatOps.subf hx hy

theorem mulf {φ : FTy} {x y : FVec Ideal ⟨2, ![M, N]⟩ φ} {X Y : FVec Ideal ⟨2, ![M', N]⟩ φ} (hx : RowBlk r x X) (hy : RowBlk r y Y) :
    RowBlk r (Idealize.ShloMosaic.mulf x y) (Idealize.ShloMosaic.mulf X Y) := RowBlk.map₂ FloatOps.mulf hx hy

/-- The kernel's exponential of a block and the host's of the whole matrix. -/
theorem exp_hostExp {φ : FTy} {x : FVec Ideal ⟨2, ![M, N]⟩ φ} {X : FVec Ideal ⟨2, ![M', N]⟩ φ} (hx : RowBlk r x X) :
    RowBlk r (Idealize.ShloMosaic.exp x) (Host.exp X) := RowBlk.map₁ Ideal.exp hx

/-- A scalar constant spread over a block by the kernel and over the whole matrix by the host. -/
theorem splat {φ : FTy} (b : BitVec φ.bits) (dims : Fin (⟨0, ![]⟩ : Shape).rank → Fin (⟨2, ![M', N]⟩ : Shape).rank)
    (h : (⟨0, ![]⟩ : Shape).BroadcastsInDim ⟨2, ![M', N]⟩ dims) :
    RowBlk r (broadcast ⟨2, ![M, N]⟩ (Scalar.ofBits (F := Ideal) φ b))
      (broadcastInDim ⟨2, ![M', N]⟩ dims h (constant (F := Ideal) ⟨0, ![]⟩ φ b)) := RowBlk.const (Ideal.ofBits φ b)

/-- A dense layer: the product with a shared matrix from the zero accumulator, plus a shared bias row. -/
theorem dense {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision)
    {x : FVec Ideal ⟨2, ![M, K]⟩ φ₁} {X : FVec Ideal ⟨2, ![M', K]⟩ φ₁} (w : FVec Ideal ⟨2, ![K, N]⟩ φ₂)
    (b : FVec Ideal ⟨2, ![1, N]⟩ .f32) (hb : (⟨2, ![1, N]⟩ : Shape).Broadcasts ⟨2, ![M, N]⟩)
    (dims : Fin (⟨2, ![1, N]⟩ : Shape).rank → Fin (⟨2, ![M', N]⟩ : Shape).rank)
    (hd1 : dims ⟨1, Nat.lt_succ_self 1⟩ = ⟨1, Nat.lt_succ_self 1⟩)
    (hB : (⟨2, ![1, N]⟩ : Shape).BroadcastsInDim ⟨2, ![M', N]⟩ dims) (hx : RowBlk r x X) :
    RowBlk r (Idealize.ShloMosaic.addf (matmul D prec x w (constant (F := Ideal) ⟨2, ![M, N]⟩ .f32 0x00000000#32)) (broadcastTo ⟨2, ![M, N]⟩ b hb))
      (Idealize.ShloMosaic.addf (Host.dotGeneral D' prec' X w) (broadcastInDim ⟨2, ![M', N]⟩ dims hB b)) :=
  RowBlk.addf (RowBlk.matmul_dot D hD D' hD' prec prec' .single w hx) (RowBlk.rowBias b hb dims hd1 hB)

/-- A product with a shared matrix from the zero accumulator, with no bias. -/
theorem product {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision)
    {x : FVec Ideal ⟨2, ![M, K]⟩ φ₁} {X : FVec Ideal ⟨2, ![M', K]⟩ φ₁} (w : FVec Ideal ⟨2, ![K, N]⟩ φ₂) (hx : RowBlk r x X) :
    RowBlk r (matmul D prec x w (constant (F := Ideal) ⟨2, ![M, N]⟩ .f32 0x00000000#32)) (Host.dotGeneral D' prec' X w) :=
  RowBlk.matmul_dot D hD D' hD' prec prec' .single w hx

/-- jnp's softplus, the kernel's spelling on a block and the host's on the whole matrix. -/
theorem softplus {x : FVec Ideal ⟨2, ![M, N]⟩ .f32} {X : FVec Ideal ⟨2, ![M', N]⟩ .f32}
    (dims : Fin (⟨0, ![]⟩ : Shape).rank → Fin (⟨2, ![M', N]⟩ : Shape).rank)
    (h : (⟨0, ![]⟩ : Shape).BroadcastsInDim ⟨2, ![M', N]⟩ dims) (hx : RowBlk r x X) :
    RowBlk r (kSoftplus x) (hSoftplus dims h X) := by
  rw [kSoftplus_eq, hSoftplus_eq]
  exact RowBlk.map₁ spHost hx

end RowBlk

end Cert.LibRowBlock

end
-- ==== Proof.Stage0.lean ====
/-
  Stage 0 of the idealized kernel: a matrix product computed five row tiles at a time.

  At grid point t the stage reads rows 10000·t … 10000·t + 9999 of its left operand and the whole 128×128 right
  operand, multiplies them from a zero accumulator and writes the product to the same rows of its output. A row tile
  of a product with a shared right operand is that row tile of the whole product, and the five tiles cover the 50000
  rows, so after the stage the output array is the host's product of the two arrays as the stage found them.
-/
import proofs.«149855_j47364899340880_1_alg».proof.Proof.Gen.KernelIdeal.Frame
import proofs.«149855_j47364899340880_1_alg».proof.Proof.Gen.ReferenceIdeal
import proofs.«149855_j47364899340880_1_alg».proof.Proof.LibRowBlockOps
import Idealize.ShloMosaic.Lib.Pipeline.Value

set_option maxRecDepth 16384

noncomputable section

namespace Cert.KernelIdeal.Stage0

open Cert.KernelIdeal Cert.KernelIdeal.Gen Cert.LibRowBlock
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The whole product: the host's `dot_general` of a 50000×128 and a 128×128 array. -/
abbrev product (X : (⟨2, ![50000, 128]⟩ : Shape).Idx → EReal) (w : (⟨2, ![128, 128]⟩ : Shape).Idx → EReal) :
    (⟨2, ![50000, 128]⟩ : Shape).Idx → EReal :=
  Host.dotGeneral (F := Ideal) (φ₁ := .f32) (φ₂ := .f32) Cert.ReferenceIdeal.dot_S50000x128_S128x128_S50000x128_1_0_0_1_n_n none X w

/-- The body's value on a row tile is the row tile of the whole product (a change of float format is the identity
    on the extended reals). -/
theorem tile_product (r : ℕ) (x : Vec Ideal S10000x128 .f32) (w : Vec Ideal S128x128 .f32)
    (X : (⟨2, ![50000, 128]⟩ : Shape).Idx → EReal) (hx : RowBlk r (M := 10000) (M' := 50000) (N := 128) x X) :
    RowBlk r (M := 10000) (M' := 50000) (N := 128) (k0_pay1 (F := Ideal) x w) (product X w) :=
  RowBlk.product (M := 10000) (M' := 50000) (N := 128) (K := 128) (φ₁ := .bf16) (φ₂ := .bf16)
    dot_S10000x128_S128x128_S10000x128_1_0_0_1_n_n rfl Cert.ReferenceIdeal.dot_S50000x128_S128x128_S50000x128_1_0_0_1_n_n rfl none none (truncf .bf16 w bitsLt_bf16_f32)
    (x := truncf .bf16 x bitsLt_bf16_f32) hx

/-- Where the windows sit at each grid point: the row-tiled windows at tile t, the weights at the origin. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The weights' block is the whole array. -/
theorem weights_block (c : Dev nD) (t : Fin cfg0.N) :
    iblk0 V c 1 t = V c (Pipeline.arrRef spec0 1) := by
  obtain ⟨-, -, e0, e1, -, -⟩ := index_facts t
  funext j
  show V c (Pipeline.arrRef spec0 1) (((cfg0.win 1).blk t).view.emb j) = V c (Pipeline.arrRef spec0 1) j
  refine congrArg _ (funext fun a => Fin.ext ?_)
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- The activations' block at tile t is rows 10000·t … of the array. -/
theorem rows_block (c : Dev nD) (t : Fin cfg0.N) :
    RowBlk (10000 * t.val) (M := 10000) (M' := 50000) (N := 128) (iblk0 V c 0 t) (V c (Pipeline.arrRef spec0 0)) := by
  obtain ⟨e0, e1, -, -, -, -⟩ := index_facts t
  refine RowBlk.of_read (M := 10000) (M' := 50000) (N := 128) (V c (Pipeline.arrRef spec0 0)) (fun j => ((cfg0.win 0).blk t).view.emb j) (fun j => ?_) (fun j => ?_)
  · show win0_0.index t (0 : Fin 2) * 10000 + 1 * (j 0).val = 10000 * t.val + (j 0).val; omega
  · show win0_0.index t (1 : Fin 2) * 128 + 1 * (j 1).val = (j 1).val; omega

/-- What tile t writes back is tile t of the whole product. -/
theorem flushed_eq (c : Dev nD) (t : Fin cfg0.N) :
    (dat0 V c).flushed 2 t = ((cfg0.win 2).blk t).view.read (Elt Ideal)
      (product (V c (Pipeline.arrRef spec0 0)) (V c (Pipeline.arrRef spec0 1))) := by
  show (cfg0.win 2).cut (grid0.coords t) ((dat0 V c).after 2 t) = _
  rw [after0_2]
  unfold out0_2
  rw [View.canon_unit_zero origin_zero]
  simp only [View.ld_unit_zero (S := S10000x128) origin_zero, View.ld_unit_zero (S := S128x128) origin_zero]
  rw [weights_block V c t]
  obtain ⟨-, -, -, -, e0, e1⟩ := index_facts t
  funext j
  refine (tile_product (10000 * t.val) (iblk0 V c 0 t) (V c (Pipeline.arrRef spec0 1)) (V c (Pipeline.arrRef spec0 0)) (rows_block V c t)).apply j (((cfg0.win 2).blk t).view.emb j) ?_ ?_
  · show win0_2.index t (0 : Fin 2) * 10000 + 1 * (j 0).val = 10000 * t.val + (j 0).val; omega
  · show win0_2.index t (1 : Fin 2) * 128 + 1 * (j 1).val = (j 1).val; omega

/-- An index of the output is in tile t's block iff its row is among the tile's rows. -/
theorem mem_block (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Every tile index is some grid point's. -/
theorem tile_onto : ∀ q : Fin 5, ∃ t : Fin cfg0.N, t.val = q.val :=
  (by decide +kernel : ∀ q : Fin 5, ∃ t : Fin grid0.N, t.val = q.val)

/-- The five tiles cover the output. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := tile_onto ⟨(i 0).val / 10000, by omega⟩
  have ht' : t.val = (i 0).val / 10000 := ht
  obtain ⟨-, -, -, -, e0, e1⟩ := index_facts t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE STAGE'S OUTPUT: after the stage the output array is the whole product of the two input arrays. -/
theorem output (c : Dev nD) :
    (dat0 V c).arrAt 2 cfg0.N = product (V c (Pipeline.arrRef spec0 0)) (V c (Pipeline.arrRef spec0 1)) :=
  (dat0 V c).arrAt_eq_of_cover 2 _ (fun t _ => flushed_eq V c t) cover

end Cert.KernelIdeal.Stage0

end
-- ==== Proof.LibRowLanes.lean ====
/-
  Lane reductions of row blocks.

  A reduction along the lanes (the columns) of a matrix looks at one row at a time, so it takes a row block to the
  same rows of the reduction of the whole matrix. Two reductions are read here, each kept as a column: the maximum
  of a row, which a kernel takes as a fold of max from minus infinity and the host as a fold from minus infinity
  followed by one more max with minus infinity (a maximum is at least where its fold starts, so the extra max
  changes nothing); and the sum of a row, which the host takes from an initial value of zero. The logarithm of a
  column is entry by entry. Over the extended reals; generic in the extents.
-/
import proofs.«149855_j47364899340880_1_alg».proof.Proof.LibRowBlock
import Idealize.ShloMosaic.PureOps.Ideal.Laws

noncomputable section

open scoped BigOperators

namespace Cert.LibRowBlock

open Idealize.ShloMosaic Idealize.ShloMosaic.ValueIdx

variable {M M' N : ℕ} {r : ℕ}

/-- The index of the matrix over row p whose lane coordinate is k. -/
theorem lift_lane (h : (⟨2, ![M, N]⟩ : Shape).Reduces [(1 : Fin 2)] ⟨1, ![M]⟩) (p : Fin M) (k : Fin N) :
    h.lift (ix1 p) k = ix2 p k := by
  funext c
  apply Fin.ext
  match c with
  | ⟨0, _⟩ => rfl
  | ⟨1, _⟩ => rfl

/-- A fold of max is at least its starting value, so one more max with that value changes nothing. -/
theorem max_fold_max {ι : Type} (s : Finset ι) (a : EReal) (f : ι → EReal) : max a (s.fold max a f) = s.fold max a f :=
  max_eq_right ((Finset.le_fold_max a).mpr (Or.inl le_rfl))

namespace RowBlk

/-- The maximum of each row, kept as a column. -/
theorem laneMax {φ : FTy} (acc : BitVec φ.bits)
    (hred : (⟨2, ![M, N]⟩ : Shape).Reduces [(1 : Fin 2)] ⟨1, ![M]⟩) (hφ : FKind.Formats φ)
    (hacc : acc = FKind.maximumf.neutral φ hφ) (hc : (⟨1, ![M]⟩ : Shape).ShapeCasts ⟨2, ![M, 1]⟩)
    (hredT : (⟨2, ![M', N]⟩ : Shape).ReducesTo [(1 : Fin 2)] ⟨1, ![M']⟩)
    (hred' : (⟨2, ![M', N]⟩ : Shape).Reduces [(1 : Fin 2)] ⟨1, ![M']⟩)
    (hu : 0 < (⟨0, ![]⟩ : Shape).numel)
    (d0 : Fin (⟨0, ![]⟩ : Shape).rank → Fin (⟨1, ![M']⟩ : Shape).rank) (h0 : (⟨0, ![]⟩ : Shape).BroadcastsInDim ⟨1, ![M']⟩ d0)
    (dims : Fin (⟨1, ![M']⟩ : Shape).rank → Fin (⟨2, ![M', 1]⟩ : Shape).rank) (hd : dims ⟨0, Nat.one_pos⟩ = ⟨0, Nat.succ_pos 1⟩)
    (hB : (⟨1, ![M']⟩ : Shape).BroadcastsInDim ⟨2, ![M', 1]⟩ dims)
    {x : FVec Ideal ⟨2, ![M, N]⟩ φ} {X : FVec Ideal ⟨2, ![M', N]⟩ φ} (hx : RowBlk r x X) :
    RowBlk r (shapeCast ⟨2, ![M, 1]⟩ (multiReduction .maximumf [1] ⟨1, ![M]⟩ x acc hred hφ hacc) hc)
      (broadcastInDim ⟨2, ![M', 1]⟩ dims hB
        (maximumf (broadcastInDim ⟨1, ![M']⟩ d0 h0 (constant (F := Ideal) ⟨0, ![]⟩ φ acc))
          (Host.reduce FloatOps.maximumf X (constant (F := Ideal) ⟨0, ![]⟩ φ acc) hredT hu))) := fun p q h => by
  rw [Cert.Columns.shapeCast_a_a1_apply, Cert.LibHostBroadcast.bcast_a_a1_apply dims hd hB]
  show multiReduction .maximumf [1] ⟨1, ![M]⟩ x acc hred hφ hacc (ix1 p)
    = max (Ideal.ofBits φ acc) (Host.reduce FloatOps.maximumf X (constant (F := Ideal) ⟨0, ![]⟩ φ acc) hredT hu (ix1 ⟨r + p.val, h⟩))
  rw [Ideal.multiReduction_maximumf_single, Host.reduce_eq_fold_single FloatOps.maximumf X _ hredT hred' hu]
  have e : (x ∘ hred.lift (ix1 p)) = (X ∘ hred'.lift (ix1 ⟨r + p.val, h⟩)) := funext fun k => by
    show x (hred.lift (ix1 p) k) = X (hred'.lift (ix1 ⟨r + p.val, h⟩) k)
    rw [lift_lane hred p k, lift_lane hred' ⟨r + p.val, h⟩ k]
    exact hx p k h
  rw [e]
  exact (max_fold_max _ _ _).symm

/-- The sum of each row, kept as a column; the host's sum starts from zero. -/
theorem laneSum (hred : (⟨2, ![M, N]⟩ : Shape).Reduces [(1 : Fin 2)] ⟨1, ![M]⟩) (hφ : FKind.Formats .f32)
    (hacc : (0x00000000#32 : BitVec 32) = FKind.add.neutral .f32 hφ) (hc : (⟨1, ![M]⟩ : Shape).ShapeCasts ⟨2, ![M, 1]⟩)
    (hredT : (⟨2, ![M', N]⟩ : Shape).ReducesTo [(1 : Fin 2)] ⟨1, ![M']⟩)
    (hred' : (⟨2, ![M', N]⟩ : Shape).Reduces [(1 : Fin 2)] ⟨1, ![M']⟩)
    (hu : 0 < (⟨0, ![]⟩ : Shape).numel)
    (dims : Fin (⟨1, ![M']⟩ : Shape).rank → Fin (⟨2, ![M', 1]⟩ : Shape).rank) (hd : dims ⟨0, Nat.one_pos⟩ = ⟨0, Nat.succ_pos 1⟩)
    (hB : (⟨1, ![M']⟩ : Shape).BroadcastsInDim ⟨2, ![M', 1]⟩ dims)
    {x : FVec Ideal ⟨2, ![M, N]⟩ .f32} {X : FVec Ideal ⟨2, ![M', N]⟩ .f32} (hx : RowBlk r x X) :
    RowBlk r (shapeCast ⟨2, ![M, 1]⟩ (multiReduction .add [1] ⟨1, ![M]⟩ x 0x00000000#32 hred hφ hacc) hc)
      (broadcastInDim ⟨2, ![M', 1]⟩ dims hB
        (Host.reduceAdd X (constant (F := Ideal) ⟨0, ![]⟩ .f32 0x00000000#32) hredT hu)) := fun p q h => by
  rw [Cert.Columns.shapeCast_a_a1_apply, Cert.LibHostBroadcast.bcast_a_a1_apply dims hd hB]
  rw [Ideal.multiReduction_add_single]
  simp only [Host.reduceAdd, Ideal.hostReduceAdd_def]
  rw [Ideal.hostReduceAdd_single hredT hred']
  show _ = Ideal.ofBits .f32 0x00000000#32 + _
  rw [Ideal.ofBits_zero_f32, zero_add]
  refine Finset.sum_congr rfl fun k _ => ?_
  rw [lift_lane hred p k, lift_lane hred' ⟨r + p.val, h⟩ k]
  exact hx p k h

/-- The logarithm of a column, the kernel's and the host's, entry by entry. -/
theorem log_hostLog {φ : FTy} {x : FVec Ideal ⟨2, ![M, N]⟩ φ} {X : FVec Ideal ⟨2, ![M', N]⟩ φ} (hx : RowBlk r x X) :
    RowBlk r (Idealize.ShloMosaic.log x) (Host.log X) := RowBlk.map₁ Ideal.log hx

/-- The larger of two entries, entry by entry. -/
theorem maximumf {φ : FTy} {x y : FVec Ideal ⟨2, ![M, N]⟩ φ} {X Y : FVec Ideal ⟨2, ![M', N]⟩ φ} (hx : RowBlk r x X) (hy : RowBlk r y Y) :
    RowBlk r (Idealize.ShloMosaic.maximumf x y) (Idealize.ShloMosaic.maximumf X Y) := RowBlk.map₂ FloatOps.maximumf hx hy

end RowBlk

end Cert.LibRowBlock

end
-- ==== Proof.Stage1.lean ====
/-
  Stage 1 of the idealized kernel: bias, batch normalization and ReLU, five row tiles at a time.

  At grid point t the stage reads rows 10000·t … 10000·t + 9999 of the aggregated array and five whole [1,128] rows
  (the bias, the scale, the shift, the column means and the column variances). With s = 1/sqrt(variance + ε) taken on the
  row, it writes  max(scale · ((a + bias) − mean) · s + shift, 0)  to the same rows of its output. Every operation acts
  entry by entry and every row is spread over the tile's rows, so a row tile of the result is that row tile of the same
  formula on the whole array; the five tiles cover the 50000 rows.
-/
import proofs.«149855_j47364899340880_1_alg».proof.Proof.Gen.KernelIdeal.Frame
import proofs.«149855_j47364899340880_1_alg».proof.Proof.Gen.ReferenceIdeal
import proofs.«149855_j47364899340880_1_alg».proof.Proof.LibRowBlockOps
import proofs.«149855_j47364899340880_1_alg».proof.Proof.LibRowLanes
import Idealize.ShloMosaic.Lib.Pipeline.Value

set_option maxRecDepth 16384

noncomputable section

namespace Cert.KernelIdeal.Stage1

open Cert.KernelIdeal Cert.KernelIdeal.Gen Cert.LibRowBlock
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- A [1,128] row spread over the 50000 rows. -/
abbrev spread (row : FVec Ideal Cert.ReferenceIdeal.S1x128 .f32) : FVec Ideal Cert.ReferenceIdeal.S50000x128 .f32 :=
  broadcastInDim Cert.ReferenceIdeal.S50000x128 ![0, 1] Cert.ReferenceIdeal.Facts₀.bcast_S1x128_S50000x128_0_1 row

/-- 1/sqrt(variance + ε), taken on the row. -/
def invStd (var : FVec Ideal S1x128 .f32) : FVec Ideal S1x128 .f32 :=
  rsqrt (addf var (broadcast S1x128 (Scalar.ofBits (F := Ideal) .f32 0x3727C5AC#32)))

/-- The whole array's batch normalization and ReLU, from the five rows. -/
def whole (A : FVec Ideal Cert.ReferenceIdeal.S50000x128 .f32) (b g be mean s : FVec Ideal Cert.ReferenceIdeal.S1x128 .f32) : FVec Ideal Cert.ReferenceIdeal.S50000x128 .f32 :=
  maximumf (addf (mulf (mulf (spread g) (subf (addf A (spread b)) (spread mean))) (spread s)) (spread be))
    (broadcastInDim Cert.ReferenceIdeal.S50000x128 ![] Cert.ReferenceIdeal.Facts₀.bcast_S_S50000x128 (constant (F := Ideal) Cert.ReferenceIdeal.S_ .f32 0x00000000#32))

/-- The body's value on a row tile is the row tile of the whole array's formula. -/
theorem tile_whole (r : ℕ) (x : Vec Ideal S10000x128 .f32) (b var g mean be : Vec Ideal S1x128 .f32)
    (A : FVec Ideal Cert.ReferenceIdeal.S50000x128 .f32) (hx : RowBlk r (M := 10000) (M' := 50000) (N := 128) x A) :
    RowBlk r (M := 10000) (M' := 50000) (N := 128) (k1_pay1 (F := Ideal) x b var g mean be) (whole A b g be mean (invStd var)) := by
  unfold k1_pay1 whole invStd
  simp only [shapeCast_self]
  exact RowBlk.maximumf
    (RowBlk.addf
      (RowBlk.mulf
        (RowBlk.mulf (RowBlk.rowBias (M := 10000) (M' := 50000) (N := 128) g _ _ rfl _)
          (RowBlk.subf (RowBlk.addf hx (RowBlk.rowBias (M := 10000) (M' := 50000) (N := 128) b _ _ rfl _))
            (RowBlk.rowBias (M := 10000) (M' := 50000) (N := 128) mean _ _ rfl _)))
        (RowBlk.rowBias (M := 10000) (M' := 50000) (N := 128) _ _ _ rfl _))
      (RowBlk.rowBias (M := 10000) (M' := 50000) (N := 128) be _ _ rfl _))
    (RowBlk.splat (M := 10000) (M' := 50000) (N := 128) _ _ _)

/-- The same, with the five rows given up to equality (the rows a grid point reads are the whole row arrays). -/
theorem tile_whole_of (r : ℕ) (x : Vec Ideal S10000x128 .f32) (b var g mean be : Vec Ideal S1x128 .f32)
    (A : FVec Ideal Cert.ReferenceIdeal.S50000x128 .f32) (B G BE MEAN VAR : FVec Ideal Cert.ReferenceIdeal.S1x128 .f32)
    (hx : RowBlk r (M := 10000) (M' := 50000) (N := 128) x A)
    (hb : b = B) (hg : g = G) (hbe : be = BE) (hmean : mean = MEAN) (hvar : var = VAR) :
    RowBlk r (M := 10000) (M' := 50000) (N := 128) (k1_pay1 (F := Ideal) x b var g mean be) (whole A B G BE MEAN (invStd VAR)) := by
  subst hb hg hbe hmean hvar
  exact tile_whole r x b var g mean be A hx

/-- Where the windows sit at each grid point: the row-tiled windows at tile t, the five rows at the origin. -/
theorem index_facts : ∀ t : Fin cfg1.N, win1_0.index t (0 : Fin 2) = t.val ∧ win1_0.index t (1 : Fin 2) = 0
    ∧ win1_6.index t (0 : Fin 2) = t.val ∧ win1_6.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem row_block_1 (c : Dev nD) (t : Fin cfg1.N) : iblk1 V c 1 t = V c (Pipeline.arrRef spec1 1) := by
  have e := index_facts t
  funext j
  show V c (Pipeline.arrRef spec1 1) (((cfg1.win 1).blk t).view.emb j) = V c (Pipeline.arrRef spec1 1) j
  refine congrArg _ (funext fun a => Fin.ext ?_)
  match a with
  | ⟨0, _⟩ => show win1_1.index t (0 : Fin 2) * 1 + 1 * (j 0).val = (j 0).val; omega
  | ⟨1, _⟩ => show win1_1.index t (1 : Fin 2) * 128 + 1 * (j 1).val = (j 1).val; omega

theorem row_block_2 (c : Dev nD) (t : Fin cfg1.N) : iblk1 V c 2 t = V c (Pipeline.arrRef spec1 2) := by
  have e := index_facts t
  funext j
  show V c (Pipeline.arrRef spec1 2) (((cfg1.win 2).blk t).view.emb j) = V c (Pipeline.arrRef spec1 2) j
  refine congrArg _ (funext fun a => Fin.ext ?_)
  match a with
  | ⟨0, _⟩ => show win1_2.index t (0 : Fin 2) * 1 + 1 * (j 0).val = (j 0).val; omega
  | ⟨1, _⟩ => show win1_2.index t (1 : Fin 2) * 128 + 1 * (j 1).val = (j 1).val; omega

theorem row_block_3 (c : Dev nD) (t : Fin cfg1.N) : iblk1 V c 3 t = V c (Pipeline.arrRef spec1 3) := by
  have e := index_facts t
  funext j
  show V c (Pipeline.arrRef spec1 3) (((cfg1.win 3).blk t).view.emb j) = V c (Pipeline.arrRef spec1 3) j
  refine congrArg _ (funext fun a => Fin.ext ?_)
  match a with
  | ⟨0, _⟩ => show win1_3.index t (0 : Fin 2) * 1 + 1 * (j 0).val = (j 0).val; omega
  | ⟨1, _⟩ => show win1_3.index t (1 : Fin 2) * 128 + 1 * (j 1).val = (j 1).val; omega

theorem row_block_4 (c : Dev nD) (t : Fin cfg1.N) : iblk1 V c 4 t = V c (Pipeline.arrRef spec1 4) := by
  have e := index_facts t
  funext j
  show V c (Pipeline.arrRef spec1 4) (((cfg1.win 4).blk t).view.emb j) = V c (Pipeline.arrRef spec1 4) j
  refine congrArg _ (funext fun a => Fin.ext ?_)
  match a with
  | ⟨0, _⟩ => show win1_4.index t (0 : Fin 2) * 1 + 1 * (j 0).val = (j 0).val; omega
  | ⟨1, _⟩ => show win1_4.index t (1 : Fin 2) * 128 + 1 * (j 1).val = (j 1).val; omega

theorem row_block_5 (c : Dev nD) (t : Fin cfg1.N) : iblk1 V c 5 t = V c (Pipeline.arrRef spec1 5) := by
  have e := index_facts t
  funext j
  show V c (Pipeline.arrRef spec1 5) (((cfg1.win 5).blk t).view.emb j) = V c (Pipeline.arrRef spec1 5) j
  refine congrArg _ (funext fun a => Fin.ext ?_)
  match a with
  | ⟨0, _⟩ => show win1_5.index t (0 : Fin 2) * 1 + 1 * (j 0).val = (j 0).val; omega
  | ⟨1, _⟩ => show win1_5.index t (1 : Fin 2) * 128 + 1 * (j 1).val = (j 1).val; omega

/-- The aggregated array's block at tile t is rows 10000·t … of the array. -/
theorem rows_block (c : Dev nD) (t : Fin cfg1.N) :
    RowBlk (10000 * t.val) (M := 10000) (M' := 50000) (N := 128) (iblk1 V c 0 t) (V c (Pipeline.arrRef spec1 0)) := by
  have e := index_facts t
  refine RowBlk.of_read (M := 10000) (M' := 50000) (N := 128) (V c (Pipeline.arrRef spec1 0)) (fun j => ((cfg1.win 0).blk t).view.emb j) (fun j => ?_) (fun j => ?_)
  · show win1_0.index t (0 : Fin 2) * 10000 + 1 * (j 0).val = 10000 * t.val + (j 0).val; omega
  · show win1_0.index t (1 : Fin 2) * 128 + 1 * (j 1).val = (j 1).val; omega

/-- What tile t writes back is tile t of the whole array's formula. -/
theorem flushed_eq (c : Dev nD) (t : Fin cfg1.N) :
    (dat1 V c).flushed 6 t = ((cfg1.win 6).blk t).view.read (Elt Ideal)
      (whole (V c (Pipeline.arrRef spec1 0)) (V c (Pipeline.arrRef spec1 1)) (V c (Pipeline.arrRef spec1 2))
        (V c (Pipeline.arrRef spec1 3)) (V c (Pipeline.arrRef spec1 4)) (invStd (V c (Pipeline.arrRef spec1 5)))) := by
  show (cfg1.win 6).cut (grid1.coords t) ((dat1 V c).after 6 t) = _
  rw [after1_6]
  unfold out1_6
  rw [View.canon_unit_zero origin_zero]
  simp only [View.ld_unit_zero (S := S10000x128) origin_zero, View.ld_unit_zero (S := S1x128) origin_zero]
  have e := index_facts t
  funext j
  refine (tile_whole_of (10000 * t.val) (iblk1 V c 0 t) (iblk1 V c 1 t) (iblk1 V c 5 t) (iblk1 V c 2 t) (iblk1 V c 4 t) (iblk1 V c 3 t)
    (V c (Pipeline.arrRef spec1 0)) (V c (Pipeline.arrRef spec1 1)) (V c (Pipeline.arrRef spec1 2)) (V c (Pipeline.arrRef spec1 3))
    (V c (Pipeline.arrRef spec1 4)) (V c (Pipeline.arrRef spec1 5)) (rows_block V c t)
    (row_block_1 V c t) (row_block_2 V c t) (row_block_3 V c t) (row_block_4 V c t) (row_block_5 V c t)).apply j (((cfg1.win 6).blk t).view.emb j) ?_ ?_
  · show win1_6.index t (0 : Fin 2) * 10000 + 1 * (j 0).val = 10000 * t.val + (j 0).val; omega
  · show win1_6.index t (1 : Fin 2) * 128 + 1 * (j 1).val = (j 1).val; omega

/-- An index of the output is in tile t's block iff its row is among the tile's rows. -/
theorem mem_block (t : Fin cfg1.N) (i : S50000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v63).slice (win1_6.rect t)).set ↔ _
  rw [View.set_slice_whole, Rect.mem_set_unit]
  exact Iff.rfl

/-- Every tile index is some grid point's. -/
theorem tile_onto : ∀ q : Fin 5, ∃ t : Fin cfg1.N, t.val = q.val :=
  (by decide +kernel : ∀ q : Fin 5, ∃ t : Fin grid1.N, t.val = q.val)

/-- The five tiles cover the output. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := tile_onto ⟨(i 0).val / 10000, by omega⟩
  have ht' : t.val = (i 0).val / 10000 := ht
  have e := index_facts t
  refine ⟨t, flush1_6 t, ?_⟩
  rw [mem_block]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 128 ≤ (i 1).val ∧ (i 1).val < win1_6.index t (1 : Fin 2) * 128 + 128; omega

/-- THE STAGE'S OUTPUT: after the stage the output array is the whole array's formula of the six input arrays. -/
theorem output (c : Dev nD) :
    (dat1 V c).arrAt 6 cfg1.N = whole (V c (Pipeline.arrRef spec1 0)) (V c (Pipeline.arrRef spec1 1)) (V c (Pipeline.arrRef spec1 2))
        (V c (Pipeline.arrRef spec1 3)) (V c (Pipeline.arrRef spec1 4)) (invStd (V c (Pipeline.arrRef spec1 5))) :=
  (dat1 V c).arrAt_eq_of_cover 6 _ (fun t _ => flushed_eq V c t) cover

end Cert.KernelIdeal.Stage1

end
-- ==== Proof.Stage2.lean ====
/-
  Stage 2 of the idealized kernel: a matrix product computed five row tiles at a time.

  At grid point t the stage reads rows 10000·t … 10000·t + 9999 of its left operand and the whole 128×128 right
  operand, multiplies them from a zero accumulator and writes the product to the same rows of its output. A row tile
  of a product with a shared right operand is that row tile of the whole product, and the five tiles cover the 50000
  rows, so after the stage the output array is the host's product of the two arrays as the stage found them.
-/
import proofs.«149855_j47364899340880_1_alg».proof.Proof.Gen.KernelIdeal.Frame
import proofs.«149855_j47364899340880_1_alg».proof.Proof.Gen.ReferenceIdeal
import proofs.«149855_j47364899340880_1_alg».proof.Proof.LibRowBlockOps
import Idealize.ShloMosaic.Lib.Pipeline.Value

set_option maxRecDepth 16384

noncomputable section

namespace Cert.KernelIdeal.Stage2

open Cert.KernelIdeal Cert.KernelIdeal.Gen Cert.LibRowBlock
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The whole product: the host's `dot_general` of a 50000×128 and a 128×128 array. -/
abbrev product (X : (⟨2, ![50000, 128]⟩ : Shape).Idx → EReal) (w : (⟨2, ![128, 128]⟩ : Shape).Idx → EReal) :
    (⟨2, ![50000, 128]⟩ : Shape).Idx → EReal :=
  Host.dotGeneral (F := Ideal) (φ₁ := .f32) (φ₂ := .f32) Cert.ReferenceIdeal.dot_S50000x128_S128x128_S50000x128_1_0_0_1_n_n none X w

/-- The body's value on a row tile is the row tile of the whole product (a change of float format is the identity
    on the extended reals). -/
theorem tile_product (r : ℕ) (x : Vec Ideal S10000x128 .f32) (w : Vec Ideal S128x128 .f32)
    (X : (⟨2, ![50000, 128]⟩ : Shape).Idx → EReal) (hx : RowBlk r (M := 10000) (M' := 50000) (N := 128) x X) :
    RowBlk r (M := 10000) (M' := 50000) (N := 128) (k2_pay1 (F := Ideal) x w) (product X w) := by
  unfold k2_pay1
  simp only [shapeCast_self]
  exact RowBlk.product (M := 10000) (M' := 50000) (N := 128) (K := 128) (φ₁ := .bf16) (φ₂ := .bf16)
    dot_S10000x128_S128x128_S10000x128_1_0_0_1_n_n rfl Cert.ReferenceIdeal.dot_S50000x128_S128x128_S50000x128_1_0_0_1_n_n rfl none none (truncf .bf16 w bitsLt_bf16_f32)
    (x := truncf .bf16 x bitsLt_bf16_f32) hx

/-- Where the windows sit at each grid point: the row-tiled windows at tile t, the weights at the origin. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The weights' block is the whole array. -/
theorem weights_block (c : Dev nD) (t : Fin cfg2.N) :
    iblk2 V c 1 t = V c (Pipeline.arrRef spec2 1) := by
  obtain ⟨-, -, e0, e1, -, -⟩ := index_facts t
  funext j
  show V c (Pipeline.arrRef spec2 1) (((cfg2.win 1).blk t).view.emb j) = V c (Pipeline.arrRef spec2 1) j
  refine congrArg _ (funext fun a => Fin.ext ?_)
  match a with
  | ⟨0, _⟩ => show win2_1.index t (0 : Fin 2) * 128 + 1 * (j 0).val = (j 0).val; omega
  | ⟨1, _⟩ => show win2_1.index t (1 : Fin 2) * 128 + 1 * (j 1).val = (j 1).val; omega

/-- The activations' block at tile t is rows 10000·t … of the array. -/
theorem rows_block (c : Dev nD) (t : Fin cfg2.N) :
    RowBlk (10000 * t.val) (M := 10000) (M' := 50000) (N := 128) (iblk2 V c 0 t) (V c (Pipeline.arrRef spec2 0)) := by
  obtain ⟨e0, e1, -, -, -, -⟩ := index_facts t
  refine RowBlk.of_read (M := 10000) (M' := 50000) (N := 128) (V c (Pipeline.arrRef spec2 0)) (fun j => ((cfg2.win 0).blk t).view.emb j) (fun j => ?_) (fun j => ?_)
  · show win2_0.index t (0 : Fin 2) * 10000 + 1 * (j 0).val = 10000 * t.val + (j 0).val; omega
  · show win2_0.index t (1 : Fin 2) * 128 + 1 * (j 1).val = (j 1).val; omega

/-- What tile t writes back is tile t of the whole product. -/
theorem flushed_eq (c : Dev nD) (t : Fin cfg2.N) :
    (dat2 V c).flushed 2 t = ((cfg2.win 2).blk t).view.read (Elt Ideal)
      (product (V c (Pipeline.arrRef spec2 0)) (V c (Pipeline.arrRef spec2 1))) := by
  show (cfg2.win 2).cut (grid2.coords t) ((dat2 V c).after 2 t) = _
  rw [after2_2]
  unfold out2_2
  rw [View.canon_unit_zero origin_zero]
  simp only [View.ld_unit_zero (S := S10000x128) origin_zero, View.ld_unit_zero (S := S128x128) origin_zero]
  rw [weights_block V c t]
  obtain ⟨-, -, -, -, e0, e1⟩ := index_facts t
  funext j
  refine (tile_product (10000 * t.val) (iblk2 V c 0 t) (V c (Pipeline.arrRef spec2 1)) (V c (Pipeline.arrRef spec2 0)) (rows_block V c t)).apply j (((cfg2.win 2).blk t).view.emb j) ?_ ?_
  · show win2_2.index t (0 : Fin 2) * 10000 + 1 * (j 0).val = 10000 * t.val + (j 0).val; omega
  · show win2_2.index t (1 : Fin 2) * 128 + 1 * (j 1).val = (j 1).val; omega

/-- An index of the output is in tile t's block iff its row is among the tile's rows. -/
theorem mem_block (t : Fin cfg2.N) (i : S50000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v64).slice (win2_2.rect t)).set ↔ _
  rw [View.set_slice_whole, Rect.mem_set_unit]
  exact Iff.rfl

/-- Every tile index is some grid point's. -/
theorem tile_onto : ∀ q : Fin 5, ∃ t : Fin cfg2.N, t.val = q.val :=
  (by decide +kernel : ∀ q : Fin 5, ∃ t : Fin grid2.N, t.val = q.val)

/-- The five tiles cover the output. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := tile_onto ⟨(i 0).val / 10000, by omega⟩
  have ht' : t.val = (i 0).val / 10000 := ht
  obtain ⟨-, -, -, -, e0, e1⟩ := index_facts t
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- THE STAGE'S OUTPUT: after the stage the output array is the whole product of the two input arrays. -/
theorem output (c : Dev nD) :
    (dat2 V c).arrAt 2 cfg2.N = product (V c (Pipeline.arrRef spec2 0)) (V c (Pipeline.arrRef spec2 1)) :=
  (dat2 V c).arrAt_eq_of_cover 2 _ (fun t _ => flushed_eq V c t) cover

end Cert.KernelIdeal.Stage2

end
-- ==== Proof.Stage3.lean ====
/-
  Stage 3 of the idealized kernel: bias, batch normalization and ReLU, five row tiles at a time.

  At grid point t the stage reads rows 10000·t … 10000·t + 9999 of the aggregated array and five whole [1,128] rows
  (the bias, the scale, the shift, the column means and the column variances). With s = 1/sqrt(variance + ε) taken on the
  row, it writes  max(scale · ((a + bias) − mean) · s + shift, 0)  to the same rows of its output. Every operation acts
  entry by entry and every row is spread over the tile's rows, so a row tile of the result is that row tile of the same
  formula on the whole array; the five tiles cover the 50000 rows.
-/
import proofs.«149855_j47364899340880_1_alg».proof.Proof.Gen.KernelIdeal.Frame
import proofs.«149855_j47364899340880_1_alg».proof.Proof.Gen.ReferenceIdeal
import proofs.«149855_j47364899340880_1_alg».proof.Proof.LibRowBlockOps
import proofs.«149855_j47364899340880_1_alg».proof.Proof.LibRowLanes
import Idealize.ShloMosaic.Lib.Pipeline.Value

set_option maxRecDepth 16384

noncomputable section

namespace Cert.KernelIdeal.Stage3

open Cert.KernelIdeal Cert.KernelIdeal.Gen Cert.LibRowBlock
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- A [1,128] row spread over the 50000 rows. -/
abbrev spread (row : FVec Ideal Cert.ReferenceIdeal.S1x128 .f32) : FVec Ideal Cert.ReferenceIdeal.S50000x128 .f32 :=
  broadcastInDim Cert.ReferenceIdeal.S50000x128 ![0, 1] Cert.ReferenceIdeal.Facts₀.bcast_S1x128_S50000x128_0_1 row

/-- 1/sqrt(variance + ε), taken on the row. -/
def invStd (var : FVec Ideal S1x128 .f32) : FVec Ideal S1x128 .f32 :=
  rsqrt (addf var (broadcast S1x128 (Scalar.ofBits (F := Ideal) .f32 0x3727C5AC#32)))

/-- The whole array's batch normalization and ReLU, from the five rows. -/
def whole (A : FVec Ideal Cert.ReferenceIdeal.S50000x128 .f32) (b g be mean s : FVec Ideal Cert.ReferenceIdeal.S1x128 .f32) : FVec Ideal Cert.ReferenceIdeal.S50000x128 .f32 :=
  maximumf (addf (mulf (mulf (spread g) (subf (addf A (spread b)) (spread mean))) (spread s)) (spread be))
    (broadcastInDim Cert.ReferenceIdeal.S50000x128 ![] Cert.ReferenceIdeal.Facts₀.bcast_S_S50000x128 (constant (F := Ideal) Cert.ReferenceIdeal.S_ .f32 0x00000000#32))

/-- The body's value on a row tile is the row tile of the whole array's formula. -/
theorem tile_whole (r : ℕ) (x : Vec Ideal S10000x128 .f32) (b var g mean be : Vec Ideal S1x128 .f32)
    (A : FVec Ideal Cert.ReferenceIdeal.S50000x128 .f32) (hx : RowBlk r (M := 10000) (M' := 50000) (N := 128) x A) :
    RowBlk r (M := 10000) (M' := 50000) (N := 128) (k3_pay1 (F := Ideal) x b var g mean be) (whole A b g be mean (invStd var)) := by
  unfold k3_pay1 whole invStd
  simp only [shapeCast_self]
  exact RowBlk.maximumf
    (RowBlk.addf
      (RowBlk.mulf
        (RowBlk.mulf (RowBlk.rowBias (M := 10000) (M' := 50000) (N := 128) g _ _ rfl _)
          (RowBlk.subf (RowBlk.addf hx (RowBlk.rowBias (M := 10000) (M' := 50000) (N := 128) b _ _ rfl _))
            (RowBlk.rowBias (M := 10000) (M' := 50000) (N := 128) mean _ _ rfl _)))
        (RowBlk.rowBias (M := 10000) (M' := 50000) (N := 128) _ _ _ rfl _))
      (RowBlk.rowBias (M := 10000) (M' := 50000) (N := 128) be _ _ rfl _))
    (RowBlk.splat (M := 10000) (M' := 50000) (N := 128) _ _ _)

/-- The same, with the five rows given up to equality (the rows a grid point reads are the whole row arrays). -/
theorem tile_whole_of (r : ℕ) (x : Vec Ideal S10000x128 .f32) (b var g mean be : Vec Ideal S1x128 .f32)
    (A : FVec Ideal Cert.ReferenceIdeal.S50000x128 .f32) (B G BE MEAN VAR : FVec Ideal Cert.ReferenceIdeal.S1x128 .f32)
    (hx : RowBlk r (M := 10000) (M' := 50000) (N := 128) x A)
    (hb : b = B) (hg : g = G) (hbe : be = BE) (hmean : mean = MEAN) (hvar : var = VAR) :
    RowBlk r (M := 10000) (M' := 50000) (N := 128) (k3_pay1 (F := Ideal) x b var g mean be) (whole A B G BE MEAN (invStd VAR)) := by
  subst hb hg hbe hmean hvar
  exact tile_whole r x b var g mean be A hx

/-- Where the windows sit at each grid point: the row-tiled windows at tile t, the five rows at the origin. -/
theorem index_facts : ∀ t : Fin cfg3.N, win3_0.index t (0 : Fin 2) = t.val ∧ win3_0.index t (1 : Fin 2) = 0
    ∧ win3_6.index t (0 : Fin 2) = t.val ∧ win3_6.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

theorem row_block_1 (c : Dev nD) (t : Fin cfg3.N) : iblk3 V c 1 t = V c (Pipeline.arrRef spec3 1) := by
  have e := index_facts t
  funext j
  show V c (Pipeline.arrRef spec3 1) (((cfg3.win 1).blk t).view.emb j) = V c (Pipeline.arrRef spec3 1) j
  refine congrArg _ (funext fun a => Fin.ext ?_)
  match a with
  | ⟨0, _⟩ => show win3_1.index t (0 : Fin 2) * 1 + 1 * (j 0).val = (j 0).val; omega
  | ⟨1, _⟩ => show win3_1.index t (1 : Fin 2) * 128 + 1 * (j 1).val = (j 1).val; omega

theorem row_block_2 (c : Dev nD) (t : Fin cfg3.N) : iblk3 V c 2 t = V c (Pipeline.arrRef spec3 2) := by
  have e := index_facts t
  funext j
  show V c (Pipeline.arrRef spec3 2) (((cfg3.win 2).blk t).view.emb j) = V c (Pipeline.arrRef spec3 2) j
  refine congrArg _ (funext fun a => Fin.ext ?_)
  match a with
  | ⟨0, _⟩ => show win3_2.index t (0 : Fin 2) * 1 + 1 * (j 0).val = (j 0).val; omega
  | ⟨1, _⟩ => show win3_2.index t (1 : Fin 2) * 128 + 1 * (j 1).val = (j 1).val; omega

theorem row_block_3 (c : Dev nD) (t : Fin cfg3.N) : iblk3 V c 3 t = V c (Pipeline.arrRef spec3 3) := by
  have e := index_facts t
  funext j
  show V c (Pipeline.arrRef spec3 3) (((cfg3.win 3).blk t).view.emb j) = V c (Pipeline.arrRef spec3 3) j
  refine congrArg _ (funext fun a => Fin.ext ?_)
  match a with
  | ⟨0, _⟩ => show win3_3.index t (0 : Fin 2) * 1 + 1 * (j 0).val = (j 0).val; omega
  | ⟨1, _⟩ => show win3_3.index t (1 : Fin 2) * 128 + 1 * (j 1).val = (j 1).val; omega

theorem row_block_4 (c : Dev nD) (t : Fin cfg3.N) : iblk3 V c 4 t = V c (Pipeline.arrRef spec3 4) := by
  have e := index_facts t
  funext j
  show V c (Pipeline.arrRef spec3 4) (((cfg3.win 4).blk t).view.emb j) = V c (Pipeline.arrRef spec3 4) j
  refine congrArg _ (funext fun a => Fin.ext ?_)
  match a with
  | ⟨0, _⟩ => show win3_4.index t (0 : Fin 2) * 1 + 1 * (j 0).val = (j 0).val; omega
  | ⟨1, _⟩ => show win3_4.index t (1 : Fin 2) * 128 + 1 * (j 1).val = (j 1).val; omega

theorem row_block_5 (c : Dev nD) (t : Fin cfg3.N) : iblk3 V c 5 t = V c (Pipeline.arrRef spec3 5) := by
  have e := index_facts t
  funext j
  show V c (Pipeline.arrRef spec3 5) (((cfg3.win 5).blk t).view.emb j) = V c (Pipeline.arrRef spec3 5) j
  refine congrArg _ (funext fun a => Fin.ext ?_)
  match a with
  | ⟨0, _⟩ => show win3_5.index t (0 : Fin 2) * 1 + 1 * (j 0).val = (j 0).val; omega
  | ⟨1, _⟩ => show win3_5.index t (1 : Fin 2) * 128 + 1 * (j 1).val = (j 1).val; omega

/-- The aggregated array's block at tile t is rows 10000·t … of the array. -/
theorem rows_block (c : Dev nD) (t : Fin cfg3.N) :
    RowBlk (10000 * t.val) (M := 10000) (M' := 50000) (N := 128) (iblk3 V c 0 t) (V c (Pipeline.arrRef spec3 0)) := by
  have e := index_facts t
  refine RowBlk.of_read (M := 10000) (M' := 50000) (N := 128) (V c (Pipeline.arrRef spec3 0)) (fun j => ((cfg3.win 0).blk t).view.emb j) (fun j => ?_) (fun j => ?_)
  · show win3_0.index t (0 : Fin 2) * 10000 + 1 * (j 0).val = 10000 * t.val + (j 0).val; omega
  · show win3_0.index t (1 : Fin 2) * 128 + 1 * (j 1).val = (j 1).val; omega

/-- What tile t writes back is tile t of the whole array's formula. -/
theorem flushed_eq (c : Dev nD) (t : Fin cfg3.N) :
    (dat3 V c).flushed 6 t = ((cfg3.win 6).blk t).view.read (Elt Ideal)
      (whole (V c (Pipeline.arrRef spec3 0)) (V c (Pipeline.arrRef spec3 1)) (V c (Pipeline.arrRef spec3 2))
        (V c (Pipeline.arrRef spec3 3)) (V c (Pipeline.arrRef spec3 4)) (invStd (V c (Pipeline.arrRef spec3 5)))) := by
  show (cfg3.win 6).cut (grid3.coords t) ((dat3 V c).after 6 t) = _
  rw [after3_6]
  unfold out3_6
  rw [View.canon_unit_zero origin_zero]
  simp only [View.ld_unit_zero (S := S10000x128) origin_zero, View.ld_unit_zero (S := S1x128) origin_zero]
  have e := index_facts t
  funext j
  refine (tile_whole_of (10000 * t.val) (iblk3 V c 0 t) (iblk3 V c 1 t) (iblk3 V c 5 t) (iblk3 V c 2 t) (iblk3 V c 4 t) (iblk3 V c 3 t)
    (V c (Pipeline.arrRef spec3 0)) (V c (Pipeline.arrRef spec3 1)) (V c (Pipeline.arrRef spec3 2)) (V c (Pipeline.arrRef spec3 3))
    (V c (Pipeline.arrRef spec3 4)) (V c (Pipeline.arrRef spec3 5)) (rows_block V c t)
    (row_block_1 V c t) (row_block_2 V c t) (row_block_3 V c t) (row_block_4 V c t) (row_block_5 V c t)).apply j (((cfg3.win 6).blk t).view.emb j) ?_ ?_
  · show win3_6.index t (0 : Fin 2) * 10000 + 1 * (j 0).val = 10000 * t.val + (j 0).val; omega
  · show win3_6.index t (1 : Fin 2) * 128 + 1 * (j 1).val = (j 1).val; omega

/-- An index of the output is in tile t's block iff its row is among the tile's rows. -/
theorem mem_block (t : Fin cfg3.N) (i : S50000x128.Idx) :
    i ∈ ((cfg3.win 6).blk t).view.set ↔ ∀ a : Fin 2, win3_6.index t a * S10000x128.size a ≤ (i a).val ∧ (i a).val < win3_6.index t a * S10000x128.size a + S10000x128.size a := by
  show i ∈ ((View.whole main_v95).slice (win3_6.rect t)).set ↔ _
  rw [View.set_slice_whole, Rect.mem_set_unit]
  exact Iff.rfl

/-- Every tile index is some grid point's. -/
theorem tile_onto : ∀ q : Fin 5, ∃ t : Fin cfg3.N, t.val = q.val :=
  (by decide +kernel : ∀ q : Fin 5, ∃ t : Fin grid3.N, t.val = q.val)

/-- The five tiles cover the output. -/
theorem cover (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  obtain ⟨t, ht⟩ := tile_onto ⟨(i 0).val / 10000, by omega⟩
  have ht' : t.val = (i 0).val / 10000 := ht
  have e := index_facts t
  refine ⟨t, flush3_6 t, ?_⟩
  rw [mem_block]
  intro a
  match a with
  | ⟨0, _⟩ => show win3_6.index t (0 : Fin 2) * 10000 ≤ (i 0).val ∧ (i 0).val < win3_6.index t (0 : Fin 2) * 10000 + 10000; omega
  | ⟨1, _⟩ => show win3_6.index t (1 : Fin 2) * 128 ≤ (i 1).val ∧ (i 1).val < win3_6.index t (1 : Fin 2) * 128 + 128; omega

/-- THE STAGE'S OUTPUT: after the stage the output array is the whole array's formula of the six input arrays. -/
theorem output (c : Dev nD) :
    (dat3 V c).arrAt 6 cfg3.N = whole (V c (Pipeline.arrRef spec3 0)) (V c (Pipeline.arrRef spec3 1)) (V c (Pipeline.arrRef spec3 2))
        (V c (Pipeline.arrRef spec3 3)) (V c (Pipeline.arrRef spec3 4)) (invStd (V c (Pipeline.arrRef spec3 5))) :=
  (dat3 V c).arrAt_eq_of_cover 6 _ (fun t _ => flushed_eq V c t) cover

end Cert.KernelIdeal.Stage3

end
-- ==== Proof.Stage4.lean ====
/-
  Stage 4 of the idealized kernel: a matrix product computed five row tiles at a time.

  At grid point t the stage reads rows 10000·t … 10000·t + 9999 of its left operand and the whole 128×128 right
  operand, multiplies them from a zero accumulator and writes the product to the same rows of its output. A row tile
  of a product with a shared right operand is that row tile of the whole product, and the five tiles cover the 50000
  rows, so after the stage the output array is the host's product of the two arrays as the stage found them.
-/
import proofs.«149855_j47364899340880_1_alg».proof.Proof.Gen.KernelIdeal.Frame
import proofs.«149855_j47364899340880_1_alg».proof.Proof.Gen.ReferenceIdeal
import proofs.«149855_j47364899340880_1_alg».proof.Proof.LibRowBlockOps
import Idealize.ShloMosaic.Lib.Pipeline.Value

set_option maxRecDepth 16384

noncomputable section

namespace Cert.KernelIdeal.Stage4

open Cert.KernelIdeal Cert.KernelIdeal.Gen Cert.LibRowBlock
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The whole product: the host's `dot_general` of a 50000×128 and a 128×128 array. -/
abbrev product (X : (⟨2, ![50000, 128]⟩ : Shape).Idx → EReal) (w : (⟨2, ![128, 128]⟩ : Shape).Idx → EReal) :
    (⟨2, ![50000, 128]⟩ : Shape).Idx → EReal :=
  Host.dotGeneral (F := Ideal) (φ₁ := .f32) (φ₂ := .f32) Cert.ReferenceIdeal.dot_S50000x128_S128x128_S50000x128_1_0_0_1_n_n none X w

/-- The body's value on a row tile is the row tile of the whole product (a change of float format is the identity
    on the extended reals). -/
theorem tile_product (r : ℕ) (x : Vec Ideal S10000x128 .f32) (w : Vec Ideal S128x128 .f32)
    (X : (⟨2, ![50000, 128]⟩ : Shape).Idx → EReal) (hx : RowBlk r (M := 10000) (M' := 50000) (N := 128) x X) :
    RowBlk r (M := 10000) (M' := 50000) (N := 128) (k4_pay1 (F := Ideal) x w) (product X w) := by
  unfold k4_pay1
  simp only [shapeCast_self]
  exact RowBlk.product (M := 10000) (M' := 50000) (N := 128) (K := 128) (φ₁ := .bf16) (φ₂ := .bf16)
    dot_S10000x128_S128x128_S10000x128_1_0_0_1_n_n rfl Cert.ReferenceIdeal.dot_S50000x128_S128x128_S50000x128_1_0_0_1_n_n rfl none none (truncf .bf16 w bitsLt_bf16_f32)
    (x := truncf .bf16 x bitsLt_bf16_f32) hx

/-- Where the windows sit at each grid point: the row-tiled windows at tile t, the weights at the origin. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The weights' block is the whole array. -/
theorem weights_block (c : Dev nD) (t : Fin cfg4.N) :
    iblk4 V c 1 t = V c (Pipeline.arrRef spec4 1) := by
  obtain ⟨-, -, e0, e1, -, -⟩ := index_facts t
  funext j
  show V c (Pipeline.arrRef spec4 1) (((cfg4.win 1).blk t).view.emb j) = V c (Pipeline.arrRef spec4 1) j
  refine congrArg _ (funext fun a => Fin.ext ?_)
  match a with
  | ⟨0, _⟩ => show win4_1.index t (0 : Fin 2) * 128 + 1 * (j 0).val = (j 0).val; omega
  | ⟨1, _⟩ => show win4_1.index t (1 : Fin 2) * 128 + 1 * (j 1).val = (j 1).val; omega

/-- The activations' block at tile t is rows 10000·t … of the array. -/
theorem rows_block (c : Dev nD) (t : Fin cfg4.N) :
    RowBlk (10000 * t.val) (M := 10000) (M' := 50000) (N := 128) (iblk4 V c 0 t) (V c (Pipeline.arrRef spec4 0)) := by
  obtain ⟨e0, e1, -, -, -, -⟩ := index_facts t
  refine RowBlk.of_read (M := 10000) (M' := 50000) (N := 128) (V c (Pipeline.arrRef spec4 0)) (fun j => ((cfg4.win 0).blk t).view.emb j) (fun j => ?_) (fun j => ?_)
  · show win4_0.index t (0 : Fin 2) * 10000 + 1 * (j 0).val = 10000 * t.val + (j 0).val; omega
  · show win4_0.index t (1 : Fin 2) * 128 + 1 * (j 1).val = (j 1).val; omega

/-- What tile t writes back is tile t of the whole product. -/
theorem flushed_eq (c : Dev nD) (t : Fin cfg4.N) :
    (dat4 V c).flushed 2 t = ((cfg4.win 2).blk t).view.read (Elt Ideal)
      (product (V c (Pipeline.arrRef spec4 0)) (V c (Pipeline.arrRef spec4 1))) := by
  show (cfg4.win 2).cut (grid4.coords t) ((dat4 V c).after 2 t) = _
  rw [after4_2]
  unfold out4_2
  rw [View.canon_unit_zero origin_zero]
  simp only [View.ld_unit_zero (S := S10000x128) origin_zero, View.ld_unit_zero (S := S128x128) origin_zero]
  rw [weights_block V c t]
  obtain ⟨-, -, -, -, e0, e1⟩ := index_facts t
  funext j
  refine (tile_product (10000 * t.val) (iblk4 V c 0 t) (V c (Pipeline.arrRef spec4 1)) (V c (Pipeline.arrRef spec4 0)) (rows_block V c t)).apply j (((cfg4.win 2).blk t).view.emb j) ?_ ?_
  · show win4_2.index t (0 : Fin 2) * 10000 + 1 * (j 0).val = 10000 * t.val + (j 0).val; omega
  · show win4_2.index t (1 : Fin 2) * 128 + 1 * (j 1).val = (j 1).val; omega

/-- An index of the output is in tile t's block iff its row is among the tile's rows. -/
theorem mem_block (t : Fin cfg4.N) (i : S50000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v96).slice (win4_2.rect t)).set ↔ _
  rw [View.set_slice_whole, Rect.mem_set_unit]
  exact Iff.rfl

/-- Every tile index is some grid point's. -/
theorem tile_onto : ∀ q : Fin 5, ∃ t : Fin cfg4.N, t.val = q.val :=
  (by decide +kernel : ∀ q : Fin 5, ∃ t : Fin grid4.N, t.val = q.val)

/-- The five tiles cover the output. -/
theorem cover (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := tile_onto ⟨(i 0).val / 10000, by omega⟩
  have ht' : t.val = (i 0).val / 10000 := ht
  obtain ⟨-, -, -, -, e0, e1⟩ := index_facts t
  refine ⟨t, flush4_2 t, ?_⟩
  rw [mem_block]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- THE STAGE'S OUTPUT: after the stage the output array is the whole product of the two input arrays. -/
theorem output (c : Dev nD) :
    (dat4 V c).arrAt 2 cfg4.N = product (V c (Pipeline.arrRef spec4 0)) (V c (Pipeline.arrRef spec4 1)) :=
  (dat4 V c).arrAt_eq_of_cover 2 _ (fun t _ => flushed_eq V c t) cover

end Cert.KernelIdeal.Stage4

end
-- ==== Proof.Stage5.lean ====
/-
  Stage 5 of the idealized kernel: bias, batch normalization and ReLU, five row tiles at a time.

  At grid point t the stage reads rows 10000·t … 10000·t + 9999 of the aggregated array and five whole [1,128] rows
  (the bias, the scale, the shift, the column means and the column variances). With s = 1/sqrt(variance + ε) taken on the
  row, it writes  max(scale · ((a + bias) − mean) · s + shift, 0)  to the same rows of its output. Every operation acts
  entry by entry and every row is spread over the tile's rows, so a row tile of the result is that row tile of the same
  formula on the whole array; the five tiles cover the 50000 rows.
-/
import proofs.«149855_j47364899340880_1_alg».proof.Proof.Gen.KernelIdeal.Frame
import proofs.«149855_j47364899340880_1_alg».proof.Proof.Gen.ReferenceIdeal
import proofs.«149855_j47364899340880_1_alg».proof.Proof.LibRowBlockOps
import proofs.«149855_j47364899340880_1_alg».proof.Proof.LibRowLanes
import Idealize.ShloMosaic.Lib.Pipeline.Value

set_option maxRecDepth 16384

noncomputable section

namespace Cert.KernelIdeal.Stage5

open Cert.KernelIdeal Cert.KernelIdeal.Gen Cert.LibRowBlock
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- A [1,128] row spread over the 50000 rows. -/
abbrev spread (row : FVec Ideal Cert.ReferenceIdeal.S1x128 .f32) : FVec Ideal Cert.ReferenceIdeal.S50000x128 .f32 :=
  broadcastInDim Cert.ReferenceIdeal.S50000x128 ![0, 1] Cert.ReferenceIdeal.Facts₀.bcast_S1x128_S50000x128_0_1 row

/-- 1/sqrt(variance + ε), taken on the row. -/
def invStd (var : FVec Ideal S1x128 .f32) : FVec Ideal S1x128 .f32 :=
  rsqrt (addf var (broadcast S1x128 (Scalar.ofBits (F := Ideal) .f32 0x3727C5AC#32)))

/-- The whole array's batch normalization and ReLU, from the five rows. -/
def whole (A : FVec Ideal Cert.ReferenceIdeal.S50000x128 .f32) (b g be mean s : FVec Ideal Cert.ReferenceIdeal.S1x128 .f32) : FVec Ideal Cert.ReferenceIdeal.S50000x128 .f32 :=
  maximumf (addf (mulf (mulf (spread g) (subf (addf A (spread b)) (spread mean))) (spread s)) (spread be))
    (broadcastInDim Cert.ReferenceIdeal.S50000x128 ![] Cert.ReferenceIdeal.Facts₀.bcast_S_S50000x128 (constant (F := Ideal) Cert.ReferenceIdeal.S_ .f32 0x00000000#32))

/-- The body's value on a row tile is the row tile of the whole array's formula. -/
theorem tile_whole (r : ℕ) (x : Vec Ideal S10000x128 .f32) (b var g mean be : Vec Ideal S1x128 .f32)
    (A : FVec Ideal Cert.ReferenceIdeal.S50000x128 .f32) (hx : RowBlk r (M := 10000) (M' := 50000) (N := 128) x A) :
    RowBlk r (M := 10000) (M' := 50000) (N := 128) (k5_pay1 (F := Ideal) x b var g mean be) (whole A b g be mean (invStd var)) := by
  unfold k5_pay1 whole invStd
  simp only [shapeCast_self]
  exact RowBlk.maximumf
    (RowBlk.addf
      (RowBlk.mulf
        (RowBlk.mulf (RowBlk.rowBias (M := 10000) (M' := 50000) (N := 128) g _ _ rfl _)
          (RowBlk.subf (RowBlk.addf hx (RowBlk.rowBias (M := 10000) (M' := 50000) (N := 128) b _ _ rfl _))
            (RowBlk.rowBias (M := 10000) (M' := 50000) (N := 128) mean _ _ rfl _)))
        (RowBlk.rowBias (M := 10000) (M' := 50000) (N := 128) _ _ _ rfl _))
      (RowBlk.rowBias (M := 10000) (M' := 50000) (N := 128) be _ _ rfl _))
    (RowBlk.splat (M := 10000) (M' := 50000) (N := 128) _ _ _)

/-- The same, with the five rows given up to equality (the rows a grid point reads are the whole row arrays). -/
theorem tile_whole_of (r : ℕ) (x : Vec Ideal S10000x128 .f32) (b var g mean be : Vec Ideal S1x128 .f32)
    (A : FVec Ideal Cert.ReferenceIdeal.S50000x128 .f32) (B G BE MEAN VAR : FVec Ideal Cert.ReferenceIdeal.S1x128 .f32)
    (hx : RowBlk r (M := 10000) (M' := 50000) (N := 128) x A)
    (hb : b = B) (hg : g = G) (hbe : be = BE) (hmean : mean = MEAN) (hvar : var = VAR) :
    RowBlk r (M := 10000) (M' := 50000) (N := 128) (k5_pay1 (F := Ideal) x b var g mean be) (whole A B G BE MEAN (invStd VAR)) := by
  subst hb hg hbe hmean hvar
  exact tile_whole r x b var g mean be A hx

/-- Where the windows sit at each grid point: the row-tiled windows at tile t, the five rows at the origin. -/
theorem index_facts : ∀ t : Fin cfg5.N, win5_0.index t (0 : Fin 2) = t.val ∧ win5_0.index t (1 : Fin 2) = 0
    ∧ win5_6.index t (0 : Fin 2) = t.val ∧ win5_6.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

theorem row_block_1 (c : Dev nD) (t : Fin cfg5.N) : iblk5 V c 1 t = V c (Pipeline.arrRef spec5 1) := by
  have e := index_facts t
  funext j
  show V c (Pipeline.arrRef spec5 1) (((cfg5.win 1).blk t).view.emb j) = V c (Pipeline.arrRef spec5 1) j
  refine congrArg _ (funext fun a => Fin.ext ?_)
  match a with
  | ⟨0, _⟩ => show win5_1.index t (0 : Fin 2) * 1 + 1 * (j 0).val = (j 0).val; omega
  | ⟨1, _⟩ => show win5_1.index t (1 : Fin 2) * 128 + 1 * (j 1).val = (j 1).val; omega

theorem row_block_2 (c : Dev nD) (t : Fin cfg5.N) : iblk5 V c 2 t = V c (Pipeline.arrRef spec5 2) := by
  have e := index_facts t
  funext j
  show V c (Pipeline.arrRef spec5 2) (((cfg5.win 2).blk t).view.emb j) = V c (Pipeline.arrRef spec5 2) j
  refine congrArg _ (funext fun a => Fin.ext ?_)
  match a with
  | ⟨0, _⟩ => show win5_2.index t (0 : Fin 2) * 1 + 1 * (j 0).val = (j 0).val; omega
  | ⟨1, _⟩ => show win5_2.index t (1 : Fin 2) * 128 + 1 * (j 1).val = (j 1).val; omega

theorem row_block_3 (c : Dev nD) (t : Fin cfg5.N) : iblk5 V c 3 t = V c (Pipeline.arrRef spec5 3) := by
  have e := index_facts t
  funext j
  show V c (Pipeline.arrRef spec5 3) (((cfg5.win 3).blk t).view.emb j) = V c (Pipeline.arrRef spec5 3) j
  refine congrArg _ (funext fun a => Fin.ext ?_)
  match a with
  | ⟨0, _⟩ => show win5_3.index t (0 : Fin 2) * 1 + 1 * (j 0).val = (j 0).val; omega
  | ⟨1, _⟩ => show win5_3.index t (1 : Fin 2) * 128 + 1 * (j 1).val = (j 1).val; omega

theorem row_block_4 (c : Dev nD) (t : Fin cfg5.N) : iblk5 V c 4 t = V c (Pipeline.arrRef spec5 4) := by
  have e := index_facts t
  funext j
  show V c (Pipeline.arrRef spec5 4) (((cfg5.win 4).blk t).view.emb j) = V c (Pipeline.arrRef spec5 4) j
  refine congrArg _ (funext fun a => Fin.ext ?_)
  match a with
  | ⟨0, _⟩ => show win5_4.index t (0 : Fin 2) * 1 + 1 * (j 0).val = (j 0).val; omega
  | ⟨1, _⟩ => show win5_4.index t (1 : Fin 2) * 128 + 1 * (j 1).val = (j 1).val; omega

theorem row_block_5 (c : Dev nD) (t : Fin cfg5.N) : iblk5 V c 5 t = V c (Pipeline.arrRef spec5 5) := by
  have e := index_facts t
  funext j
  show V c (Pipeline.arrRef spec5 5) (((cfg5.win 5).blk t).view.emb j) = V c (Pipeline.arrRef spec5 5) j
  refine congrArg _ (funext fun a => Fin.ext ?_)
  match a with
  | ⟨0, _⟩ => show win5_5.index t (0 : Fin 2) * 1 + 1 * (j 0).val = (j 0).val; omega
  | ⟨1, _⟩ => show win5_5.index t (1 : Fin 2) * 128 + 1 * (j 1).val = (j 1).val; omega

/-- The aggregated array's block at tile t is rows 10000·t … of the array. -/
theorem rows_block (c : Dev nD) (t : Fin cfg5.N) :
    RowBlk (10000 * t.val) (M := 10000) (M' := 50000) (N := 128) (iblk5 V c 0 t) (V c (Pipeline.arrRef spec5 0)) := by
  have e := index_facts t
  refine RowBlk.of_read (M := 10000) (M' := 50000) (N := 128) (V c (Pipeline.arrRef spec5 0)) (fun j => ((cfg5.win 0).blk t).view.emb j) (fun j => ?_) (fun j => ?_)
  · show win5_0.index t (0 : Fin 2) * 10000 + 1 * (j 0).val = 10000 * t.val + (j 0).val; omega
  · show win5_0.index t (1 : Fin 2) * 128 + 1 * (j 1).val = (j 1).val; omega

/-- What tile t writes back is tile t of the whole array's formula. -/
theorem flushed_eq (c : Dev nD) (t : Fin cfg5.N) :
    (dat5 V c).flushed 6 t = ((cfg5.win 6).blk t).view.read (Elt Ideal)
      (whole (V c (Pipeline.arrRef spec5 0)) (V c (Pipeline.arrRef spec5 1)) (V c (Pipeline.arrRef spec5 2))
        (V c (Pipeline.arrRef spec5 3)) (V c (Pipeline.arrRef spec5 4)) (invStd (V c (Pipeline.arrRef spec5 5)))) := by
  show (cfg5.win 6).cut (grid5.coords t) ((dat5 V c).after 6 t) = _
  rw [after5_6]
  unfold out5_6
  rw [View.canon_unit_zero origin_zero]
  simp only [View.ld_unit_zero (S := S10000x128) origin_zero, View.ld_unit_zero (S := S1x128) origin_zero]
  have e := index_facts t
  funext j
  refine (tile_whole_of (10000 * t.val) (iblk5 V c 0 t) (iblk5 V c 1 t) (iblk5 V c 5 t) (iblk5 V c 2 t) (iblk5 V c 4 t) (iblk5 V c 3 t)
    (V c (Pipeline.arrRef spec5 0)) (V c (Pipeline.arrRef spec5 1)) (V c (Pipeline.arrRef spec5 2)) (V c (Pipeline.arrRef spec5 3))
    (V c (Pipeline.arrRef spec5 4)) (V c (Pipeline.arrRef spec5 5)) (rows_block V c t)
    (row_block_1 V c t) (row_block_2 V c t) (row_block_3 V c t) (row_block_4 V c t) (row_block_5 V c t)).apply j (((cfg5.win 6).blk t).view.emb j) ?_ ?_
  · show win5_6.index t (0 : Fin 2) * 10000 + 1 * (j 0).val = 10000 * t.val + (j 0).val; omega
  · show win5_6.index t (1 : Fin 2) * 128 + 1 * (j 1).val = (j 1).val; omega

/-- An index of the output is in tile t's block iff its row is among the tile's rows. -/
theorem mem_block (t : Fin cfg5.N) (i : S50000x128.Idx) :
    i ∈ ((cfg5.win 6).blk t).view.set ↔ ∀ a : Fin 2, win5_6.index t a * S10000x128.size a ≤ (i a).val ∧ (i a).val < win5_6.index t a * S10000x128.size a + S10000x128.size a := by
  show i ∈ ((View.whole main_v127).slice (win5_6.rect t)).set ↔ _
  rw [View.set_slice_whole, Rect.mem_set_unit]
  exact Iff.rfl

/-- Every tile index is some grid point's. -/
theorem tile_onto : ∀ q : Fin 5, ∃ t : Fin cfg5.N, t.val = q.val :=
  (by decide +kernel : ∀ q : Fin 5, ∃ t : Fin grid5.N, t.val = q.val)

/-- The five tiles cover the output. -/
theorem cover (i : S50000x128.Idx) : ∃ t : Fin cfg5.N, (cfg5.win 6).flush t = true ∧ i ∈ ((cfg5.win 6).blk t).view.set := by
  have hi0 : (i 0).val < 50000 := (i 0).isLt
  have hi1 : (i 1).val < 128 := (i 1).isLt
  obtain ⟨t, ht⟩ := tile_onto ⟨(i 0).val / 10000, by omega⟩
  have ht' : t.val = (i 0).val / 10000 := ht
  have e := index_facts t
  refine ⟨t, flush5_6 t, ?_⟩
  rw [mem_block]
  intro a
  match a with
  | ⟨0, _⟩ => show win5_6.index t (0 : Fin 2) * 10000 ≤ (i 0).val ∧ (i 0).val < win5_6.index t (0 : Fin 2) * 10000 + 10000; omega
  | ⟨1, _⟩ => show win5_6.index t (1 : Fin 2) * 128 ≤ (i 1).val ∧ (i 1).val < win5_6.index t (1 : Fin 2) * 128 + 128; omega

/-- THE STAGE'S OUTPUT: after the stage the output array is the whole array's formula of the six input arrays. -/
theorem output (c : Dev nD) :
    (dat5 V c).arrAt 6 cfg5.N = whole (V c (Pipeline.arrRef spec5 0)) (V c (Pipeline.arrRef spec5 1)) (V c (Pipeline.arrRef spec5 2))
        (V c (Pipeline.arrRef spec5 3)) (V c (Pipeline.arrRef spec5 4)) (invStd (V c (Pipeline.arrRef spec5 5))) :=
  (dat5 V c).arrAt_eq_of_cover 6 _ (fun t _ => flushed_eq V c t) cover

end Cert.KernelIdeal.Stage5

end
-- ==== Proof.Stage6.lean ====
/-
  Stage 6 of the idealized kernel: the final dense layer with ReLU, and the log-softmax of its rows, five row tiles
  at a time.

  At grid point t the stage reads rows 10000·t … of the hidden array, the whole 128×40 weights and the [1,40] bias row;
  it forms  logits = max(h·W + bias, 0)  and, row by row,  z = logits − max_lane(logits),  z − log Σ_lane exp z,  and writes
  both to the same rows of its two outputs. The product is with a shared matrix, the bias is spread over the rows, and
  the two lane reductions look at one row at a time, so a row tile of either result is that row tile of the same
  formula on the whole array; the five tiles cover the 50000 rows.
-/
import proofs.«149855_j47364899340880_1_alg».proof.Proof.Gen.KernelIdeal.Frame
import proofs.«149855_j47364899340880_1_alg».proof.Proof.Gen.ReferenceIdeal
import proofs.«149855_j47364899340880_1_alg».proof.Proof.LibRowBlockOps
import proofs.«149855_j47364899340880_1_alg».proof.Proof.LibRowLanes
import Idealize.ShloMosaic.Lib.Pipeline.Value

set_option maxRecDepth 16384

noncomputable section

namespace Cert.KernelIdeal.Stage6

open Cert.KernelIdeal Cert.KernelIdeal.Gen Cert.LibRowBlock
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The whole array's logits: max(H·W + bias, 0). -/
def logits (H : FVec Ideal Cert.ReferenceIdeal.S50000x128 .f32) (w : FVec Ideal Cert.ReferenceIdeal.S128x40 .f32) (b : FVec Ideal Cert.ReferenceIdeal.S1x40 .f32) : FVec Ideal Cert.ReferenceIdeal.S50000x40 .f32 :=
  maximumf (addf (Host.dotGeneral Cert.ReferenceIdeal.dot_S50000x128_S128x40_S50000x40_1_0_0_1_n_n none H w)
      (broadcastInDim Cert.ReferenceIdeal.S50000x40 ![0, 1] Cert.ReferenceIdeal.Facts₀.bcast_S1x40_S50000x40_0_1 b))
    (broadcastInDim Cert.ReferenceIdeal.S50000x40 ![] Cert.ReferenceIdeal.Facts₀.bcast_S_S50000x40 (constant (F := Ideal) Cert.ReferenceIdeal.S_ .f32 0x00000000#32))

/-- The lane maximum of every row, spread back over the lanes. -/
def rowMax (L : FVec Ideal Cert.ReferenceIdeal.S50000x40 .f32) : FVec Ideal Cert.ReferenceIdeal.S50000x40 .f32 :=
  broadcastInDim Cert.ReferenceIdeal.S50000x40 ![0, 1] Cert.ReferenceIdeal.Facts₀.bcast_S50000x1_S50000x40_0_1
    (broadcastInDim Cert.ReferenceIdeal.S50000x1 ![0] Cert.ReferenceIdeal.Facts₀.bcast_S50000_S50000x1_0
      (maximumf (broadcastInDim Cert.ReferenceIdeal.S50000 ![] Cert.ReferenceIdeal.Facts₀.bcast_S_S50000 (constant (F := Ideal) Cert.ReferenceIdeal.S_ .f32 0xFF800000#32))
        (Host.reduce FloatOps.maximumf L (constant (F := Ideal) Cert.ReferenceIdeal.S_ .f32 0xFF800000#32) Cert.ReferenceIdeal.Facts₀.reducesTo_S50000x40_S50000_d1 Cert.ReferenceIdeal.Facts₀.h_S_)))

/-- The whole array's log-softmax along the lanes. -/
def logSoftmax (L : FVec Ideal Cert.ReferenceIdeal.S50000x40 .f32) : FVec Ideal Cert.ReferenceIdeal.S50000x40 .f32 :=
  subf (subf L (rowMax L))
    (broadcastInDim Cert.ReferenceIdeal.S50000x40 ![0, 1] Cert.ReferenceIdeal.Facts₀.bcast_S50000x1_S50000x40_0_1
      (Host.log (broadcastInDim Cert.ReferenceIdeal.S50000x1 ![0] Cert.ReferenceIdeal.Facts₀.bcast_S50000_S50000x1_0
        (Host.reduceAdd (Host.exp (subf L (rowMax L))) (constant (F := Ideal) Cert.ReferenceIdeal.S_ .f32 0x00000000#32) Cert.ReferenceIdeal.Facts₀.reducesTo_S50000x40_S50000_d1 Cert.ReferenceIdeal.Facts₀.h_S_))))

/-- The logits of a row tile are the row tile of the whole array's logits. -/
theorem tile_logits (r : ℕ) (x : Vec Ideal S10000x128 .f32) (w : Vec Ideal S128x40 .f32) (b : Vec Ideal S1x40 .f32)
    (H : FVec Ideal Cert.ReferenceIdeal.S50000x128 .f32) (hx : RowBlk r (M := 10000) (M' := 50000) (N := 128) x H) :
    RowBlk r (M := 10000) (M' := 50000) (N := 40) (k6_pay1 (F := Ideal) x w b) (logits H w b) := by
  unfold k6_pay1 logits
  simp only [shapeCast_self]
  exact RowBlk.maximumf
    (RowBlk.dense (M := 10000) (M' := 50000) (N := 40) (K := 128) (φ₁ := .bf16) (φ₂ := .bf16)
      dot_S10000x128_S128x40_S10000x40_1_0_0_1_n_n rfl Cert.ReferenceIdeal.dot_S50000x128_S128x40_S50000x40_1_0_0_1_n_n rfl none none (truncf .bf16 w bitsLt_bf16_f32) b _ _ rfl _
      (x := truncf .bf16 x bitsLt_bf16_f32) hx)
    (RowBlk.splat (M := 10000) (M' := 50000) (N := 40) _ _ _)

/-- The log-softmax of a row tile of logits is the row tile of the whole array's log-softmax. -/
theorem tile_logSoftmax (r : ℕ) (x : Vec Ideal S10000x128 .f32) (w : Vec Ideal S128x40 .f32) (b : Vec Ideal S1x40 .f32)
    (H : FVec Ideal Cert.ReferenceIdeal.S50000x128 .f32) (hx : RowBlk r (M := 10000) (M' := 50000) (N := 128) x H) :
    RowBlk r (M := 10000) (M' := 50000) (N := 40) (k6_pay2 (F := Ideal) x w b) (logSoftmax (logits H w b)) := by
  have hl := tile_logits r x w b H hx
  unfold k6_pay2 logSoftmax rowMax
  have hmx := RowBlk.colSpread (M := 10000) (M' := 50000) (N := 40)
    (RowBlk.laneMax (M := 10000) (M' := 50000) (N := 40) (φ := .f32) 0xFF800000#32 reduces_S10000x40_S10000 (.inl rfl) rfl shapeCasts_S10000_S10000x1
      Cert.ReferenceIdeal.Facts₀.reducesTo_S50000x40_S50000_d1 (by decide) Cert.ReferenceIdeal.Facts₀.h_S_ ![] Cert.ReferenceIdeal.Facts₀.bcast_S_S50000 ![0] rfl Cert.ReferenceIdeal.Facts₀.bcast_S50000_S50000x1_0 hl)
    broadcasts_S10000x1_S10000x40 ![0, 1] rfl Cert.ReferenceIdeal.Facts₀.bcast_S50000x1_S50000x40_0_1
  have hz := RowBlk.subf hl hmx
  have hsum := RowBlk.laneSum (M := 10000) (M' := 50000) (N := 40) reduces_S10000x40_S10000 (.inl rfl) rfl shapeCasts_S10000_S10000x1
      Cert.ReferenceIdeal.Facts₀.reducesTo_S50000x40_S50000_d1 (by decide) Cert.ReferenceIdeal.Facts₀.h_S_ ![0] rfl Cert.ReferenceIdeal.Facts₀.bcast_S50000_S50000x1_0 (RowBlk.exp_hostExp hz)
  exact RowBlk.subf hz (RowBlk.colSpread (M := 10000) (M' := 50000) (N := 40) (RowBlk.log_hostLog hsum)
    broadcasts_S10000x1_S10000x40 ![0, 1] rfl Cert.ReferenceIdeal.Facts₀.bcast_S50000x1_S50000x40_0_1)

/-- The same two facts with the weights and the bias row given up to equality (a grid point reads them whole). -/
theorem tile_logits_of (r : ℕ) (x : Vec Ideal S10000x128 .f32) (w : Vec Ideal S128x40 .f32) (b : Vec Ideal S1x40 .f32)
    (H : FVec Ideal Cert.ReferenceIdeal.S50000x128 .f32) (Wt : FVec Ideal Cert.ReferenceIdeal.S128x40 .f32) (B : FVec Ideal Cert.ReferenceIdeal.S1x40 .f32)
    (hx : RowBlk r (M := 10000) (M' := 50000) (N := 128) x H) (hw : w = Wt) (hb : b = B) :
    RowBlk r (M := 10000) (M' := 50000) (N := 40) (k6_pay1 (F := Ideal) x w b) (logits H Wt B) := by
  subst hw hb
  exact tile_logits r x w b H hx
theorem tile_logSoftmax_of (r : ℕ) (x : Vec Ideal S10000x128 .f32) (w : Vec Ideal S128x40 .f32) (b : Vec Ideal S1x40 .f32)
    (H : FVec Ideal Cert.ReferenceIdeal.S50000x128 .f32) (Wt : FVec Ideal Cert.ReferenceIdeal.S128x40 .f32) (B : FVec Ideal Cert.ReferenceIdeal.S1x40 .f32)
    (hx : RowBlk r (M := 10000) (M' := 50000) (N := 128) x H) (hw : w = Wt) (hb : b = B) :
    RowBlk r (M := 10000) (M' := 50000) (N := 40) (k6_pay2 (F := Ideal) x w b) (logSoftmax (logits H Wt B)) := by
  subst hw hb
  exact tile_logSoftmax r x w b H hx

/-- Where the windows sit at each grid point: the row-tiled windows at tile t, the weights and the bias at the origin. -/
theorem index_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- The weights' block is the whole array. -/
theorem weights_block (c : Dev nD) (t : Fin cfg6.N) : iblk6 V c 1 t = V c (Pipeline.arrRef spec6 1) := by
  have e := index_facts t
  funext j
  show V c (Pipeline.arrRef spec6 1) (((cfg6.win 1).blk t).view.emb j) = V c (Pipeline.arrRef spec6 1) j
  refine congrArg _ (funext fun a => Fin.ext ?_)
  match a with
  | ⟨0, _⟩ => show win6_1.index t (0 : Fin 2) * 128 + 1 * (j 0).val = (j 0).val; omega
  | ⟨1, _⟩ => show win6_1.index t (1 : Fin 2) * 40 + 1 * (j 1).val = (j 1).val; omega

/-- The bias row's block is the whole row. -/
theorem bias_block (c : Dev nD) (t : Fin cfg6.N) : iblk6 V c 2 t = V c (Pipeline.arrRef spec6 2) := by
  have e := index_facts t
  funext j
  show V c (Pipeline.arrRef spec6 2) (((cfg6.win 2).blk t).view.emb j) = V c (Pipeline.arrRef spec6 2) j
  refine congrArg _ (funext fun a => Fin.ext ?_)
  match a with
  | ⟨0, _⟩ => show win6_2.index t (0 : Fin 2) * 1 + 1 * (j 0).val = (j 0).val; omega
  | ⟨1, _⟩ => show win6_2.index t (1 : Fin 2) * 40 + 1 * (j 1).val = (j 1).val; omega

/-- The hidden array's block at tile t is rows 10000·t … of the array. -/
theorem rows_block (c : Dev nD) (t : Fin cfg6.N) :
    RowBlk (10000 * t.val) (M := 10000) (M' := 50000) (N := 128) (iblk6 V c 0 t) (V c (Pipeline.arrRef spec6 0)) := by
  have e := index_facts t
  refine RowBlk.of_read (M := 10000) (M' := 50000) (N := 128) (V c (Pipeline.arrRef spec6 0)) (fun j => ((cfg6.win 0).blk t).view.emb j) (fun j => ?_) (fun j => ?_)
  · show win6_0.index t (0 : Fin 2) * 10000 + 1 * (j 0).val = 10000 * t.val + (j 0).val; omega
  · show win6_0.index t (1 : Fin 2) * 128 + 1 * (j 1).val = (j 1).val; omega

/-- Every tile index is some grid point's. -/
theorem tile_onto : ∀ q : Fin 5, ∃ t : Fin cfg6.N, t.val = q.val :=
  (by decide +kernel : ∀ q : Fin 5, ∃ t : Fin grid6.N, t.val = q.val)

/-- What tile t writes back to the log-probabilities is tile t of the whole array's log-probabilities. -/
theorem flushed_eq_3 (c : Dev nD) (t : Fin cfg6.N) :
    (dat6 V c).flushed 3 t = ((cfg6.win 3).blk t).view.read (Elt Ideal) (logSoftmax (logits (V c (Pipeline.arrRef spec6 0)) (V c (Pipeline.arrRef spec6 1)) (V c (Pipeline.arrRef spec6 2)))) := by
  show (cfg6.win 3).cut (grid6.coords t) ((dat6 V c).after 3 t) = _
  rw [after6_3]
  unfold out6_3
  rw [View.canon_unit_zero origin_zero]
  simp only [View.ld_unit_zero (S := S10000x128) origin_zero, View.ld_unit_zero (S := S128x40) origin_zero, View.ld_unit_zero (S := S1x40) origin_zero]
  have e := index_facts t
  funext j
  refine (tile_logSoftmax_of (10000 * t.val) (iblk6 V c 0 t) (iblk6 V c 1 t) (iblk6 V c 2 t)
    (V c (Pipeline.arrRef spec6 0)) (V c (Pipeline.arrRef spec6 1)) (V c (Pipeline.arrRef spec6 2)) (rows_block V c t)
    (weights_block V c t) (bias_block V c t)).apply j (((cfg6.win 3).blk t).view.emb j) ?_ ?_
  · show win6_3.index t (0 : Fin 2) * 10000 + 1 * (j 0).val = 10000 * t.val + (j 0).val; omega
  · show win6_3.index t (1 : Fin 2) * 40 + 1 * (j 1).val = (j 1).val; omega

theorem mem_block_3 (t : Fin cfg6.N) (i : S50000x40.Idx) :
    i ∈ ((cfg6.win 3).blk t).view.set ↔ ∀ a : Fin 2, win6_3.index t a * S10000x40.size a ≤ (i a).val ∧ (i a).val < win6_3.index t a * S10000x40.size a + S10000x40.size a := by
  show i ∈ ((View.whole main_v129_0).slice (win6_3.rect t)).set ↔ _
  rw [View.set_slice_whole, Rect.mem_set_unit]
  exact Iff.rfl

theorem cover_3 (i : S50000x40.Idx) : ∃ t : Fin cfg6.N, (cfg6.win 3).flush t = true ∧ i ∈ ((cfg6.win 3).blk t).view.set := by
  have hi0 : (i 0).val < 50000 := (i 0).isLt
  have hi1 : (i 1).val < 40 := (i 1).isLt
  obtain ⟨t, ht⟩ := tile_onto ⟨(i 0).val / 10000, by omega⟩
  have ht' : t.val = (i 0).val / 10000 := ht
  have e := index_facts t
  refine ⟨t, flush6_3 t, ?_⟩
  rw [mem_block_3]
  intro a
  match a with
  | ⟨0, _⟩ => show win6_3.index t (0 : Fin 2) * 10000 ≤ (i 0).val ∧ (i 0).val < win6_3.index t (0 : Fin 2) * 10000 + 10000; omega
  | ⟨1, _⟩ => show win6_3.index t (1 : Fin 2) * 40 ≤ (i 1).val ∧ (i 1).val < win6_3.index t (1 : Fin 2) * 40 + 40; omega

/-- THE STAGE'S OUTPUT, the log-probabilities. -/
theorem output_3 (c : Dev nD) : (dat6 V c).arrAt 3 cfg6.N = logSoftmax (logits (V c (Pipeline.arrRef spec6 0)) (V c (Pipeline.arrRef spec6 1)) (V c (Pipeline.arrRef spec6 2))) :=
  (dat6 V c).arrAt_eq_of_cover 3 _ (fun t _ => flushed_eq_3 V c t) cover_3

/-- What tile t writes back to the logits is tile t of the whole array's logits. -/
theorem flushed_eq_4 (c : Dev nD) (t : Fin cfg6.N) :
    (dat6 V c).flushed 4 t = ((cfg6.win 4).blk t).view.read (Elt Ideal) (logits (V c (Pipeline.arrRef spec6 0)) (V c (Pipeline.arrRef spec6 1)) (V c (Pipeline.arrRef spec6 2))) := by
  show (cfg6.win 4).cut (grid6.coords t) ((dat6 V c).after 4 t) = _
  rw [after6_4]
  unfold out6_4
  rw [View.canon_unit_zero origin_zero]
  simp only [View.ld_unit_zero (S := S10000x128) origin_zero, View.ld_unit_zero (S := S128x40) origin_zero, View.ld_unit_zero (S := S1x40) origin_zero]
  have e := index_facts t
  funext j
  refine (tile_logits_of (10000 * t.val) (iblk6 V c 0 t) (iblk6 V c 1 t) (iblk6 V c 2 t)
    (V c (Pipeline.arrRef spec6 0)) (V c (Pipeline.arrRef spec6 1)) (V c (Pipeline.arrRef spec6 2)) (rows_block V c t)
    (weights_block V c t) (bias_block V c t)).apply j (((cfg6.win 4).blk t).view.emb j) ?_ ?_
  · show win6_4.index t (0 : Fin 2) * 10000 + 1 * (j 0).val = 10000 * t.val + (j 0).val; omega
  · show win6_4.index t (1 : Fin 2) * 40 + 1 * (j 1).val = (j 1).val; omega

theorem mem_block_4 (t : Fin cfg6.N) (i : S50000x40.Idx) :
    i ∈ ((cfg6.win 4).blk t).view.set ↔ ∀ a : Fin 2, win6_4.index t a * S10000x40.size a ≤ (i a).val ∧ (i a).val < win6_4.index t a * S10000x40.size a + S10000x40.size a := by
  show i ∈ ((View.whole main_v129_1).slice (win6_4.rect t)).set ↔ _
  rw [View.set_slice_whole, Rect.mem_set_unit]
  exact Iff.rfl

theorem cover_4 (i : S50000x40.Idx) : ∃ t : Fin cfg6.N, (cfg6.win 4).flush t = true ∧ i ∈ ((cfg6.win 4).blk t).view.set := by
  have hi0 : (i 0).val < 50000 := (i 0).isLt
  have hi1 : (i 1).val < 40 := (i 1).isLt
  obtain ⟨t, ht⟩ := tile_onto ⟨(i 0).val / 10000, by omega⟩
  have ht' : t.val = (i 0).val / 10000 := ht
  have e := index_facts t
  refine ⟨t, flush6_4 t, ?_⟩
  rw [mem_block_4]
  intro a
  match a with
  | ⟨0, _⟩ => show win6_4.index t (0 : Fin 2) * 10000 ≤ (i 0).val ∧ (i 0).val < win6_4.index t (0 : Fin 2) * 10000 + 10000; omega
  | ⟨1, _⟩ => show win6_4.index t (1 : Fin 2) * 40 ≤ (i 1).val ∧ (i 1).val < win6_4.index t (1 : Fin 2) * 40 + 40; omega

/-- THE STAGE'S OUTPUT, the logits. -/
theorem output_4 (c : Dev nD) : (dat6 V c).arrAt 4 cfg6.N = logits (V c (Pipeline.arrRef spec6 0)) (V c (Pipeline.arrRef spec6 1)) (V c (Pipeline.arrRef spec6 2)) :=
  (dat6 V c).arrAt_eq_of_cover 4 _ (fun t _ => flushed_eq_4 V c t) cover_4

end Cert.KernelIdeal.Stage6

end
-- ==== Proof.Bridge.lean ====
/-
  The idealized kernel's results are the reference's.

  For one core, the contents of each buffer are followed from the launch to the return. The edge arrays of the first
  stretches are the reference's. Then, three times: the product stage leaves the reference's product (a product tiled
  over rows is the whole product); the host stretch after it leaves the reference's aggregate, column means and column
  variances, and the bias, scale and shift as rows; the batch-norm stage leaves the reference's normalized, shifted and
  rectified array (its formula is the reference's, entry by entry, and 1/sqrt(variance + ε) taken on a row is the row of
  the one taken on the vector). Finally the fc stage leaves the reference's logits and their log-softmax.
-/
import proofs.«149855_j47364899340880_1_alg».proof.Proof.Walk
import proofs.«149855_j47364899340880_1_alg».proof.Proof.Host0
import proofs.«149855_j47364899340880_1_alg».proof.Proof.Host1
import proofs.«149855_j47364899340880_1_alg».proof.Proof.Host3
import proofs.«149855_j47364899340880_1_alg».proof.Proof.Host5
import proofs.«149855_j47364899340880_1_alg».proof.Proof.Stage0
import proofs.«149855_j47364899340880_1_alg».proof.Proof.Stage1
import proofs.«149855_j47364899340880_1_alg».proof.Proof.Stage2
import proofs.«149855_j47364899340880_1_alg».proof.Proof.Stage3
import proofs.«149855_j47364899340880_1_alg».proof.Proof.Stage4
import proofs.«149855_j47364899340880_1_alg».proof.Proof.Stage5
import proofs.«149855_j47364899340880_1_alg».proof.Proof.Stage6

set_option maxRecDepth 16384

noncomputable section

namespace Cert.KernelIdeal.Bridge

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The edge arrays -/

theorem src3 : W3 m ρ c (Proc.devRef .tc main_v3) = Cert.ReferenceIdeal.Read.val_main_v3 (m ((c : Thread nD τ).loc main_arg1)) := Host0.src (W0 m ρ c) _ rfl
theorem dst3 : W3 m ρ c (Proc.devRef .tc main_v6) = Cert.ReferenceIdeal.Read.val_main_v6 (m ((c : Thread nD τ).loc main_arg1)) := Host0.dst (W0 m ρ c) _ rfl
theorem wgt3 : W3 m ρ c (Proc.devRef .tc main_v31) = Cert.ReferenceIdeal.Read.val_main_v31 (m ((c : Thread nD τ).loc main_arg1)) := Host0.weight (W0 m ρ c) _ rfl
theorem src4 : W4 m ρ c (Proc.devRef .tc main_v3) = Cert.ReferenceIdeal.Read.val_main_v3 (m ((c : Thread nD τ).loc main_arg1)) := (Walk.v3_at4 m ρ c).trans (src3 m ρ c)
theorem dst4 : W4 m ρ c (Proc.devRef .tc main_v6) = Cert.ReferenceIdeal.Read.val_main_v6 (m ((c : Thread nD τ).loc main_arg1)) := (Walk.v6_at4 m ρ c).trans (dst3 m ρ c)
theorem wgt4 : W4 m ρ c (Proc.devRef .tc main_v31) = Cert.ReferenceIdeal.Read.val_main_v31 (m ((c : Thread nD τ).loc main_arg1)) := (Walk.v31_at4 m ρ c).trans (wgt3 m ρ c)
theorem src7 : W7 m ρ c (Proc.devRef .tc main_v3) = Cert.ReferenceIdeal.Read.val_main_v3 (m ((c : Thread nD τ).loc main_arg1)) := (Walk.v3_at7 m ρ c).trans (src3 m ρ c)
theorem dst7 : W7 m ρ c (Proc.devRef .tc main_v6) = Cert.ReferenceIdeal.Read.val_main_v6 (m ((c : Thread nD τ).loc main_arg1)) := (Walk.v6_at7 m ρ c).trans (dst3 m ρ c)
theorem wgt7 : W7 m ρ c (Proc.devRef .tc main_v31) = Cert.ReferenceIdeal.Read.val_main_v31 (m ((c : Thread nD τ).loc main_arg1)) := (Walk.v31_at7 m ρ c).trans (wgt3 m ρ c)
theorem src10 : W10 m ρ c (Proc.devRef .tc main_v3) = Cert.ReferenceIdeal.Read.val_main_v3 (m ((c : Thread nD τ).loc main_arg1)) := (Walk.v3_at10 m ρ c).trans (src3 m ρ c)
theorem dst10 : W10 m ρ c (Proc.devRef .tc main_v6) = Cert.ReferenceIdeal.Read.val_main_v6 (m ((c : Thread nD τ).loc main_arg1)) := (Walk.v6_at10 m ρ c).trans (dst3 m ρ c)
theorem wgt10 : W10 m ρ c (Proc.devRef .tc main_v31) = Cert.ReferenceIdeal.Read.val_main_v31 (m ((c : Thread nD τ).loc main_arg1)) := (Walk.v31_at10 m ρ c).trans (wgt3 m ρ c)

/-! ## Layer 1 -/

/-- The product stage leaves the reference's product. -/
theorem prod1 : W4 m ρ c (Proc.devRef .tc main_v32) = Cert.ReferenceIdeal.Read.val_main_v32 (m ((c : Thread nD τ).loc main_arg0)) (m ((c : Thread nD τ).loc main_arg2)) :=
  calc W4 m ρ c (Proc.devRef .tc main_v32)
      = (dat0 (V3 m ρ) c).arrAt 2 cfg0.N := W4_arr m ρ c 2
    _ = Stage0.product (W3 m ρ c (Proc.devRef .tc main_arg0)) (W3 m ρ c (Proc.devRef .tc main_arg2)) := Stage0.output (V3 m ρ) c
    _ = Stage0.product (m ((c : Thread nD τ).loc main_arg0)) (m ((c : Thread nD τ).loc main_arg2)) := by rw [Walk.arg0_at3 m ρ c, Walk.arg2_at3 m ρ c]
    _ = Cert.ReferenceIdeal.Read.val_main_v32 (m ((c : Thread nD τ).loc main_arg0)) (m ((c : Thread nD τ).loc main_arg2)) := rfl

theorem agg1 : W5 m ρ c (Proc.devRef .tc main_v45) = Cert.ReferenceIdeal.Read.val_main_v45 (m ((c : Thread nD τ).loc main_arg0)) (m ((c : Thread nD τ).loc main_arg1)) (m ((c : Thread nD τ).loc main_arg2)) :=
  Host1.agg (W4 m ρ c) _ _ _ (prod1 m ρ c) (src4 m ρ c) (dst4 m ρ c) (wgt4 m ρ c)
theorem mean1 : W5 m ρ c (Proc.devRef .tc main_v52) = (broadcastInDim Cert.ReferenceIdeal.S1x128 ![1] Cert.ReferenceIdeal.Facts₀.bcast_S128_S1x128_1 (Cert.ReferenceIdeal.Read.val_main_v51 (m ((c : Thread nD τ).loc main_arg0)) (m ((c : Thread nD τ).loc main_arg1)) (m ((c : Thread nD τ).loc main_arg2)) (m ((c : Thread nD τ).loc main_arg3)))) :=
  Host1.meanRow (W4 m ρ c) _ _ _ _ (prod1 m ρ c) (src4 m ρ c) (dst4 m ρ c) (wgt4 m ρ c) (Walk.arg3_at4 m ρ c)
theorem var1 : W5 m ρ c (Proc.devRef .tc main_v59) = (broadcastInDim Cert.ReferenceIdeal.S1x128 ![1] Cert.ReferenceIdeal.Facts₀.bcast_S128_S1x128_1 (Cert.ReferenceIdeal.Read.val_main_v58 (m ((c : Thread nD τ).loc main_arg0)) (m ((c : Thread nD τ).loc main_arg1)) (m ((c : Thread nD τ).loc main_arg2)) (m ((c : Thread nD τ).loc main_arg3)))) :=
  Host1.varRow (W4 m ρ c) _ _ _ _ (prod1 m ρ c) (src4 m ρ c) (dst4 m ρ c) (wgt4 m ρ c) (Walk.arg3_at4 m ρ c)
theorem bias1 : W5 m ρ c (Proc.devRef .tc main_v60) = (broadcastInDim Cert.ReferenceIdeal.S1x128 ![1] Cert.ReferenceIdeal.Facts₀.bcast_S128_S1x128_1 (m ((c : Thread nD τ).loc main_arg3))) :=
  Host1.biasRow (W4 m ρ c) _ (Walk.arg3_at4 m ρ c)
theorem scale1 : W5 m ρ c (Proc.devRef .tc main_v61) = (broadcastInDim Cert.ReferenceIdeal.S1x128 ![1] Cert.ReferenceIdeal.Facts₀.bcast_S128_S1x128_1 (m ((c : Thread nD τ).loc main_arg8))) :=
  Host1.scaleRow (W4 m ρ c) _ (Walk.arg8_at4 m ρ c)
theorem shift1 : W5 m ρ c (Proc.devRef .tc main_v62) = (broadcastInDim Cert.ReferenceIdeal.S1x128 ![1] Cert.ReferenceIdeal.Facts₀.bcast_S128_S1x128_1 (m ((c : Thread nD τ).loc main_arg9))) :=
  Host1.shiftRow (W4 m ρ c) _ (Walk.arg9_at4 m ρ c)

/-- The batch-norm stage leaves the reference's hidden array. -/
theorem hidden1 : W6 m ρ c (Proc.devRef .tc main_v63) = Cert.ReferenceIdeal.Read.val_main_v74 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) :=
  calc W6 m ρ c (Proc.devRef .tc main_v63)
      = (dat1 (V5 m ρ) c).arrAt 6 cfg1.N := W6_arr m ρ c 6
    _ = Stage1.whole (W5 m ρ c (Proc.devRef .tc main_v45)) (W5 m ρ c (Proc.devRef .tc main_v60)) (W5 m ρ c (Proc.devRef .tc main_v61)) (W5 m ρ c (Proc.devRef .tc main_v62))
          (W5 m ρ c (Proc.devRef .tc main_v52)) (Stage1.invStd (W5 m ρ c (Proc.devRef .tc main_v59))) := Stage1.output (V5 m ρ) c
    _ = Stage1.whole (Cert.ReferenceIdeal.Read.val_main_v45 (m ((c : Thread nD τ).loc main_arg0)) (m ((c : Thread nD τ).loc main_arg1)) (m ((c : Thread nD τ).loc main_arg2))) (broadcastInDim Cert.ReferenceIdeal.S1x128 ![1] Cert.ReferenceIdeal.Facts₀.bcast_S128_S1x128_1 (m ((c : Thread nD τ).loc main_arg3))) (broadcastInDim Cert.ReferenceIdeal.S1x128 ![1] Cert.ReferenceIdeal.Facts₀.bcast_S128_S1x128_1 (m ((c : Thread nD τ).loc main_arg8))) (broadcastInDim Cert.ReferenceIdeal.S1x128 ![1] Cert.ReferenceIdeal.Facts₀.bcast_S128_S1x128_1 (m ((c : Thread nD τ).loc main_arg9)))
          (broadcastInDim Cert.ReferenceIdeal.S1x128 ![1] Cert.ReferenceIdeal.Facts₀.bcast_S128_S1x128_1 (Cert.ReferenceIdeal.Read.val_main_v51 (m ((c : Thread nD τ).loc main_arg0)) (m ((c : Thread nD τ).loc main_arg1)) (m ((c : Thread nD τ).loc main_arg2)) (m ((c : Thread nD τ).loc main_arg3)))) (Stage1.invStd (broadcastInDim Cert.ReferenceIdeal.S1x128 ![1] Cert.ReferenceIdeal.Facts₀.bcast_S128_S1x128_1 (Cert.ReferenceIdeal.Read.val_main_v58 (m ((c : Thread nD τ).loc main_arg0)) (m ((c : Thread nD τ).loc main_arg1)) (m ((c : Thread nD τ).loc main_arg2)) (m ((c : Thread nD τ).loc main_arg3))))) := by
        rw [agg1 m ρ c, bias1 m ρ c, scale1 m ρ c, shift1 m ρ c, mean1 m ρ c, var1 m ρ c]
    _ = Stage1.whole (Cert.ReferenceIdeal.Read.val_main_v45 (m ((c : Thread nD τ).loc main_arg0)) (m ((c : Thread nD τ).loc main_arg1)) (m ((c : Thread nD τ).loc main_arg2))) (broadcastInDim Cert.ReferenceIdeal.S1x128 ![1] Cert.ReferenceIdeal.Facts₀.bcast_S128_S1x128_1 (m ((c : Thread nD τ).loc main_arg3))) (broadcastInDim Cert.ReferenceIdeal.S1x128 ![1] Cert.ReferenceIdeal.Facts₀.bcast_S128_S1x128_1 (m ((c : Thread nD τ).loc main_arg8))) (broadcastInDim Cert.ReferenceIdeal.S1x128 ![1] Cert.ReferenceIdeal.Facts₀.bcast_S128_S1x128_1 (m ((c : Thread nD τ).loc main_arg9)))
          (broadcastInDim Cert.ReferenceIdeal.S1x128 ![1] Cert.ReferenceIdeal.Facts₀.bcast_S128_S1x128_1 (Cert.ReferenceIdeal.Read.val_main_v51 (m ((c : Thread nD τ).loc main_arg0)) (m ((c : Thread nD τ).loc main_arg1)) (m ((c : Thread nD τ).loc main_arg2)) (m ((c : Thread nD τ).loc main_arg3)))) (Cert.ReferenceIdeal.Read.val_main_v68 (m ((c : Thread nD τ).loc main_arg0)) (m ((c : Thread nD τ).loc main_arg1)) (m ((c : Thread nD τ).loc main_arg2)) (m ((c : Thread nD τ).loc main_arg3))) := by
        unfold Stage1.invStd
        rw [Cert.LibRows.rsqrt_add_row 0x3727C5AC#32 _ ![1] rfl Cert.ReferenceIdeal.Facts₀.bcast_S128_S1x128_1 ![] Cert.ReferenceIdeal.Facts₀.bcast_S_S128]
        rfl
    _ = Cert.ReferenceIdeal.Read.val_main_v74 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) := rfl

/-! ## Layer 2 -/

/-- The product stage leaves the reference's product. -/
theorem prod2 : W7 m ρ c (Proc.devRef .tc main_v64) = Cert.ReferenceIdeal.Read.val_main_v75 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) :=
  calc W7 m ρ c (Proc.devRef .tc main_v64)
      = (dat2 (V6 m ρ) c).arrAt 2 cfg2.N := W7_arr m ρ c 2
    _ = Stage2.product (W6 m ρ c (Proc.devRef .tc main_v63)) (W6 m ρ c (Proc.devRef .tc main_arg4)) := Stage2.output (V6 m ρ) c
    _ = Stage2.product (Cert.ReferenceIdeal.Read.val_main_v74 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))) (m ((c : Thread nD τ).loc main_arg4)) := by rw [hidden1 m ρ c, Walk.arg4_at6 m ρ c]
    _ = Cert.ReferenceIdeal.Read.val_main_v75 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) := rfl

theorem agg2 : W8 m ρ c (Proc.devRef .tc main_v77) = Cert.ReferenceIdeal.Read.val_main_v88 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) :=
  Host3.agg (W7 m ρ c) _ _ _ _ _ _ _ (prod2 m ρ c) (src7 m ρ c) (dst7 m ρ c) (wgt7 m ρ c)
theorem mean2 : W8 m ρ c (Proc.devRef .tc main_v84) = (broadcastInDim Cert.ReferenceIdeal.S1x128 ![1] Cert.ReferenceIdeal.Facts₀.bcast_S128_S1x128_1 (Cert.ReferenceIdeal.Read.val_main_v94 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)))) :=
  Host3.meanRow (W7 m ρ c) _ _ _ _ _ _ _ _ (prod2 m ρ c) (src7 m ρ c) (dst7 m ρ c) (wgt7 m ρ c) (Walk.arg5_at7 m ρ c)
theorem var2 : W8 m ρ c (Proc.devRef .tc main_v91) = (broadcastInDim Cert.ReferenceIdeal.S1x128 ![1] Cert.ReferenceIdeal.Facts₀.bcast_S128_S1x128_1 (Cert.ReferenceIdeal.Read.val_main_v101 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)))) :=
  Host3.varRow (W7 m ρ c) _ _ _ _ _ _ _ _ (prod2 m ρ c) (src7 m ρ c) (dst7 m ρ c) (wgt7 m ρ c) (Walk.arg5_at7 m ρ c)
theorem bias2 : W8 m ρ c (Proc.devRef .tc main_v92) = (broadcastInDim Cert.ReferenceIdeal.S1x128 ![1] Cert.ReferenceIdeal.Facts₀.bcast_S128_S1x128_1 (m ((c : Thread nD τ).loc main_arg5))) :=
  Host3.biasRow (W7 m ρ c) _ (Walk.arg5_at7 m ρ c)
theorem scale2 : W8 m ρ c (Proc.devRef .tc main_v93) = (broadcastInDim Cert.ReferenceIdeal.S1x128 ![1] Cert.ReferenceIdeal.Facts₀.bcast_S128_S1x128_1 (m ((c : Thread nD τ).loc main_arg10))) :=
  Host3.scaleRow (W7 m ρ c) _ (Walk.arg10_at7 m ρ c)
theorem shift2 : W8 m ρ c (Proc.devRef .tc main_v94) = (broadcastInDim Cert.ReferenceIdeal.S1x128 ![1] Cert.ReferenceIdeal.Facts₀.bcast_S128_S1x128_1 (m ((c : Thread nD τ).loc main_arg11))) :=
  Host3.shiftRow (W7 m ρ c) _ (Walk.arg11_at7 m ρ c)

/-- The batch-norm stage leaves the reference's hidden array. -/
theorem hidden2 : W9 m ρ c (Proc.devRef .tc main_v95) = Cert.ReferenceIdeal.Read.val_main_v117 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) :=
  calc W9 m ρ c (Proc.devRef .tc main_v95)
      = (dat3 (V8 m ρ) c).arrAt 6 cfg3.N := W9_arr m ρ c 6
    _ = Stage3.whole (W8 m ρ c (Proc.devRef .tc main_v77)) (W8 m ρ c (Proc.devRef .tc main_v92)) (W8 m ρ c (Proc.devRef .tc main_v93)) (W8 m ρ c (Proc.devRef .tc main_v94))
          (W8 m ρ c (Proc.devRef .tc main_v84)) (Stage3.invStd (W8 m ρ c (Proc.devRef .tc main_v91))) := Stage3.output (V8 m ρ) c
    _ = Stage3.whole (Cert.ReferenceIdeal.Read.val_main_v88 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9))) (broadcastInDim Cert.ReferenceIdeal.S1x128 ![1] Cert.ReferenceIdeal.Facts₀.bcast_S128_S1x128_1 (m ((c : Thread nD τ).loc main_arg5))) (broadcastInDim Cert.ReferenceIdeal.S1x128 ![1] Cert.ReferenceIdeal.Facts₀.bcast_S128_S1x128_1 (m ((c : Thread nD τ).loc main_arg10))) (broadcastInDim Cert.ReferenceIdeal.S1x128 ![1] Cert.ReferenceIdeal.Facts₀.bcast_S128_S1x128_1 (m ((c : Thread nD τ).loc main_arg11)))
          (broadcastInDim Cert.ReferenceIdeal.S1x128 ![1] Cert.ReferenceIdeal.Facts₀.bcast_S128_S1x128_1 (Cert.ReferenceIdeal.Read.val_main_v94 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)))) (Stage3.invStd (broadcastInDim Cert.ReferenceIdeal.S1x128 ![1] Cert.ReferenceIdeal.Facts₀.bcast_S128_S1x128_1 (Cert.ReferenceIdeal.Read.val_main_v101 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9))))) := by
        rw [agg2 m ρ c, bias2 m ρ c, scale2 m ρ c, shift2 m ρ c, mean2 m ρ c, var2 m ρ c]
    _ = Stage3.whole (Cert.ReferenceIdeal.Read.val_main_v88 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9))) (broadcastInDim Cert.ReferenceIdeal.S1x128 ![1] Cert.ReferenceIdeal.Facts₀.bcast_S128_S1x128_1 (m ((c : Thread nD τ).loc main_arg5))) (broadcastInDim Cert.ReferenceIdeal.S1x128 ![1] Cert.ReferenceIdeal.Facts₀.bcast_S128_S1x128_1 (m ((c : Thread nD τ).loc main_arg10))) (broadcastInDim Cert.ReferenceIdeal.S1x128 ![1] Cert.ReferenceIdeal.Facts₀.bcast_S128_S1x128_1 (m ((c : Thread nD τ).loc main_arg11)))
          (broadcastInDim Cert.ReferenceIdeal.S1x128 ![1] Cert.ReferenceIdeal.Facts₀.bcast_S128_S1x128_1 (Cert.ReferenceIdeal.Read.val_main_v94 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)))) (Cert.ReferenceIdeal.Read.val_main_v111 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9))) := by
        unfold Stage3.invStd
        rw [Cert.LibRows.rsqrt_add_row 0x3727C5AC#32 _ ![1] rfl Cert.ReferenceIdeal.Facts₀.bcast_S128_S1x128_1 ![] Cert.ReferenceIdeal.Facts₀.bcast_S_S128]
        rfl
    _ = Cert.ReferenceIdeal.Read.val_main_v117 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) := rfl

/-! ## Layer 3 -/

/-- The product stage leaves the reference's product. -/
theorem prod3 : W10 m ρ c (Proc.devRef .tc main_v96) = Cert.ReferenceIdeal.Read.val_main_v118 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) :=
  calc W10 m ρ c (Proc.devRef .tc main_v96)
      = (dat4 (V9 m ρ) c).arrAt 2 cfg4.N := W10_arr m ρ c 2
    _ = Stage4.product (W9 m ρ c (Proc.devRef .tc main_v95)) (W9 m ρ c (Proc.devRef .tc main_arg6)) := Stage4.output (V9 m ρ) c
    _ = Stage4.product (Cert.ReferenceIdeal.Read.val_main_v117 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11))) (m ((c : Thread nD τ).loc main_arg6)) := by rw [hidden2 m ρ c, Walk.arg6_at9 m ρ c]
    _ = Cert.ReferenceIdeal.Read.val_main_v118 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) := rfl

theorem agg3 : W11 m ρ c (Proc.devRef .tc main_v109) = Cert.ReferenceIdeal.Read.val_main_v131 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) :=
  Host5.agg (W10 m ρ c) _ _ _ _ _ _ _ _ _ _ _ (prod3 m ρ c) (src10 m ρ c) (dst10 m ρ c) (wgt10 m ρ c)
theorem mean3 : W11 m ρ c (Proc.devRef .tc main_v116) = (broadcastInDim Cert.ReferenceIdeal.S1x128 ![1] Cert.ReferenceIdeal.Facts₀.bcast_S128_S1x128_1 (Cert.ReferenceIdeal.Read.val_main_v137 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))) :=
  Host5.meanRow (W10 m ρ c) _ _ _ _ _ _ _ _ _ _ _ _ (prod3 m ρ c) (src10 m ρ c) (dst10 m ρ c) (wgt10 m ρ c) (Walk.arg7_at10 m ρ c)
theorem var3 : W11 m ρ c (Proc.devRef .tc main_v123) = (broadcastInDim Cert.ReferenceIdeal.S1x128 ![1] Cert.ReferenceIdeal.Facts₀.bcast_S128_S1x128_1 (Cert.ReferenceIdeal.Read.val_main_v144 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))) :=
  Host5.varRow (W10 m ρ c) _ _ _ _ _ _ _ _ _ _ _ _ (prod3 m ρ c) (src10 m ρ c) (dst10 m ρ c) (wgt10 m ρ c) (Walk.arg7_at10 m ρ c)
theorem bias3 : W11 m ρ c (Proc.devRef .tc main_v124) = (broadcastInDim Cert.ReferenceIdeal.S1x128 ![1] Cert.ReferenceIdeal.Facts₀.bcast_S128_S1x128_1 (m ((c : Thread nD τ).loc main_arg7))) :=
  Host5.biasRow (W10 m ρ c) _ (Walk.arg7_at10 m ρ c)
theorem scale3 : W11 m ρ c (Proc.devRef .tc main_v125) = (broadcastInDim Cert.ReferenceIdeal.S1x128 ![1] Cert.ReferenceIdeal.Facts₀.bcast_S128_S1x128_1 (m ((c : Thread nD τ).loc main_arg12))) :=
  Host5.scaleRow (W10 m ρ c) _ (Walk.arg12_at10 m ρ c)
theorem shift3 : W11 m ρ c (Proc.devRef .tc main_v126) = (broadcastInDim Cert.ReferenceIdeal.S1x128 ![1] Cert.ReferenceIdeal.Facts₀.bcast_S128_S1x128_1 (m ((c : Thread nD τ).loc main_arg13))) :=
  Host5.shiftRow (W10 m ρ c) _ (Walk.arg13_at10 m ρ c)

/-- The batch-norm stage leaves the reference's hidden array. -/
theorem hidden3 : W12 m ρ c (Proc.devRef .tc main_v127) = Cert.ReferenceIdeal.Read.val_main_v160 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  calc W12 m ρ c (Proc.devRef .tc main_v127)
      = (dat5 (V11 m ρ) c).arrAt 6 cfg5.N := W12_arr m ρ c 6
    _ = Stage5.whole (W11 m ρ c (Proc.devRef .tc main_v109)) (W11 m ρ c (Proc.devRef .tc main_v124)) (W11 m ρ c (Proc.devRef .tc main_v125)) (W11 m ρ c (Proc.devRef .tc main_v126))
          (W11 m ρ c (Proc.devRef .tc main_v116)) (Stage5.invStd (W11 m ρ c (Proc.devRef .tc main_v123))) := Stage5.output (V11 m ρ) c
    _ = Stage5.whole (Cert.ReferenceIdeal.Read.val_main_v131 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11))) (broadcastInDim Cert.ReferenceIdeal.S1x128 ![1] Cert.ReferenceIdeal.Facts₀.bcast_S128_S1x128_1 (m ((c : Thread nD τ).loc main_arg7))) (broadcastInDim Cert.ReferenceIdeal.S1x128 ![1] Cert.ReferenceIdeal.Facts₀.bcast_S128_S1x128_1 (m ((c : Thread nD τ).loc main_arg12))) (broadcastInDim Cert.ReferenceIdeal.S1x128 ![1] Cert.ReferenceIdeal.Facts₀.bcast_S128_S1x128_1 (m ((c : Thread nD τ).loc main_arg13)))
          (broadcastInDim Cert.ReferenceIdeal.S1x128 ![1] Cert.ReferenceIdeal.Facts₀.bcast_S128_S1x128_1 (Cert.ReferenceIdeal.Read.val_main_v137 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))) (Stage5.invStd (broadcastInDim Cert.ReferenceIdeal.S1x128 ![1] Cert.ReferenceIdeal.Facts₀.bcast_S128_S1x128_1 (Cert.ReferenceIdeal.Read.val_main_v144 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))))) := by
        rw [agg3 m ρ c, bias3 m ρ c, scale3 m ρ c, shift3 m ρ c, mean3 m ρ c, var3 m ρ c]
    _ = Stage5.whole (Cert.ReferenceIdeal.Read.val_main_v131 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11))) (broadcastInDim Cert.ReferenceIdeal.S1x128 ![1] Cert.ReferenceIdeal.Facts₀.bcast_S128_S1x128_1 (m ((c : Thread nD τ).loc main_arg7))) (broadcastInDim Cert.ReferenceIdeal.S1x128 ![1] Cert.ReferenceIdeal.Facts₀.bcast_S128_S1x128_1 (m ((c : Thread nD τ).loc main_arg12))) (broadcastInDim Cert.ReferenceIdeal.S1x128 ![1] Cert.ReferenceIdeal.Facts₀.bcast_S128_S1x128_1 (m ((c : Thread nD τ).loc main_arg13)))
          (broadcastInDim Cert.ReferenceIdeal.S1x128 ![1] Cert.ReferenceIdeal.Facts₀.bcast_S128_S1x128_1 (Cert.ReferenceIdeal.Read.val_main_v137 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))) (Cert.ReferenceIdeal.Read.val_main_v154 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
        unfold Stage5.invStd
        rw [Cert.LibRows.rsqrt_add_row 0x3727C5AC#32 _ ![1] rfl Cert.ReferenceIdeal.Facts₀.bcast_S128_S1x128_1 ![] Cert.ReferenceIdeal.Facts₀.bcast_S_S128]
        rfl
    _ = Cert.ReferenceIdeal.Read.val_main_v160 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := rfl

/-! ## The fc stage -/

theorem hidden3_at13 : W13 m ρ c (Proc.devRef .tc main_v127) = Cert.ReferenceIdeal.Read.val_main_v160 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := (Walk.v127_at13 m ρ c).trans (hidden3 m ρ c)
theorem fcBias13 : W13 m ρ c (Proc.devRef .tc main_v128) = broadcastInDim Cert.ReferenceIdeal.S1x40 ![1] Cert.ReferenceIdeal.Facts₀.bcast_S40_S1x40_1 (m ((c : Thread nD τ).loc main_arg15)) :=
  Host0.fcBiasRow (W12 m ρ c) _ (Walk.arg15_at12 m ρ c)

/-- The logits. -/
theorem logits : W14 m ρ c (Proc.devRef .tc main_v129_1) = Cert.ReferenceIdeal.Read.val_main_v165 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  calc W14 m ρ c (Proc.devRef .tc main_v129_1)
      = (dat6 (V13 m ρ) c).arrAt 4 cfg6.N := W14_arr m ρ c 4
    _ = Stage6.logits (W13 m ρ c (Proc.devRef .tc main_v127)) (W13 m ρ c (Proc.devRef .tc main_arg14)) (W13 m ρ c (Proc.devRef .tc main_v128)) := Stage6.output_4 (V13 m ρ) c
    _ = Stage6.logits (Cert.ReferenceIdeal.Read.val_main_v160 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg14)) (broadcastInDim Cert.ReferenceIdeal.S1x40 ![1] Cert.ReferenceIdeal.Facts₀.bcast_S40_S1x40_1 (m ((c : Thread nD τ).loc main_arg15))) := by
        rw [hidden3_at13 m ρ c, Walk.arg14_at13 m ρ c, fcBias13 m ρ c]
    _ = Cert.ReferenceIdeal.Read.val_main_v165 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := rfl

/-- The log-probabilities. -/
theorem logProbs : W14 m ρ c (Proc.devRef .tc main_v129_0) = Cert.ReferenceIdeal.Read.val_main_v166 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  calc W14 m ρ c (Proc.devRef .tc main_v129_0)
      = (dat6 (V13 m ρ) c).arrAt 3 cfg6.N := W14_arr m ρ c 3
    _ = Stage6.logSoftmax (Stage6.logits (W13 m ρ c (Proc.devRef .tc main_v127)) (W13 m ρ c (Proc.devRef .tc main_arg14)) (W13 m ρ c (Proc.devRef .tc main_v128))) := Stage6.output_3 (V13 m ρ) c
    _ = Stage6.logSoftmax (Stage6.logits (Cert.ReferenceIdeal.Read.val_main_v160 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg14)) (broadcastInDim Cert.ReferenceIdeal.S1x40 ![1] Cert.ReferenceIdeal.Facts₀.bcast_S40_S1x40_1 (m ((c : Thread nD τ).loc main_arg15)))) := by
        rw [hidden3_at13 m ρ c, Walk.arg14_at13 m ρ c, fcBias13 m ρ c]
    _ = Cert.ReferenceIdeal.Read.val_main_v166 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := rfl

end Cert.KernelIdeal.Bridge

end
-- ==== Proof.lean ====
/-
  The certificate of the three-layer graph convolution with batch normalization and a log-softmax head.

  The kernel runs seven row-tiled stages (three matrix products, three bias-batchnorm-ReLU stages and the final dense
  layer with its log-softmax) among host stretches that gather along the edges and add up at the destinations; the
  reference does everything on the host. The three frames: the two kernel programs by the launch of their stages, the
  reference by its run. Nothing was rewritten by the idealization. At the ideal values the two programs agree: a
  change of float format is the identity, a product tiled over rows is the whole product, every other stage acts on a
  row tile as the whole-array formula acts on those rows, and the host operations between the stages are the
  reference's own; so both result arrays are the reference's, element by element.
-/
import proofs.«149855_j47364899340880_1_alg».proof.Defs
import proofs.«149855_j47364899340880_1_alg».proof.Proof.Gen.Kernel
import proofs.«149855_j47364899340880_1_alg».proof.Proof.Gen.Kernel.Frame
import proofs.«149855_j47364899340880_1_alg».proof.Proof.Gen.KernelIdeal
import proofs.«149855_j47364899340880_1_alg».proof.Proof.Gen.KernelIdeal.Frame
import proofs.«149855_j47364899340880_1_alg».proof.Proof.Gen.ReferenceIdeal
import proofs.«149855_j47364899340880_1_alg».proof.Proof.RefRun
import proofs.«149855_j47364899340880_1_alg».proof.Proof.RefRead
import proofs.«149855_j47364899340880_1_alg».proof.Proof.RefValue
import proofs.«149855_j47364899340880_1_alg».proof.Proof.Gen.Pre_finite_inputs
import proofs.«149855_j47364899340880_1_alg».proof.Proof.KernelRun
import proofs.«149855_j47364899340880_1_alg».proof.Proof.Bridge

set_option maxRecDepth 16384

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run leaves its arguments as launched. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans (Cert.ReferenceIdeal.RefValue.arg_kept (StableHlo.launchContents m c) Cert.ReferenceIdeal.main_arg0 (by decide) (by decide) (by decide) (by decide) (by decide)),
      (h c Cert.ReferenceIdeal.main_arg1).trans (Cert.ReferenceIdeal.RefValue.arg_kept (StableHlo.launchContents m c) Cert.ReferenceIdeal.main_arg1 (by decide) (by decide) (by decide) (by decide) (by decide)),
      (h c Cert.ReferenceIdeal.main_arg2).trans (Cert.ReferenceIdeal.RefValue.arg_kept (StableHlo.launchContents m c) Cert.ReferenceIdeal.main_arg2 (by decide) (by decide) (by decide) (by decide) (by decide)),
      (h c Cert.ReferenceIdeal.main_arg3).trans (Cert.ReferenceIdeal.RefValue.arg_kept (StableHlo.launchContents m c) Cert.ReferenceIdeal.main_arg3 (by decide) (by decide) (by decide) (by decide) (by decide)),
      (h c Cert.ReferenceIdeal.main_arg4).trans (Cert.ReferenceIdeal.RefValue.arg_kept (StableHlo.launchContents m c) Cert.ReferenceIdeal.main_arg4 (by decide) (by decide) (by decide) (by decide) (by decide)),
      (h c Cert.ReferenceIdeal.main_arg5).trans (Cert.ReferenceIdeal.RefValue.arg_kept (StableHlo.launchContents m c) Cert.ReferenceIdeal.main_arg5 (by decide) (by decide) (by decide) (by decide) (by decide)),
      (h c Cert.ReferenceIdeal.main_arg6).trans (Cert.ReferenceIdeal.RefValue.arg_kept (StableHlo.launchContents m c) Cert.ReferenceIdeal.main_arg6 (by decide) (by decide) (by decide) (by decide) (by decide)),
      (h c Cert.ReferenceIdeal.main_arg7).trans (Cert.ReferenceIdeal.RefValue.arg_kept (StableHlo.launchContents m c) Cert.ReferenceIdeal.main_arg7 (by decide) (by decide) (by decide) (by decide) (by decide)),
      (h c Cert.ReferenceIdeal.main_arg8).trans (Cert.ReferenceIdeal.RefValue.arg_kept (StableHlo.launchContents m c) Cert.ReferenceIdeal.main_arg8 (by decide) (by decide) (by decide) (by decide) (by decide)),
      (h c Cert.ReferenceIdeal.main_arg9).trans (Cert.ReferenceIdeal.RefValue.arg_kept (StableHlo.launchContents m c) Cert.ReferenceIdeal.main_arg9 (by decide) (by decide) (by decide) (by decide) (by decide)),
      (h c Cert.ReferenceIdeal.main_arg10).trans (Cert.ReferenceIdeal.RefValue.arg_kept (StableHlo.launchContents m c) Cert.ReferenceIdeal.main_arg10 (by decide) (by decide) (by decide) (by decide) (by decide)),
      (h c Cert.ReferenceIdeal.main_arg11).trans (Cert.ReferenceIdeal.RefValue.arg_kept (StableHlo.launchContents m c) Cert.ReferenceIdeal.main_arg11 (by decide) (by decide) (by decide) (by decide) (by decide)),
      (h c Cert.ReferenceIdeal.main_arg12).trans (Cert.ReferenceIdeal.RefValue.arg_kept (StableHlo.launchContents m c) Cert.ReferenceIdeal.main_arg12 (by decide) (by decide) (by decide) (by decide) (by decide)),
      (h c Cert.ReferenceIdeal.main_arg13).trans (Cert.ReferenceIdeal.RefValue.arg_kept (StableHlo.launchContents m c) Cert.ReferenceIdeal.main_arg13 (by decide) (by decide) (by decide) (by decide) (by decide)),
      (h c Cert.ReferenceIdeal.main_arg14).trans (Cert.ReferenceIdeal.RefValue.arg_kept (StableHlo.launchContents m c) Cert.ReferenceIdeal.main_arg14 (by decide) (by decide) (by decide) (by decide) (by decide)),
      (h c Cert.ReferenceIdeal.main_arg15).trans (Cert.ReferenceIdeal.RefValue.arg_kept (StableHlo.launchContents m c) Cert.ReferenceIdeal.main_arg15 (by decide) (by decide) (by decide) (by decide) (by decide))⟩)
    (Cert.ReferenceIdeal.Value.run (F := Ideal) m ρ)

/-- Both programs end with the reference's log-probabilities and logits of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v166 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.ReferenceIdeal.Read.val_main_v165 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Bridge.logProbs m ρ c), (h c).2.1.trans (Cert.KernelIdeal.Bridge.logits m ρ c), (h c).2.2⟩)
      (Cert.KernelIdeal.RunVals.run m ρ)
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14, e15⟩ := hagree c
    refine ⟨(h c Cert.ReferenceIdeal.main_v166).trans ((Cert.ReferenceIdeal.RefValue.logProbs (StableHlo.launchContents m' c)).trans ?_),
      (h c Cert.ReferenceIdeal.main_v165).trans ((Cert.ReferenceIdeal.RefValue.logits (StableHlo.launchContents m' c)).trans ?_),
      (h c Cert.ReferenceIdeal.main_arg0).trans (Cert.ReferenceIdeal.RefValue.arg_kept (StableHlo.launchContents m' c) Cert.ReferenceIdeal.main_arg0 (by decide) (by decide) (by decide) (by decide) (by decide)),
      (h c Cert.ReferenceIdeal.main_arg1).trans (Cert.ReferenceIdeal.RefValue.arg_kept (StableHlo.launchContents m' c) Cert.ReferenceIdeal.main_arg1 (by decide) (by decide) (by decide) (by decide) (by decide)),
      (h c Cert.ReferenceIdeal.main_arg2).trans (Cert.ReferenceIdeal.RefValue.arg_kept (StableHlo.launchContents m' c) Cert.ReferenceIdeal.main_arg2 (by decide) (by decide) (by decide) (by decide) (by decide)),
      (h c Cert.ReferenceIdeal.main_arg3).trans (Cert.ReferenceIdeal.RefValue.arg_kept (StableHlo.launchContents m' c) Cert.ReferenceIdeal.main_arg3 (by decide) (by decide) (by decide) (by decide) (by decide)),
      (h c Cert.ReferenceIdeal.main_arg4).trans (Cert.ReferenceIdeal.RefValue.arg_kept (StableHlo.launchContents m' c) Cert.ReferenceIdeal.main_arg4 (by decide) (by decide) (by decide) (by decide) (by decide)),
      (h c Cert.ReferenceIdeal.main_arg5).trans (Cert.ReferenceIdeal.RefValue.arg_kept (StableHlo.launchContents m' c) Cert.ReferenceIdeal.main_arg5 (by decide) (by decide) (by decide) (by decide) (by decide)),
      (h c Cert.ReferenceIdeal.main_arg6).trans (Cert.ReferenceIdeal.RefValue.arg_kept (StableHlo.launchContents m' c) Cert.ReferenceIdeal.main_arg6 (by decide) (by decide) (by decide) (by decide) (by decide)),
      (h c Cert.ReferenceIdeal.main_arg7).trans (Cert.ReferenceIdeal.RefValue.arg_kept (StableHlo.launchContents m' c) Cert.ReferenceIdeal.main_arg7 (by decide) (by decide) (by decide) (by decide) (by decide)),
      (h c Cert.ReferenceIdeal.main_arg8).trans (Cert.ReferenceIdeal.RefValue.arg_kept (StableHlo.launchContents m' c) Cert.ReferenceIdeal.main_arg8 (by decide) (by decide) (by decide) (by decide) (by decide)),
      (h c Cert.ReferenceIdeal.main_arg9).trans (Cert.ReferenceIdeal.RefValue.arg_kept (StableHlo.launchContents m' c) Cert.ReferenceIdeal.main_arg9 (by decide) (by decide) (by decide) (by decide) (by decide)),
      (h c Cert.ReferenceIdeal.main_arg10).trans (Cert.ReferenceIdeal.RefValue.arg_kept (StableHlo.launchContents m' c) Cert.ReferenceIdeal.main_arg10 (by decide) (by decide) (by decide) (by decide) (by decide)),
      (h c Cert.ReferenceIdeal.main_arg11).trans (Cert.ReferenceIdeal.RefValue.arg_kept (StableHlo.launchContents m' c) Cert.ReferenceIdeal.main_arg11 (by decide) (by decide) (by decide) (by decide) (by decide)),
      (h c Cert.ReferenceIdeal.main_arg12).trans (Cert.ReferenceIdeal.RefValue.arg_kept (StableHlo.launchContents m' c) Cert.ReferenceIdeal.main_arg12 (by decide) (by decide) (by decide) (by decide) (by decide)),
      (h c Cert.ReferenceIdeal.main_arg13).trans (Cert.ReferenceIdeal.RefValue.arg_kept (StableHlo.launchContents m' c) Cert.ReferenceIdeal.main_arg13 (by decide) (by decide) (by decide) (by decide) (by decide)),
      (h c Cert.ReferenceIdeal.main_arg14).trans (Cert.ReferenceIdeal.RefValue.arg_kept (StableHlo.launchContents m' c) Cert.ReferenceIdeal.main_arg14 (by decide) (by decide) (by decide) (by decide) (by decide)),
      (h c Cert.ReferenceIdeal.main_arg15).trans (Cert.ReferenceIdeal.RefValue.arg_kept (StableHlo.launchContents m' c) Cert.ReferenceIdeal.main_arg15 (by decide) (by decide) (by decide) (by decide) (by decide))⟩
    · show Cert.ReferenceIdeal.Read.val_main_v166 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = _
      rw [e0, e1, e2, e3, e4, e5, e6, e7, e8, e9, e10, e11, e12, e13, e14, e15]
    · show Cert.ReferenceIdeal.Read.val_main_v165 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = _
      rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
